-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x32x32 : Shape := ⟨4, ![8, 256, 32, 32]⟩
abbrev S256x2048 : Shape := ⟨2, ![256, 2048]⟩
abbrev S2048 : Shape := ⟨1, ![2048]⟩
abbrev S_ : Shape := ⟨0, ![]⟩

class Facts : Prop where
  bcast_S_S8x256x32x32 : S_.BroadcastsInDim S8x256x32x32 (![] : Fin 0 → Fin S8x256x32x32.rank)
  reducesTo_S8x256x32x32_S_d0_1_2_3 : S8x256x32x32.ReducesTo [0, 1, 2, 3] S_
  h_S_ : 0 < S_.numel
  bcast_S_S256x2048 : S_.BroadcastsInDim S256x2048 (![] : Fin 0 → Fin S256x2048.rank)
  reducesTo_S256x2048_S_d0_1 : S256x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_arg5 : FVec F S256x2048 .f32) (main_arg6 : FVec F S2048 .f32) (main_v13 : IVec S_ 1) (main_v16 : IVec S256x2048 1) : IVec S_ 1 :=
  let main_c_5 : IVec S_ 1 := constantI S_ 1 1#1
  let main_v17 : IVec S_ 1 := (fun x v => Host.reduce IntOp.andi x v reducesTo_S256x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S256x2048 .f32 := Host.absf main_arg5
  let main_cst_8 : FVec F S_ .f32 := constant S_ .f32 0x7F800000#32
  let main_v25 : FVec F S256x2048 .f32 := broadcastInDim S256x2048 ![] bcast_S_S256x2048 main_cst_8
  let main_v26 : IVec S256x2048 1 := cmpf .olt main_v24 main_v25
  let main_c_9 : IVec S_ 1 := constantI S_ 1 1#1
  let main_v27 : IVec S_ 1 := (fun x v => Host.reduce IntOp.andi x v reducesTo_S256x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  main_v33

def fn {F : FTy → Type} [FloatOps F] (main_arg0 : FVec F S8x256x32x32 .f32) (main_arg1 : FVec F S256x2048 .f32) (main_arg2 : FVec F S2048 .f32) (main_arg3 : FVec F S256x2048 .f32) (main_arg4 : FVec F S2048 .f32) (main_arg5 : FVec F S256x2048 .f32) (main_arg6 : FVec F S2048 .f32) : IVec S_ 1 :=
  let main_v0 : FVec F S8x256x32x32 .f32 := Host.absf main_arg0
  let main_cst : FVec F S_ .f32 := constant S_ .f32 0x7F800000#32
  let main_v1 : FVec F S8x256x32x32 .f32 := broadcastInDim S8x256x32x32 ![] bcast_S_S8x256x32x32 main_cst
  let main_v2 : IVec S8x256x32x32 1 := cmpf .olt main_v0 main_v1
  let main_c : IVec S_ 1 := constantI S_ 1 1#1
  let main_v3 : IVec S_ 1 := (fun x v => Host.reduce IntOp.andi x v reducesTo_S8x256x32x32_S_d0_1_2_3 h_S_) main_v2 main_c
  let main_v4 : FVec F S256x2048 .f32 := Host.absf main_arg1
  let main_cst_0 : FVec F S_ .f32 := constant S_ .f32 0x7F800000#32
  let main_v5 : FVec F S256x2048 .f32 := broadcastInDim S256x2048 ![] bcast_S_S256x2048 main_cst_0
  let main_v6 : IVec S256x2048 1 := cmpf .olt main_v4 main_v5
  let main_c_1 : IVec S_ 1 := constantI S_ 1 1#1
  let main_v7 : IVec S_ 1 := (fun x v => Host.reduce IntOp.andi x v reducesTo_S256x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S256x2048 .f32 := Host.absf main_arg3
  let main_cst_4 : FVec F S_ .f32 := constant S_ .f32 0x7F800000#32
  let main_v15 : FVec F S256x2048 .f32 := broadcastInDim S256x2048 ![] bcast_S_S256x2048 main_cst_4
  let main_v16 : IVec S256x2048 1 := cmpf .olt main_v14 main_v15
  fn_part1 (F := F) main_arg4 main_arg5 main_arg6 main_v13 main_v16
-- ==== Kernel.lean ====
abbrev S8x256x32x32 : Shape := ⟨4, ![8, 256, 32, 32]⟩
abbrev S256x2048 : Shape := ⟨2, ![256, 2048]⟩
abbrev S2048 : Shape := ⟨1, ![2048]⟩
abbrev S8x256x1024 : Shape := ⟨3, ![8, 256, 1024]⟩
abbrev S256x8x256 : Shape := ⟨3, ![256, 8, 256]⟩
abbrev S256x8x1x256 : Shape := ⟨4, ![256, 8, 1, 256]⟩
abbrev S256x8x3x256 : Shape := ⟨4, ![256, 8, 3, 256]⟩
abbrev S256x6144 : Shape := ⟨2, ![256, 6144]⟩
abbrev S8x256 : Shape := ⟨2, ![8, 256]⟩
abbrev S8x1x256 : Shape := ⟨3, ![8, 1, 256]⟩
abbrev S8x3x256 : Shape := ⟨3, ![8, 3, 256]⟩
abbrev S1x6144 : Shape := ⟨2, ![1, 6144]⟩
abbrev S8x1024x2048 : Shape := ⟨3, ![8, 1024, 2048]⟩
abbrev S1x256x1024 : Shape := ⟨3, ![1, 256, 1024]⟩
abbrev S256x768 : Shape := ⟨2, ![256, 768]⟩
abbrev S1x768 : Shape := ⟨2, ![1, 768]⟩
abbrev S1x1024x256 : Shape := ⟨3, ![1, 1024, 256]⟩
abbrev S256x1024 : Shape := ⟨2, ![256, 1024]⟩
abbrev S1024x256 : Shape := ⟨2, ![1024, 256]⟩
abbrev S1024x768 : Shape := ⟨2, ![1024, 768]⟩
abbrev S1024x1 : Shape := ⟨2, ![1024, 1]⟩
abbrev S256x256 : Shape := ⟨2, ![256, 256]⟩
abbrev S1024 : Shape := ⟨1, ![1024]⟩

abbrev nBuf : Space → Nat
  | .hbm => 25
  | .vmem => 8
  | .smem => 0
  | _ => 0

abbrev bufTy : (tb : Table) → Fin (tcTables nBuf tb) → BufTy
  | .hbm, ⟨0, _⟩ => ⟨S8x256x32x32, .f32⟩
  | .hbm, ⟨1, _⟩ => ⟨S256x2048, .f32⟩
  | .hbm, ⟨2, _⟩ => ⟨S2048, .f32⟩
  | .hbm, ⟨3, _⟩ => ⟨S256x2048, .f32⟩
  | .hbm, ⟨4, _⟩ => ⟨S2048, .f32⟩
  | .hbm, ⟨5, _⟩ => ⟨S256x2048, .f32⟩
  | .hbm, ⟨6, _⟩ => ⟨S2048, .f32⟩
  | .hbm, ⟨7, _⟩ => ⟨S8x256x1024, .f32⟩
  | .hbm, ⟨8, _⟩ => ⟨S256x8x256, .f32⟩
  | .hbm, ⟨9, _⟩ => ⟨S256x8x256, .f32⟩
  | .hbm, ⟨10, _⟩ => ⟨S256x8x256, .f32⟩
  | .hbm, ⟨11, _⟩ => ⟨S256x8x1x256, .f32⟩
  | .hbm, ⟨12, _⟩ => ⟨S256x8x1x256, .f32⟩
  | .hbm, ⟨13, _⟩ => ⟨S256x8x1x256, .f32⟩
  | .hbm, ⟨14, _⟩ => ⟨S256x8x3x256, .f32⟩
  | .hbm, ⟨15, _⟩ => ⟨S256x6144, .f32⟩
  | .hbm, ⟨16, _⟩ => ⟨S8x256, .f32⟩
  | .hbm, ⟨17, _⟩ => ⟨S8x256, .f32⟩
  | .hbm, ⟨18, _⟩ => ⟨S8x256, .f32⟩
  | .hbm, ⟨19, _⟩ => ⟨S8x1x256, .f32⟩
  | .hbm, ⟨20, _⟩ => ⟨S8x1x256, .f32⟩
  | .hbm, ⟨21, _⟩ => ⟨S8x1x256, .f32⟩
  | .hbm, ⟨22, _⟩ => ⟨S8x3x256, .f32⟩
  | .hbm, ⟨23, _⟩ => ⟨S1x6144, .f32⟩
  | .hbm, ⟨24, _⟩ => ⟨S8x1024x2048, .f32⟩
  | .local _ .vmem, ⟨0, _⟩ => ⟨S1x256x1024, .f32⟩
  | .local _ .vmem, ⟨1, _⟩ => ⟨S1x256x1024, .f32⟩
  | .local _ .vmem, ⟨2, _⟩ => ⟨S256x768, .f32⟩
  | .local _ .vmem, ⟨3, _⟩ => ⟨S256x768, .f32⟩
  | .local _ .vmem, ⟨4, _⟩ => ⟨S1x768, .f32⟩
  | .local _ .vmem, ⟨5, _⟩ => ⟨S1x768, .f32⟩
  | .local _ .vmem, ⟨6, _⟩ => ⟨S1x1024x256, .f32⟩
  | .local _ .vmem, ⟨7, _⟩ => ⟨S1x1024x256, .f32⟩
  | _, _ => ⟨S8x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S8x256x32x32_S8x256x1024 : S8x256x32x32.ShapeCasts S8x256x1024
  shapeCasts_S256x2048_S256x8x256 : S256x2048.ShapeCasts S256x8x256
  bcast_S256x8x256_S256x8x1x256_0_1_3 : S256x8x256.BroadcastsInDim S256x8x1x256 (![0, 1, 3] : Fin 3 → Fin S256x8x1x256.rank)
  concatenates_S256x8x1x256_S256x8x1x256_S256x8x1x256_S256x8x3x256_d2 : Shape.Concatenates [S256x8x1x256, S256x8x1x256, S256x8x1x256] S256x8x3x256 2
  shapeCasts_S256x8x3x256_S256x6144 : S256x8x3x256.ShapeCasts S256x6144
  shapeCasts_S2048_S8x256 : S2048.ShapeCasts S8x256
  bcast_S8x256_S8x1x256_0_2 : S8x256.BroadcastsInDim S8x1x256 (![0, 2] : Fin 2 → Fin S8x1x256.rank)
  concatenates_S8x1x256_S8x1x256_S8x1x256_S8x3x256_d1 : Shape.Concatenates [S8x1x256, S8x1x256, S8x1x256] S8x3x256 1
  shapeCasts_S8x3x256_S1x6144 : S8x3x256.ShapeCasts S1x6144
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  transposes_S256x1024_p1_0_S1024x256 : S256x1024.Transposes [1, 0] S1024x256
  bitsLt_bf16_f32 : FTy.bits .bf16 < FTy.bits .f32
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1024x768 : S1x768.Broadcasts S1024x768
  slices_S1024x768_o0_0_S1024x256 : S1024x768.Slices ![0, 0] S1024x256
  slices_S1024x768_o0_256_S1024x256 : S1024x768.Slices ![0, 256] S1024x256
  slices_S1024x768_o0_512_S1024x256 : S1024x768.Slices ![0, 512] S1024x256
  slices_S1024x256_o0_0_S256x256 : S1024x256.Slices ![0, 0] S256x256
  reduces_S1024x256_S1024 : S1024x256.Reduces [1] S1024
  shapeCasts_S1024_S1024x1 : S1024.ShapeCasts S1024x1
  broadcasts_S1024x1_S1024x256 : S1024x1.Broadcasts S1024x256
  slices_S1024x256_o256_0_S256x256 : S1024x256.Slices ![256, 0] S256x256
  slices_S1024x256_o512_0_S256x256 : S1024x256.Slices ![512, 0] S256x256
  slices_S1024x256_o768_0_S256x256 : S1024x256.Slices ![768, 0] S256x256
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  shapeCasts_S1024x256_S1x1024x256 : S1024x256.ShapeCasts S1x1024x256
  dot_S1024x256_S256x768_S1024x768_1_0_0_1_n_n_wf : DotDims.WF S1024x256 S256x768 S1024x768 [1] [0] [0] [1] [] []
  dot_S1024x256_S256x256_S1024x256_1_1_0_0_n_n_wf : DotDims.WF S1024x256 S256x256 S1024x256 [1] [1] [0] [0] [] []
  dot_S1024x256_S256x256_S1024x256_1_0_0_1_n_n_wf : DotDims.WF S1024x256 S256x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S8x256x1024.size a
  hwx0_0 : ∀ i : grid0.Coords, EltTy.bits .f32 = 32 ∨ (Rect.block (s := S8x256x1024) S1x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x768.size a ≤ S256x6144.size a
  hwx0_1 : ∀ i : grid0.Coords, EltTy.bits .f32 = 32 ∨ (Rect.block (s := S256x6144) S256x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x6144.size a
  hwx0_2 : ∀ i : grid0.Coords, EltTy.bits .f32 = 32 ∨ (Rect.block (s := S1x6144) S1x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x256.size a ≤ S8x1024x2048.size a
  hwx0_3 : ∀ i : grid0.Coords, EltTy.bits .f32 = 32 ∨ (Rect.block (s := S8x1024x2048) S1x1024x256.size (cc0_transform_3 i) (hinb0_3 i)).WholeWords (EltTy.packing .f32)

variable [Facts₀]

def dot_S1024x256_S256x768_S1024x768_1_0_0_1_n_n : DotDims S1024x256 S256x768 S1024x768 where
  lhsContracting := [1]
  rhsContracting := [0]
  lhsNonContracting := [0]
  rhsNonContracting := [1]
  lhsBatch := []
  rhsBatch := []
  wf := dot_S1024x256_S256x768_S1024x768_1_0_0_1_n_n_wf
def dot_S1024x256_S256x256_S1024x256_1_1_0_0_n_n : DotDims S1024x256 S256x256 S1024x256 where
  lhsContracting := [1]
  rhsContracting := [1]
  lhsNonContracting := [0]
  rhsNonContracting := [0]
  lhsBatch := []
  rhsBatch := []
  wf := dot_S1024x256_S256x256_S1024x256_1_1_0_0_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_v0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S256x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x1024x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x256x32x32 : Shape := ⟨4, ![8, 256, 32, 32]⟩
abbrev S256x2048 : Shape := ⟨2, ![256, 2048]⟩
abbrev S2048 : Shape := ⟨1, ![2048]⟩
abbrev S_ : Shape := ⟨0, ![]⟩
abbrev S8x256x1024 : Shape := ⟨3, ![8, 256, 1024]⟩
abbrev S8x1024x256 : Shape := ⟨3, ![8, 1024, 256]⟩
abbrev S8x1024x2048 : Shape := ⟨3, ![8, 1024, 2048]⟩
abbrev S1x1x2048 : Shape := ⟨3, ![1, 1, 2048]⟩
abbrev S8x1024x8x256 : Shape := ⟨4, ![8, 1024, 8, 256]⟩
abbrev S8x8x1024x256 : Shape := ⟨4, ![8, 8, 1024, 256]⟩
abbrev S8x8x1024x1024 : Shape := ⟨4, ![8, 8, 1024, 1024]⟩
abbrev S8x8x1024 : Shape := ⟨3, ![8, 8, 1024]⟩
abbrev S8x8x1024x1 : Shape := ⟨4, ![8, 8, 1024, 1]⟩

abbrev nBuf : Space → Nat
  | .hbm => 51
  | .vmem => 0
  | .smem => 0
  | _ => 0

abbrev bufTy : (tb : Table) → Fin (tcTables nBuf tb) → BufTy
  | .hbm, ⟨0, _⟩ => ⟨S8x256x32x32, .f32⟩
  | .hbm, ⟨1, _⟩ => ⟨S256x2048, .f32⟩
  | .hbm, ⟨2, _⟩ => ⟨S2048, .f32⟩
  | .hbm, ⟨3, _⟩ => ⟨S256x2048, .f32⟩
  | .hbm, ⟨4, _⟩ => ⟨S2048, .f32⟩
  | .hbm, ⟨5, _⟩ => ⟨S256x2048, .f32⟩
  | .hbm, ⟨6, _⟩ => ⟨S2048, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S8x256x1024, .f32⟩
  | .hbm, ⟨12, _⟩ => ⟨S8x1024x256, .f32⟩
  | .hbm, ⟨13, _⟩ => ⟨S8x1024x2048, .f32⟩
  | .hbm, ⟨14, _⟩ => ⟨S1x1x2048, .f32⟩
  | .hbm, ⟨15, _⟩ => ⟨S8x1024x2048, .f32⟩
  | .hbm, ⟨16, _⟩ => ⟨S8x1024x2048, .f32⟩
  | .hbm, ⟨17, _⟩ => ⟨S8x1024x8x256, .f32⟩
  | .hbm, ⟨18, _⟩ => ⟨S8x8x1024x256, .f32⟩
  | .hbm, ⟨19, _⟩ => ⟨S8x1024x2048, .f32⟩
  | .hbm, ⟨20, _⟩ => ⟨S1x1x2048, .f32⟩
  | .hbm, ⟨21, _⟩ => ⟨S8x1024x2048, .f32⟩
  | .hbm, ⟨22, _⟩ => ⟨S8x1024x2048, .f32⟩
  | .hbm, ⟨23, _⟩ => ⟨S8x1024x8x256, .f32⟩
  | .hbm, ⟨24, _⟩ => ⟨S8x8x1024x256, .f32⟩
  | .hbm, ⟨25, _⟩ => ⟨S8x1024x2048, .f32⟩
  | .hbm, ⟨26, _⟩ => ⟨S1x1x2048, .f32⟩
  | .hbm, ⟨27, _⟩ => ⟨S8x1024x2048, .f32⟩
  | .hbm, ⟨28, _⟩ => ⟨S8x1024x2048, .f32⟩
  | .hbm, ⟨29, _⟩ => ⟨S8x1024x8x256, .f32⟩
  | .hbm, ⟨30, _⟩ => ⟨S8x8x1024x256, .f32⟩
  | .hbm, ⟨31, _⟩ => ⟨S8x8x1024x1024, .f32⟩
  | .hbm, ⟨32, _⟩ => ⟨S8x8x1024x1024, .f32⟩
  | .hbm, ⟨33, _⟩ => ⟨S8x8x1024x1024, .f32⟩
  | .hbm, ⟨34, _⟩ => ⟨S_, .f32⟩
  | .hbm, ⟨35, _⟩ => ⟨S8x8x1024, .f32⟩
  | .hbm, ⟨36, _⟩ => ⟨S_, .f32⟩
  | .hbm, ⟨37, _⟩ => ⟨S8x8x1024, .f32⟩
  | .hbm, ⟨38, _⟩ => ⟨S8x8x1024, .f32⟩
  | .hbm, ⟨39, _⟩ => ⟨S8x8x1024x1, .f32⟩
  | .hbm, ⟨40, _⟩ => ⟨S8x8x1024x1024, .f32⟩
  | .hbm, ⟨41, _⟩ => ⟨S8x8x1024x1024, .f32⟩
  | .hbm, ⟨42, _⟩ => ⟨S8x8x1024x1024, .f32⟩
  | .hbm, ⟨43, _⟩ => ⟨S_, .f32⟩
  | .hbm, ⟨44, _⟩ => ⟨S8x8x1024, .f32⟩
  | .hbm, ⟨45, _⟩ => ⟨S8x8x1024x1, .f32⟩
  | .hbm, ⟨46, _⟩ => ⟨S8x8x1024x1024, .f32⟩
  | .hbm, ⟨47, _⟩ => ⟨S8x8x1024x1024, .f32⟩
  | .hbm, ⟨48, _⟩ => ⟨S8x8x1024x256, .f32⟩
  | .hbm, ⟨49, _⟩ => ⟨S8x1024x8x256, .f32⟩
  | .hbm, ⟨50, _⟩ => ⟨S8x1024x2048, .f32⟩
  | _, _ => ⟨S8x256x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_1 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]

class Facts₀ : Prop where
  shapeCasts_S8x256x32x32_S8x256x1024 : S8x256x32x32.ShapeCasts S8x256x1024
  transposes_S8x256x1024_S8x1024x256_0_2_1 : S8x256x1024.Transposes [0, 2, 1] S8x1024x256
  bcast_S2048_S1x1x2048_2 : S2048.BroadcastsInDim S1x1x2048 (![2] : Fin 1 → Fin S1x1x2048.rank)
  bcast_S1x1x2048_S8x1024x2048_0_1_2 : S1x1x2048.BroadcastsInDim S8x1024x2048 (![0, 1, 2] : Fin 3 → Fin S8x1024x2048.rank)
  shapeCasts_S8x1024x2048_S8x1024x8x256 : S8x1024x2048.ShapeCasts S8x1024x8x256
  transposes_S8x1024x8x256_S8x8x1024x256_0_2_1_3 : S8x1024x8x256.Transposes [0, 2, 1, 3] S8x8x1024x256
  bcast_S_S8x8x1024x1024 : S_.BroadcastsInDim S8x8x1024x1024 (![] : Fin 0 → Fin S8x8x1024x1024.rank)
  reducesTo_S8x8x1024x1024_S8x8x1024_d3 : S8x8x1024x1024.ReducesTo [3] S8x8x1024
  h_S_ : 0 < S_.numel
  bcast_S_S8x8x1024 : S_.BroadcastsInDim S8x8x1024 (![] : Fin 0 → Fin S8x8x1024.rank)
  bcast_S8x8x1024_S8x8x1024x1_0_1_2 : S8x8x1024.BroadcastsInDim S8x8x1024x1 (![0, 1, 2] : Fin 3 → Fin S8x8x1024x1.rank)
  bcast_S8x8x1024x1_S8x8x1024x1024_0_1_2_3 : S8x8x1024x1.BroadcastsInDim S8x8x1024x1024 (![0, 1, 2, 3] : Fin 4 → Fin S8x8x1024x1024.rank)
  transposes_S8x8x1024x256_S8x1024x8x256_0_2_1_3 : S8x8x1024x256.Transposes [0, 2, 1, 3] S8x1024x8x256
  shapeCasts_S8x1024x8x256_S8x1024x2048 : S8x1024x8x256.ShapeCasts S8x1024x2048
  dot_S8x1024x256_S256x2048_S8x1024x2048_2_0_01_1_n_n_wf : DotDims.WF S8x1024x256 S256x2048 S8x1024x2048 [2] [0] [0, 1] [1] [] []
  dot_S8x8x1024x256_S8x8x1024x256_S8x8x1024x1024_3_3_2_2_01_01_wf : DotDims.WF S8x8x1024x256 S8x8x1024x256 S8x8x1024x1024 [3] [3] [2] [2] [0, 1] [0, 1]
  dot_S8x8x1024x1024_S8x8x1024x256_S8x8x1024x256_3_2_2_3_01_01_wf : DotDims.WF S8x8x1024x1024 S8x8x1024x256 S8x8x1024x256 [3] [2] [2] [3] [0, 1] [0, 1]

variable [Facts₀]

def dot_S8x1024x256_S256x2048_S8x1024x2048_2_0_01_1_n_n : DotDims S8x1024x256 S256x2048 S8x1024x2048 where
  lhsContracting := [2]
  rhsContracting := [0]
  lhsNonContracting := [0, 1]
  rhsNonContracting := [1]
  lhsBatch := []
  rhsBatch := []
  wf := dot_S8x1024x256_S256x2048_S8x1024x2048_2_0_01_1_n_n_wf
def dot_S8x8x1024x256_S8x8x1024x256_S8x8x1024x1024_3_3_2_2_01_01 : DotDims S8x8x1024x256 S8x8x1024x256 S8x8x1024x1024 where
  lhsContracting := [3]
  rhsContracting := [3]
  lhsNonContracting := [2]
  rhsNonContracting := [2]
  lhsBatch := [0, 1]
  rhsBatch := [0, 1]
  wf := dot_S8x8x1024x256_S8x8x1024x256_S8x8x1024x1024_3_3_2_2_01_01_wf
def dot_S8x8x1024x1024_S8x8x1024x256_S8x8x1024x256_3_2_2_3_01_01 : DotDims S8x8x1024x1024 S8x8x1024x256 S8x8x1024x256 where
  lhsContracting := [3]
  rhsContracting := [2]
  lhsNonContracting := [2]
  rhsNonContracting := [3]
  lhsBatch := [0, 1]
  rhsBatch := [0, 1]
  wf := dot_S8x8x1024x1024_S8x8x1024x256_S8x8x1024x256_3_2_2_3_01_01_wf

class Facts : Prop extends Facts₀ where

variable [Facts]
-- ==== Proof.KernelFrame.lean ====
/-
  The frame of `Kernel` at any float instance: the seventeen host operations that lay the arguments out (the
  input flattened to [8, 256, 1024]; the three weight matrices stacked head by head into one [256, 6144] matrix,
  the three biases into one [1, 6144] row), then the one region over the 8 × 8 grid of (batch, head) points.
  At a point the body reads its three input blocks whole, computes, and stores the output block whole, so what the
  output's staging buffer holds after the body is ONE function `attendBlock` of the three input blocks; the
  inputs' buffers are left as found.  Every weakly fair execution terminates without a fault, every argument
  array ends as launched, and the output array is what the library assembles from `attendBlock` of the blocks.
-/
import proofs.«152565_j18279380811977_2_alg».proof.Proof.Gen.Kernel.Launch
import proofs.«152565_j18279380811977_2_alg».proof.Proof.Gen.Kernel.Skeleton
import proofs.«152565_j18279380811977_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- The TensorCore buffers of core `c` when the region is entered: the launch memory after the host operations. -/
abbrev V (c : Dev nD) (b : Ref sig .tc) : Buf (Elt F) ((c : Thread nD τ).loc b) :=
  StableHlo.after (List.flatten [hostOps0]) (fun b => m (c, b)) b

/-- No host operation allocates. -/
theorem hostOps_alloc_nothing : (hostOps0 : List (HloOp τ sig (Elt F))).Forall fun op => op.fresh = ∅ := by
  simp only [List.Forall]; repeat' constructor

/-- @main is the host operations followed by the region's entry. -/
theorem main_prefix (𝒱₀ : Variants) :
    Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by exact hostOps0_sub)
    (by exact hostOps_alloc_nothing) main_chain

/-- A buffer no host operation writes is found by the region as launched. Each operation writes its own result
    buffer only, and the seven argument buffers are no operation's result. -/
theorem V_of_not_written (c : Dev nD) (b : Ref sig .tc)
    (hb : b ≠ main_v0 ∧ b ≠ main_v1 ∧ b ≠ main_v2 ∧ b ≠ main_v3 ∧ b ≠ main_v4 ∧ b ≠ main_v5 ∧ b ≠ main_v6 ∧ b ≠ main_v7
      ∧ b ≠ main_v8 ∧ b ≠ main_v9 ∧ b ≠ main_v10 ∧ b ≠ main_v11 ∧ b ≠ main_v12 ∧ b ≠ main_v13 ∧ b ≠ main_v14
      ∧ b ≠ main_v15 ∧ b ≠ main_v16) :
    V m c b = m ((c : Thread nD τ).loc b) := by
  obtain ⟨h0, h1, h2, h3, h4, h5, h6, h7, h8, h9, h10, h11, h12, h13, h14, h15, h16⟩ := hb
  refine StableHlo.after_of_forall_not_mem (b := Proc.devRef .tc b) _ _ (List.forall_iff_forall_mem.mp ?_)
  simp only [hostOps0, List.flatten_cons, List.flatten_nil, List.append_nil, List.cons_append,
    List.nil_append, List.Forall, StableHlo.unary_writes, StableHlo.nary_writes, StableHlo.reshape_writes,
    Finset.mem_singleton]
  refine ⟨?_, ?_, ?_, ?_, ?_, ?_, ?_, ?_, ?_, ?_, ?_, ?_, ?_, ?_, ?_, ?_, ?_⟩ <;>
    exact StableHlo.devRef_ne_of_ne (by assumption)

theorem V_main_arg0 (c : Dev nD) : V m c main_arg0 = m ((c : Thread nD τ).loc main_arg0) := V_of_not_written m c _ (by decide)
theorem V_main_arg1 (c : Dev nD) : V m c main_arg1 = m ((c : Thread nD τ).loc main_arg1) := V_of_not_written m c _ (by decide)
theorem V_main_arg2 (c : Dev nD) : V m c main_arg2 = m ((c : Thread nD τ).loc main_arg2) := V_of_not_written m c _ (by decide)
theorem V_main_arg3 (c : Dev nD) : V m c main_arg3 = m ((c : Thread nD τ).loc main_arg3) := V_of_not_written m c _ (by decide)
theorem V_main_arg4 (c : Dev nD) : V m c main_arg4 = m ((c : Thread nD τ).loc main_arg4) := V_of_not_written m c _ (by decide)
theorem V_main_arg5 (c : Dev nD) : V m c main_arg5 = m ((c : Thread nD τ).loc main_arg5) := V_of_not_written m c _ (by decide)
theorem V_main_arg6 (c : Dev nD) : V m c main_arg6 = m ((c : Thread nD τ).loc main_arg6) := V_of_not_written m c _ (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the point fetches it or
    the block index has not moved since the last fetch (the input block [1, 256, 1024] is fetched once per batch
    and kept over the eight heads; the weight and bias blocks are fetched at every point). -/
theorem x_found {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem w_found {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem b_found {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## What the body computes -/

abbrev rX : Rect S1x256x1024 := Rect.unit (s := S1x256x1024) ![0, 0, 0] S1x256x1024.size inb_S1x256x1024_S1x256x1024_0_0_0
abbrev rW : Rect S256x768 := Rect.unit (s := S256x768) ![0, 0] S256x768.size inb_S256x768_S256x768_0_0
abbrev rB : Rect S1x768 := Rect.unit (s := S1x768) ![0, 0] S1x768.size inb_S1x768_S1x768_0_0
abbrev rO : Rect S1x1024x256 := Rect.unit (s := S1x1024x256) ![0, 0, 0] S1x1024x256.size inb_S1x1024x256_S1x1024x256_0_0_0

/-- The value the body stores, from the three values it loaded: the projected and biased q | k | v columns, the
    four key chunks folded by the running maximum, denominator and accumulator, and the final quotient. -/
def attendValue (x : Vec F S1x256x1024 .f32) (w : Vec F S256x768 .f32) (b : Vec F S1x768 .f32) : FVec F S1x1024x256 .f32 :=
  k0_pay1 (k0_pay22 (k0_pay3 x w b) (k0_pay4 x w b) (k0_pay8 x w b) (k0_pay11 x w b))
    (k0_pay23 (k0_pay3 x w b) (k0_pay4 x w b) (k0_pay5 x w b) (k0_pay8 x w b) (k0_pay12 x w b) (k0_pay13 x w b))
    (k0_pay24 (k0_pay5 x w b)) (k0_pay25 (k0_pay3 x w b) (k0_pay4 x w b))
    (k0_pay27 (k0_pay3 x w b) (k0_pay4 x w b) (k0_pay8 x w b)) (k0_pay28 (k0_pay3 x w b) (k0_pay4 x w b) (k0_pay8 x w b))

/-- The output window's staging buffer after the body: its one store, of `attendValue` of the input blocks. -/
def attendBlock (x0 : Vec F S1x256x1024 .f32) (x1 : Vec F S256x768 .f32) (x2 : Vec F S1x768 .f32) : Vec F S1x1024x256 .f32 :=
  View.canon [⟨rO, attendValue (View.ld x0 rX) (View.ld x1 rW) (View.ld x2 rB)⟩]

/-- The one store covers the whole buffer. -/
theorem store_covers (p0 : Vec F S1x1024x256 .f32) (y : S1x1024x256.Idx) :
    ∃ pc ∈ ([⟨rO, p0⟩] : List (View.Piece (Elt F) S1x1024x256 .f32)), y ∈ pc.1.set :=
  View.cover_of_tiled [⟨rO, p0⟩] S1x1024x256.size (by rfl) y

/-! ## The body's triple -/

set_option maxHeartbeats 4000000 in
/-- On whole staging buffers, the inputs' at contents `x0 x1 x2` and the output's at anything, the body runs to its
    end, leaves the inputs' as they were and the output's at `attendBlock x0 x1 x2`. -/
theorem body_triple (c : Dev nD) (E : Set ℕ) (i : grid0.Coords)
    (arg2 : Memref sig .tc .vmem S1x256x1024 .f32) (harg2 : arg2.IsWhole) (arg3 : Memref sig .tc .vmem S256x768 .f32) (harg3 : arg3.IsWhole)
    (arg4 : Memref sig .tc .vmem S1x768 .f32) (harg4 : arg4.IsWhole) (arg5 : Memref sig .tc .vmem S1x1024x256 .f32) (harg5 : arg5.IsWhole)
    (x0 : Vec F S1x256x1024 .f32) (x1 : Vec F S256x768 .f32) (x2 : Vec F S1x768 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (attendBlock x0 x1 x2)) -∗ K ⟨⟩))
      ⊢ wp frame (wpE (defs₀ (F := F)) Variants.none c none) E (cc0__fused_qkv_attn_kernel i arg2 harg2 arg3 harg3 arg4 harg4 arg5 harg5) K := by
  simp only [cc0__fused_qkv_attn_kernel_eq_skeleton]; unfold cc0__fused_qkv_attn_kernel_skel
  simp only [k0_part1_eq_skeleton, k0_part2_eq_skeleton]
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (store_covers _)

/-! ## The pipeline's proof data -/

/-- The arrays as the region finds them; after the body at point `t` each input's buffer at its block and the
    output's at `attendBlock` of the three input blocks; the invariant is the scoped rest and the generator
    register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => attendBlock (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_x (c : Dev nD) (t : Fin cfg0.N) : (dats m 0 c).after 0 t = iblk m c 0 t := by dsimp only [dats]
theorem after_w (c : Dev nD) (t : Fin cfg0.N) : (dats m 0 c).after 1 t = iblk m c 1 t := by dsimp only [dats]
theorem after_b (c : Dev nD) (t : Fin cfg0.N) : (dats m 0 c).after 2 t = iblk m c 2 t := by dsimp only [dats]
theorem after_o (c : Dev nD) (t : Fin cfg0.N) :
    (dats m 0 c).after 3 t = attendBlock (iblk m c 0 t) (iblk m c 1 t) (iblk m c 2 t) := by dsimp only [dats]

theorem before_x (c : Dev nD) (t : Fin cfg0.N) (d) : (dats m 0 c).before 0 t d = iblk m c 0 t :=
  x_found m (dats m 0 c) (A_eq m c 0) (after_x m c) t d
theorem before_w (c : Dev nD) (t : Fin cfg0.N) (d) : (dats m 0 c).before 1 t d = iblk m c 1 t :=
  w_found m (dats m 0 c) (A_eq m c 1) (after_w m c) t d
theorem before_b (c : Dev nD) (t : Fin cfg0.N) (d) : (dats m 0 c).before 2 t d = iblk m c 2 t :=
  b_found m (dats m 0 c) (A_eq m c 2) (after_b m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem body_at_point (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_w, before_b]
  rw [show (dats m 0 c).Φ t.succ = (dats m 0 c).Φ t.castSucc from rfl,
    show (dats m 0 c).owesAt () t.succ = (dats m 0 c).owesAt () t.castSucc from rfl,
    after_x, after_w, after_b, after_o]
  iintro ⟨HΦ, Ho, ⟨%d0, H0⟩, ⟨%d1, H1⟩, ⟨%d2, H2⟩, ⟨%d3, H3⟩⟩
  iapply (body_triple c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact body_at_point m c t

/-! ## The run and the frame -/

set_option backward.isDefEq.respectTransparency.types false in
/-- Every weakly fair execution of @main terminates, and every final state has each array of the pipeline at what
    the library assembles from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := main_prefix m Variants.none) (hA := A_eq m) (hΦ := fun _ _ => rfl)

/-- The seven argument arrays end as launched: none is an array of the pipeline, none is written by a host operation. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_arg0 (Pipeline.mem_restRefs_of main_arg0 (by decide) (by decide))).trans (V_main_arg0 m c),
     ((h c).2 main_arg1 (Pipeline.mem_restRefs_of main_arg1 (by decide) (by decide))).trans (V_main_arg1 m c),
     ((h c).2 main_arg2 (Pipeline.mem_restRefs_of main_arg2 (by decide) (by decide))).trans (V_main_arg2 m c),
     ((h c).2 main_arg3 (Pipeline.mem_restRefs_of main_arg3 (by decide) (by decide))).trans (V_main_arg3 m c),
     ((h c).2 main_arg4 (Pipeline.mem_restRefs_of main_arg4 (by decide) (by decide))).trans (V_main_arg4 m c),
     ((h c).2 main_arg5 (Pipeline.mem_restRefs_of main_arg5 (by decide) (by decide))).trans (V_main_arg5 m c),
     ((h c).2 main_arg6 (Pipeline.mem_restRefs_of main_arg6 (by decide) (by decide))).trans (V_main_arg6 m c)⟩) (run_main m ρ)

end Cert.Kernel.Hand

end
-- ==== Proof.IdealFrame.lean ====
/-
  The frame of `KernelIdeal` at any float instance: the seventeen host operations that lay the arguments out (the
  input flattened to [8, 256, 1024]; the three weight matrices stacked head by head into one [256, 6144] matrix,
  the three biases into one [1, 6144] row), then the one region over the 8 × 8 grid of (batch, head) points.
  At a point the body reads its three input blocks whole, computes, and stores the output block whole, so what the
  output's staging buffer holds after the body is ONE function `attendBlock` of the three input blocks; the
  inputs' buffers are left as found.  Every weakly fair execution terminates without a fault, every argument
  array ends as launched, and the output array is what the library assembles from `attendBlock` of the blocks.
-/
import proofs.«152565_j18279380811977_2_alg».proof.Proof.Gen.KernelIdeal.Launch
import proofs.«152565_j18279380811977_2_alg».proof.Proof.Gen.KernelIdeal.Skeleton
import proofs.«152565_j18279380811977_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- The TensorCore buffers of core `c` when the region is entered: the launch memory after the host operations. -/
abbrev V (c : Dev nD) (b : Ref sig .tc) : Buf (Elt F) ((c : Thread nD τ).loc b) :=
  StableHlo.after (List.flatten [hostOps0]) (fun b => m (c, b)) b

/-- No host operation allocates. -/
theorem hostOps_alloc_nothing : (hostOps0 : List (HloOp τ sig (Elt F))).Forall fun op => op.fresh = ∅ := by
  simp only [List.Forall]; repeat' constructor

/-- @main is the host operations followed by the region's entry. -/
theorem main_prefix (𝒱₀ : Variants) :
    Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by exact hostOps0_sub)
    (by exact hostOps_alloc_nothing) main_chain

/-- A buffer no host operation writes is found by the region as launched. Each operation writes its own result
    buffer only, and the seven argument buffers are no operation's result. -/
theorem V_of_not_written (c : Dev nD) (b : Ref sig .tc)
    (hb : b ≠ main_v0 ∧ b ≠ main_v1 ∧ b ≠ main_v2 ∧ b ≠ main_v3 ∧ b ≠ main_v4 ∧ b ≠ main_v5 ∧ b ≠ main_v6 ∧ b ≠ main_v7
      ∧ b ≠ main_v8 ∧ b ≠ main_v9 ∧ b ≠ main_v10 ∧ b ≠ main_v11 ∧ b ≠ main_v12 ∧ b ≠ main_v13 ∧ b ≠ main_v14
      ∧ b ≠ main_v15 ∧ b ≠ main_v16) :
    V m c b = m ((c : Thread nD τ).loc b) := by
  obtain ⟨h0, h1, h2, h3, h4, h5, h6, h7, h8, h9, h10, h11, h12, h13, h14, h15, h16⟩ := hb
  refine StableHlo.after_of_forall_not_mem (b := Proc.devRef .tc b) _ _ (List.forall_iff_forall_mem.mp ?_)
  simp only [hostOps0, List.flatten_cons, List.flatten_nil, List.append_nil, List.cons_append,
    List.nil_append, List.Forall, StableHlo.unary_writes, StableHlo.nary_writes, StableHlo.reshape_writes,
    Finset.mem_singleton]
  refine ⟨?_, ?_, ?_, ?_, ?_, ?_, ?_, ?_, ?_, ?_, ?_, ?_, ?_, ?_, ?_, ?_, ?_⟩ <;>
    exact StableHlo.devRef_ne_of_ne (by assumption)

theorem V_main_arg0 (c : Dev nD) : V m c main_arg0 = m ((c : Thread nD τ).loc main_arg0) := V_of_not_written m c _ (by decide)
theorem V_main_arg1 (c : Dev nD) : V m c main_arg1 = m ((c : Thread nD τ).loc main_arg1) := V_of_not_written m c _ (by decide)
theorem V_main_arg2 (c : Dev nD) : V m c main_arg2 = m ((c : Thread nD τ).loc main_arg2) := V_of_not_written m c _ (by decide)
theorem V_main_arg3 (c : Dev nD) : V m c main_arg3 = m ((c : Thread nD τ).loc main_arg3) := V_of_not_written m c _ (by decide)
theorem V_main_arg4 (c : Dev nD) : V m c main_arg4 = m ((c : Thread nD τ).loc main_arg4) := V_of_not_written m c _ (by decide)
theorem V_main_arg5 (c : Dev nD) : V m c main_arg5 = m ((c : Thread nD τ).loc main_arg5) := V_of_not_written m c _ (by decide)
theorem V_main_arg6 (c : Dev nD) : V m c main_arg6 = m ((c : Thread nD τ).loc main_arg6) := V_of_not_written m c _ (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the point fetches it or
    the block index has not moved since the last fetch (the input block [1, 256, 1024] is fetched once per batch
    and kept over the eight heads; the weight and bias blocks are fetched at every point). -/
theorem x_found {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem w_found {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem b_found {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## What the body computes -/

abbrev rX : Rect S1x256x1024 := Rect.unit (s := S1x256x1024) ![0, 0, 0] S1x256x1024.size inb_S1x256x1024_S1x256x1024_0_0_0
abbrev rW : Rect S256x768 := Rect.unit (s := S256x768) ![0, 0] S256x768.size inb_S256x768_S256x768_0_0
abbrev rB : Rect S1x768 := Rect.unit (s := S1x768) ![0, 0] S1x768.size inb_S1x768_S1x768_0_0
abbrev rO : Rect S1x1024x256 := Rect.unit (s := S1x1024x256) ![0, 0, 0] S1x1024x256.size inb_S1x1024x256_S1x1024x256_0_0_0

/-- The value the body stores, from the three values it loaded: the projected and biased q | k | v columns, the
    four key chunks folded by the running maximum, denominator and accumulator, and the final quotient. -/
def attendValue (x : Vec F S1x256x1024 .f32) (w : Vec F S256x768 .f32) (b : Vec F S1x768 .f32) : FVec F S1x1024x256 .f32 :=
  k0_pay1 (k0_pay22 (k0_pay3 x w b) (k0_pay4 x w b) (k0_pay8 x w b) (k0_pay11 x w b))
    (k0_pay23 (k0_pay3 x w b) (k0_pay4 x w b) (k0_pay5 x w b) (k0_pay8 x w b) (k0_pay12 x w b) (k0_pay13 x w b))
    (k0_pay24 (k0_pay5 x w b)) (k0_pay25 (k0_pay3 x w b) (k0_pay4 x w b))
    (k0_pay27 (k0_pay3 x w b) (k0_pay4 x w b) (k0_pay8 x w b)) (k0_pay28 (k0_pay3 x w b) (k0_pay4 x w b) (k0_pay8 x w b))

/-- The output window's staging buffer after the body: its one store, of `attendValue` of the input blocks. -/
def attendBlock (x0 : Vec F S1x256x1024 .f32) (x1 : Vec F S256x768 .f32) (x2 : Vec F S1x768 .f32) : Vec F S1x1024x256 .f32 :=
  View.canon [⟨rO, attendValue (View.ld x0 rX) (View.ld x1 rW) (View.ld x2 rB)⟩]

/-- The one store covers the whole buffer. -/
theorem store_covers (p0 : Vec F S1x1024x256 .f32) (y : S1x1024x256.Idx) :
    ∃ pc ∈ ([⟨rO, p0⟩] : List (View.Piece (Elt F) S1x1024x256 .f32)), y ∈ pc.1.set :=
  View.cover_of_tiled [⟨rO, p0⟩] S1x1024x256.size (by rfl) y

/-! ## The body's triple -/

set_option maxHeartbeats 4000000 in
/-- On whole staging buffers, the inputs' at contents `x0 x1 x2` and the output's at anything, the body runs to its
    end, leaves the inputs' as they were and the output's at `attendBlock x0 x1 x2`. -/
theorem body_triple (c : Dev nD) (E : Set ℕ) (i : grid0.Coords)
    (arg2 : Memref sig .tc .vmem S1x256x1024 .f32) (harg2 : arg2.IsWhole) (arg3 : Memref sig .tc .vmem S256x768 .f32) (harg3 : arg3.IsWhole)
    (arg4 : Memref sig .tc .vmem S1x768 .f32) (harg4 : arg4.IsWhole) (arg5 : Memref sig .tc .vmem S1x1024x256 .f32) (harg5 : arg5.IsWhole)
    (x0 : Vec F S1x256x1024 .f32) (x1 : Vec F S256x768 .f32) (x2 : Vec F S1x768 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (attendBlock x0 x1 x2)) -∗ K ⟨⟩))
      ⊢ wp frame (wpE (defs₀ (F := F)) Variants.none c none) E (cc0__fused_qkv_attn_kernel i arg2 harg2 arg3 harg3 arg4 harg4 arg5 harg5) K := by
  simp only [cc0__fused_qkv_attn_kernel_eq_skeleton]; unfold cc0__fused_qkv_attn_kernel_skel
  simp only [k0_part1_eq_skeleton, k0_part2_eq_skeleton]
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (store_covers _)

/-! ## The pipeline's proof data -/

/-- The arrays as the region finds them; after the body at point `t` each input's buffer at its block and the
    output's at `attendBlock` of the three input blocks; the invariant is the scoped rest and the generator
    register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => attendBlock (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_x (c : Dev nD) (t : Fin cfg0.N) : (dats m 0 c).after 0 t = iblk m c 0 t := by dsimp only [dats]
theorem after_w (c : Dev nD) (t : Fin cfg0.N) : (dats m 0 c).after 1 t = iblk m c 1 t := by dsimp only [dats]
theorem after_b (c : Dev nD) (t : Fin cfg0.N) : (dats m 0 c).after 2 t = iblk m c 2 t := by dsimp only [dats]
theorem after_o (c : Dev nD) (t : Fin cfg0.N) :
    (dats m 0 c).after 3 t = attendBlock (iblk m c 0 t) (iblk m c 1 t) (iblk m c 2 t) := by dsimp only [dats]

theorem before_x (c : Dev nD) (t : Fin cfg0.N) (d) : (dats m 0 c).before 0 t d = iblk m c 0 t :=
  x_found m (dats m 0 c) (A_eq m c 0) (after_x m c) t d
theorem before_w (c : Dev nD) (t : Fin cfg0.N) (d) : (dats m 0 c).before 1 t d = iblk m c 1 t :=
  w_found m (dats m 0 c) (A_eq m c 1) (after_w m c) t d
theorem before_b (c : Dev nD) (t : Fin cfg0.N) (d) : (dats m 0 c).before 2 t d = iblk m c 2 t :=
  b_found m (dats m 0 c) (A_eq m c 2) (after_b m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem body_at_point (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_w, before_b]
  rw [show (dats m 0 c).Φ t.succ = (dats m 0 c).Φ t.castSucc from rfl,
    show (dats m 0 c).owesAt () t.succ = (dats m 0 c).owesAt () t.castSucc from rfl,
    after_x, after_w, after_b, after_o]
  iintro ⟨HΦ, Ho, ⟨%d0, H0⟩, ⟨%d1, H1⟩, ⟨%d2, H2⟩, ⟨%d3, H3⟩⟩
  iapply (body_triple c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact body_at_point m c t

/-! ## The run and the frame -/

set_option backward.isDefEq.respectTransparency.types false in
/-- Every weakly fair execution of @main terminates, and every final state has each array of the pipeline at what
    the library assembles from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := main_prefix m Variants.none) (hA := A_eq m) (hΦ := fun _ _ => rfl)

/-- The seven argument arrays end as launched: none is an array of the pipeline, none is written by a host operation. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_arg0 (Pipeline.mem_restRefs_of main_arg0 (by decide) (by decide))).trans (V_main_arg0 m c),
     ((h c).2 main_arg1 (Pipeline.mem_restRefs_of main_arg1 (by decide) (by decide))).trans (V_main_arg1 m c),
     ((h c).2 main_arg2 (Pipeline.mem_restRefs_of main_arg2 (by decide) (by decide))).trans (V_main_arg2 m c),
     ((h c).2 main_arg3 (Pipeline.mem_restRefs_of main_arg3 (by decide) (by decide))).trans (V_main_arg3 m c),
     ((h c).2 main_arg4 (Pipeline.mem_restRefs_of main_arg4 (by decide) (by decide))).trans (V_main_arg4 m c),
     ((h c).2 main_arg5 (Pipeline.mem_restRefs_of main_arg5 (by decide) (by decide))).trans (V_main_arg5 m c),
     ((h c).2 main_arg6 (Pipeline.mem_restRefs_of main_arg6 (by decide) (by decide))).trans (V_main_arg6 m c)⟩) (run_main m ρ)

end Cert.KernelIdeal.Hand

end
-- ==== Proof.Attention.lean ====
/-
  Multi-head attention over the extended reals, in the two arrangements that are compared.

  For a batch entry `b`, a head `h`, a query token `l` and a channel `d`, with `q k v` the projected and
  biased tokens of that head, both arrangements compute
      Σ_j softmax_j(q_l · k_j / 16) · v_j,d        (j over the 1024 key tokens).
  `refOut` takes the scores whole: it scales the dot product, subtracts the row's maximum, exponentiates,
  normalises each weight by the row's sum and then takes the weighted sum of the values.
  `kerOut` scales the query before the dot product and visits the keys in four chunks of 256, carrying a
  running maximum, a running denominator and a running numerator which it rescales whenever the maximum grows,
  and divides once at the end.
-/
import Idealize.ShloMosaic.PureOps.Ideal
import Idealize.ShloMosaic.Lib.ValueIdx

noncomputable section

namespace Cert.Attention

open Idealize.ShloMosaic Idealize.ShloMosaic.ValueIdx

abbrev SX : Shape := ⟨4, ![8, 256, 32, 32]⟩
abbrev SW : Shape := ⟨2, ![256, 2048]⟩
abbrev SB : Shape := ⟨1, ![2048]⟩
abbrev SO : Shape := ⟨3, ![8, 1024, 2048]⟩

/-! ## One row of scores against one column of values -/

/-- The largest of finitely many extended reals (`⊥` of none): the fold of `max` from `⊥`. -/
def rowMax {n : Nat} (s : Fin n → EReal) : EReal := (Finset.univ : Finset (Fin n)).fold max ⊥ s

/-- The softmax of the scores `s`, paired with the values `v`: each weight is normalised, then summed against `v`. -/
def softmaxDot {n : Nat} (s v : Fin n → EReal) : EReal :=
  ∑ j, Ideal.div (Ideal.exp (s j - rowMax s)) (∑ j', Ideal.exp (s j' - rowMax s)) * v j

/-- One chunk of 256 keys folded into the running (maximum, denominator, numerator). -/
def step (st : EReal × EReal × EReal) (s v : Fin 256 → EReal) : EReal × EReal × EReal :=
  (max st.1 (rowMax s),
   Ideal.exp (st.1 - max st.1 (rowMax s)) * st.2.1 + ∑ j, Ideal.exp (s j - max st.1 (rowMax s)),
   Ideal.exp (st.1 - max st.1 (rowMax s)) * st.2.2 + ∑ j, Ideal.exp (s j - max st.1 (rowMax s)) * v j)

/-- The state after the four chunks, from (`⊥`, 0, 0). -/
def fold4 (s v : Fin 4 → Fin 256 → EReal) : EReal × EReal × EReal :=
  step (step (step (step (⊥, 0, 0) (s 0) (v 0)) (s 1) (v 1)) (s 2) (v 2)) (s 3) (v 3)

/-- The chunked arrangement: numerator over denominator after the four chunks. -/
def onlineDot (s v : Fin 4 → Fin 256 → EReal) : EReal :=
  Ideal.div (fold4 s v).2.2 (fold4 s v).2.1

/-- Key token `j` of chunk `c`. -/
def key (c : Fin 4) (j : Fin 256) : Fin 1024 := ⟨c.val * 256 + j.val, by omega⟩

/-! ## The projections -/

variable (x : SX.Idx → EReal) (Wq Wk Wv : SW.Idx → EReal) (bq bk bv : SB.Idx → EReal)

/-- Channel `c` of token `l` of batch entry `b`: the image's pixel `(l / 32, l % 32)`. -/
def tok (b : Fin 8) (l : Fin 1024) (c : Fin 256) : EReal :=
  x (ix4 b c (⟨l.val / 32, by omega⟩ : Fin 32) (⟨l.val % 32, by omega⟩ : Fin 32))

/-- Column `d` of head `h` among the 2048 output columns of a projection. -/
def col (h : Fin 8) (d : Fin 256) : Fin 2048 := ⟨h.val * 256 + d.val, by omega⟩

/-- A linear projection of a token, for one head: `Σ_c tok_c · W_{c, (h, d)} + bias_{(h, d)}`. -/
def proj (W : SW.Idx → EReal) (bias : SB.Idx → EReal) (b h : Fin 8) (l : Fin 1024) (d : Fin 256) : EReal :=
  (∑ c : Fin 256, tok x b l c * W (ix2 c (col h d))) + bias (ix1 (col h d))

/-- The reference's score of query `l` against key `j`: the dot product, then the scale 1/16. -/
def scoreRef (b h : Fin 8) (l j : Fin 1024) : EReal :=
  (∑ d : Fin 256, proj x Wq bq b h l d * proj x Wk bk b h j d) * ((1 / 16 : ℝ) : EReal)

/-- The reference's arrangement at output entry `(b, l, (h, d))`. -/
def refOut (b : Fin 8) (l : Fin 1024) (h : Fin 8) (d : Fin 256) : EReal :=
  softmaxDot (scoreRef x Wq Wk bq bk b h l) (fun j => proj x Wv bv b h j d)

/-- The kernel's score of query `l` against key `j` of chunk `c`: the query scaled first. -/
def scoreKer (b h : Fin 8) (l : Fin 1024) (c : Fin 4) (j : Fin 256) : EReal :=
  ∑ d : Fin 256, (proj x Wq bq b h l d * ((1 / 16 : ℝ) : EReal)) * proj x Wk bk b h (key c j) d

/-- The kernel's arrangement at output entry `(b, l, (h, d))`. -/
def kerOut (b : Fin 8) (l : Fin 1024) (h : Fin 8) (d : Fin 256) : EReal :=
  onlineDot (scoreKer x Wq Wk bq bk b h l) (fun c j => proj x Wv bv b h (key c j) d)

end Cert.Attention

end
-- ==== Proof.WindowArrays.lean ====
/-
  The kernel's three input blocks read off the argument arrays.

  Before the region the host flattens the image's pixels into 1024 tokens, and stacks the three weight matrices
  (and the three bias vectors) head by head: head `h` owns the 768 columns `h·768 … h·768 + 767` of the stack,
  its first 256 the query's, the next 256 the key's, the last 256 the value's, each being columns
  `h·256 … h·256 + 255` of the matrix it came from.  The grid's point `t` is (batch entry, head) = (t / 8, t % 8):
  its input block is that batch entry's tokens, its weight and bias blocks are that head's 768 columns.
-/
import proofs.«152565_j18279380811977_2_alg».proof.Proof.IdealFrame
import proofs.«152565_j18279380811977_2_alg».proof.Proof.Attention
import Idealize.ShloMosaic.Lib.StableHlo.Run
import Idealize.ShloMosaic.Lib.Pipeline.Value
import Idealize.ShloMosaic.Lib.ValueIdx

set_option maxRecDepth 16384

noncomputable section

namespace Cert.KernelIdeal.Windows

open Cert.KernelIdeal Cert.KernelIdeal.Gen Cert.KernelIdeal.Hand Idealize.ShloMosaic Idealize.ShloMosaic.ValueIdx
open Idealize.ShloMosaic.TcCoe Idealize.ShloMosaic.StableHlo

variable (m : (ℓ : Loc nD τ sig) → Buf (Elt Ideal) ℓ) (c : Dev nD)

/-! ## The arrays the windows read, as the host operations leave them -/

/-- Goes on reading each operation's result off the buffers it was computed from. -/
local macro "results_more" : tactic =>
  `(tactic| repeat (first
      | rw [unary_result] | rw [reshape_result] | rw [nary_result]
      | (rw [unary_result_ne]; rotate_left; decide)
      | (rw [reshape_result_ne]; rotate_left; decide)
      | (rw [nary_result_ne]; rotate_left; decide)))

/-- The first window's array: the input with its two pixel axes flattened. -/
theorem v0_term : (V m c main_v0 : S8x256x1024.Idx → EReal)
    = shapeCast S8x256x1024 (m ((c : Thread nD τ).loc main_arg0)) shapeCasts_S8x256x32x32_S8x256x1024 := by
  dsimp only [V, Gen.hostOps0]
  simp only [List.flatten_cons, List.flatten_nil, List.append_nil]
  after_results
  rfl

/-- The second window's array: the three weight matrices stacked head by head. -/
theorem v8_term : (V m c main_v8 : S256x6144.Idx → EReal)
    = shapeCast S256x6144 (concatenate S256x8x3x256 2
        [⟨S256x8x1x256, broadcastInDim S256x8x1x256 ![0, 1, 3] bcast_S256x8x256_S256x8x1x256_0_1_3
            (shapeCast S256x8x256 (m ((c : Thread nD τ).loc main_arg1)) shapeCasts_S256x2048_S256x8x256)⟩,
         ⟨S256x8x1x256, broadcastInDim S256x8x1x256 ![0, 1, 3] bcast_S256x8x256_S256x8x1x256_0_1_3
            (shapeCast S256x8x256 (m ((c : Thread nD τ).loc main_arg3)) shapeCasts_S256x2048_S256x8x256)⟩,
         ⟨S256x8x1x256, broadcastInDim S256x8x1x256 ![0, 1, 3] bcast_S256x8x256_S256x8x1x256_0_1_3
            (shapeCast S256x8x256 (m ((c : Thread nD τ).loc main_arg5)) shapeCasts_S256x2048_S256x8x256)⟩]
        concatenates_S256x8x1x256_S256x8x1x256_S256x8x1x256_S256x8x3x256_d2) shapeCasts_S256x8x3x256_S256x6144 := by
  dsimp only [V, Gen.hostOps0]
  simp only [List.flatten_cons, List.flatten_nil, List.append_nil]
  after_results
  dsimp only [Matrix.cons_val]
  results_more
  rfl

/-- The third window's array: the three bias vectors stacked head by head into one row. -/
theorem v16_term : (V m c main_v16 : S1x6144.Idx → EReal)
    = shapeCast S1x6144 (concatenate S8x3x256 1
        [⟨S8x1x256, broadcastInDim S8x1x256 ![0, 2] bcast_S8x256_S8x1x256_0_2
            (shapeCast S8x256 (m ((c : Thread nD τ).loc main_arg2)) shapeCasts_S2048_S8x256)⟩,
         ⟨S8x1x256, broadcastInDim S8x1x256 ![0, 2] bcast_S8x256_S8x1x256_0_2
            (shapeCast S8x256 (m ((c : Thread nD τ).loc main_arg4)) shapeCasts_S2048_S8x256)⟩,
         ⟨S8x1x256, broadcastInDim S8x1x256 ![0, 2] bcast_S8x256_S8x1x256_0_2
            (shapeCast S8x256 (m ((c : Thread nD τ).loc main_arg6)) shapeCasts_S2048_S8x256)⟩]
        concatenates_S8x1x256_S8x1x256_S8x1x256_S8x3x256_d1) shapeCasts_S8x3x256_S1x6144 := by
  dsimp only [V, Gen.hostOps0]
  simp only [List.flatten_cons, List.flatten_nil, List.append_nil]
  after_results
  dsimp only [Matrix.cons_val]
  results_more
  rfl

/-! ## The stacked weights and biases read at an index -/

/-- Three weight matrices, each cut into its eight heads of 256 columns and stacked head by head: column
    `h·768 + s·256 + d` of the stack is column `h·256 + d` of matrix `s`. -/
theorem wcat_at (p : Fin 3 → S256x2048.Idx → EReal) (ch : Fin 256) (h : Fin 8) (s : Fin 3) (d : Fin 256) (n : Fin 6144)
    (hn : n.val = h.val * 768 + s.val * 256 + d.val) :
    shapeCast S256x6144 (concatenate S256x8x3x256 2
        [⟨S256x8x1x256, broadcastInDim S256x8x1x256 ![0, 1, 3] bcast_S256x8x256_S256x8x1x256_0_1_3
            (shapeCast S256x8x256 (p 0) shapeCasts_S256x2048_S256x8x256)⟩,
         ⟨S256x8x1x256, broadcastInDim S256x8x1x256 ![0, 1, 3] bcast_S256x8x256_S256x8x1x256_0_1_3
            (shapeCast S256x8x256 (p 1) shapeCasts_S256x2048_S256x8x256)⟩,
         ⟨S256x8x1x256, broadcastInDim S256x8x1x256 ![0, 1, 3] bcast_S256x8x256_S256x8x1x256_0_1_3
            (shapeCast S256x8x256 (p 2) shapeCasts_S256x2048_S256x8x256)⟩]
        concatenates_S256x8x1x256_S256x8x1x256_S256x8x1x256_S256x8x3x256_d2) shapeCasts_S256x8x3x256_S256x6144 (ix2 ch n)
      = p s (ix2 ch (Cert.Attention.col h d)) := by
  have hch := ch.isLt
  have hh := h.isLt
  have hs := s.isLt
  have hd := d.isLt
  refine (shapeCast_apply _ shapeCasts_S256x8x3x256_S256x6144 (ix2 ch n) (ix4 ch h s d) ?_).trans ?_
  · rw [Shape.rowMajor_val_four, Shape.rowMajor_val_two]
    show ((ch.val * 8 + h.val) * 3 + s.val) * 256 + d.val = ch.val * 6144 + n.val
    omega
  let f : Fin 3 → (S256x8x1x256.Idx → EReal) := fun k =>
    broadcastInDim S256x8x1x256 ![0, 1, 3] bcast_S256x8x256_S256x8x1x256_0_1_3
      (shapeCast S256x8x256 (p k) shapeCasts_S256x2048_S256x8x256)
  refine (concatenate_ofFn_unit_apply (t := S256x8x3x256) (s₁ := S256x8x1x256) 2 f
    concatenates_S256x8x1x256_S256x8x1x256_S256x8x1x256_S256x8x3x256_d2 rfl rfl (ix4 ch h s d) s rfl
    (ix4 ch h (0 : Fin 1) d) ?_).trans ?_
  · intro b hb
    match b with
    | ⟨0, _⟩ => rfl
    | ⟨1, _⟩ => rfl
    | ⟨2, _⟩ => exact absurd rfl hb
    | ⟨3, _⟩ => rfl
  refine (broadcastInDim_apply _ bcast_S256x8x256_S256x8x1x256_0_1_3 _ (ix4 ch h (0 : Fin 1) d) (ix3 ch h d) ?_).trans ?_
  · intro a
    match a with
    | ⟨0, _⟩ => rfl
    | ⟨1, _⟩ => rfl
    | ⟨2, _⟩ => rfl
  refine shapeCast_apply _ shapeCasts_S256x2048_S256x8x256 (ix3 ch h d) (ix2 ch (Cert.Attention.col h d)) ?_
  rw [Shape.rowMajor_val_two, Shape.rowMajor_val_three]
  show ch.val * 2048 + (h.val * 256 + d.val) = (ch.val * 8 + h.val) * 256 + d.val
  omega

/-- Three bias vectors, each cut into its eight heads of 256 entries and stacked head by head into one row: entry
    `h·768 + s·256 + d` of the row is entry `h·256 + d` of vector `s`. -/
theorem bcat_at (p : Fin 3 → S2048.Idx → EReal) (h : Fin 8) (s : Fin 3) (d : Fin 256) (n : Fin 6144)
    (hn : n.val = h.val * 768 + s.val * 256 + d.val) :
    shapeCast S1x6144 (concatenate S8x3x256 1
        [⟨S8x1x256, broadcastInDim S8x1x256 ![0, 2] bcast_S8x256_S8x1x256_0_2
            (shapeCast S8x256 (p 0) shapeCasts_S2048_S8x256)⟩,
         ⟨S8x1x256, broadcastInDim S8x1x256 ![0, 2] bcast_S8x256_S8x1x256_0_2
            (shapeCast S8x256 (p 1) shapeCasts_S2048_S8x256)⟩,
         ⟨S8x1x256, broadcastInDim S8x1x256 ![0, 2] bcast_S8x256_S8x1x256_0_2
            (shapeCast S8x256 (p 2) shapeCasts_S2048_S8x256)⟩]
        concatenates_S8x1x256_S8x1x256_S8x1x256_S8x3x256_d1) shapeCasts_S8x3x256_S1x6144 (ix2 (0 : Fin 1) n)
      = p s (ix1 (Cert.Attention.col h d)) := by
  have hh := h.isLt
  have hs := s.isLt
  have hd := d.isLt
  refine (shapeCast_apply _ shapeCasts_S8x3x256_S1x6144 (ix2 (0 : Fin 1) n) (ix3 h s d) ?_).trans ?_
  · rw [Shape.rowMajor_val_three, Shape.rowMajor_val_two]
    show (h.val * 3 + s.val) * 256 + d.val = 0 * 6144 + n.val
    omega
  let f : Fin 3 → (S8x1x256.Idx → EReal) := fun k =>
    broadcastInDim S8x1x256 ![0, 2] bcast_S8x256_S8x1x256_0_2 (shapeCast S8x256 (p k) shapeCasts_S2048_S8x256)
  refine (concatenate_ofFn_unit_apply (t := S8x3x256) (s₁ := S8x1x256) 1 f
    concatenates_S8x1x256_S8x1x256_S8x1x256_S8x3x256_d1 rfl rfl (ix3 h s d) s rfl (ix3 h (0 : Fin 1) d) ?_).trans ?_
  · intro b hb
    match b with
    | ⟨0, _⟩ => rfl
    | ⟨1, _⟩ => exact absurd rfl hb
    | ⟨2, _⟩ => rfl
  refine (broadcastInDim_apply _ bcast_S8x256_S8x1x256_0_2 _ (ix3 h (0 : Fin 1) d) (ix2 h d) ?_).trans ?_
  · intro a
    match a with
    | ⟨0, _⟩ => rfl
    | ⟨1, _⟩ => rfl
  refine shapeCast_apply _ shapeCasts_S2048_S8x256 (ix2 h d) (ix1 (Cert.Attention.col h d)) ?_
  rw [Shape.rowMajor_val_one, Shape.rowMajor_val_two]
  show h.val * 256 + d.val = h.val * 256 + d.val
  rfl

/-! ## The arrays read at an index, off the arguments -/

/-- Entry (b, ch, l) of the flattened input is channel `ch` of pixel (l / 32, l % 32). -/
theorem v0_at (b : Fin 8) (ch : Fin 256) (l : Fin 1024) :
    V m c main_v0 (ix3 b ch l)
      = m ((c : Thread nD τ).loc main_arg0) (ix4 b ch (⟨l.val / 32, by have := l.isLt; omega⟩ : Fin 32) (⟨l.val % 32, by omega⟩ : Fin 32)) := by
  have hb := b.isLt
  have hch := ch.isLt
  have hl := l.isLt
  refine (congrFun (v0_term m c) (ix3 b ch l)).trans ?_
  refine shapeCast_apply _ shapeCasts_S8x256x32x32_S8x256x1024 (ix3 b ch l)
    (ix4 b ch (⟨l.val / 32, by omega⟩ : Fin 32) (⟨l.val % 32, by omega⟩ : Fin 32)) ?_
  rw [Shape.rowMajor_val_four, Shape.rowMajor_val_three]
  show ((b.val * 256 + ch.val) * 32 + l.val / 32) * 32 + l.val % 32 = (b.val * 256 + ch.val) * 1024 + l.val
  omega

/-- Column `h·768 + d` of the stacked weights is column `h·256 + d` of the query's matrix. -/
theorem v8_at_q (ch : Fin 256) (h : Fin 8) (d : Fin 256) :
    V m c main_v8 (ix2 ch (⟨h.val * 768 + d.val, by have := h.isLt; have := d.isLt; omega⟩ : Fin 6144))
      = m ((c : Thread nD τ).loc main_arg1) (ix2 ch (Cert.Attention.col h d)) :=
  (congrFun (v8_term m c) _).trans (wcat_at (![(m ((c : Thread nD τ).loc main_arg1) : S256x2048.Idx → EReal), m ((c : Thread nD τ).loc main_arg3), m ((c : Thread nD τ).loc main_arg5)] : Fin 3 → S256x2048.Idx → EReal) ch h 0 d _ (by show h.val * 768 + d.val = h.val * 768 + 0 * 256 + d.val; omega))

/-- Column `h·768 + 256 + d` of the stacked weights is column `h·256 + d` of the key's matrix. -/
theorem v8_at_k (ch : Fin 256) (h : Fin 8) (d : Fin 256) :
    V m c main_v8 (ix2 ch (⟨h.val * 768 + 256 + d.val, by have := h.isLt; have := d.isLt; omega⟩ : Fin 6144))
      = m ((c : Thread nD τ).loc main_arg3) (ix2 ch (Cert.Attention.col h d)) :=
  (congrFun (v8_term m c) _).trans (wcat_at (![(m ((c : Thread nD τ).loc main_arg1) : S256x2048.Idx → EReal), m ((c : Thread nD τ).loc main_arg3), m ((c : Thread nD τ).loc main_arg5)] : Fin 3 → S256x2048.Idx → EReal) ch h 1 d _ (by show h.val * 768 + 256 + d.val = h.val * 768 + 1 * 256 + d.val; omega))

/-- Column `h·768 + 512 + d` of the stacked weights is column `h·256 + d` of the value's matrix. -/
theorem v8_at_v (ch : Fin 256) (h : Fin 8) (d : Fin 256) :
    V m c main_v8 (ix2 ch (⟨h.val * 768 + 512 + d.val, by have := h.isLt; have := d.isLt; omega⟩ : Fin 6144))
      = m ((c : Thread nD τ).loc main_arg5) (ix2 ch (Cert.Attention.col h d)) :=
  (congrFun (v8_term m c) _).trans (wcat_at (![(m ((c : Thread nD τ).loc main_arg1) : S256x2048.Idx → EReal), m ((c : Thread nD τ).loc main_arg3), m ((c : Thread nD τ).loc main_arg5)] : Fin 3 → S256x2048.Idx → EReal) ch h 2 d _ (by show h.val * 768 + 512 + d.val = h.val * 768 + 2 * 256 + d.val; omega))

/-- Entry `h·768 + d` of the stacked biases is entry `h·256 + d` of the query's bias. -/
theorem v16_at_q (h : Fin 8) (d : Fin 256) :
    V m c main_v16 (ix2 (0 : Fin 1) (⟨h.val * 768 + d.val, by have := h.isLt; have := d.isLt; omega⟩ : Fin 6144))
      = m ((c : Thread nD τ).loc main_arg2) (ix1 (Cert.Attention.col h d)) :=
  (congrFun (v16_term m c) _).trans (bcat_at (![(m ((c : Thread nD τ).loc main_arg2) : S2048.Idx → EReal), m ((c : Thread nD τ).loc main_arg4), m ((c : Thread nD τ).loc main_arg6)] : Fin 3 → S2048.Idx → EReal) h 0 d _ (by show h.val * 768 + d.val = h.val * 768 + 0 * 256 + d.val; omega))

/-- Entry `h·768 + 256 + d` of the stacked biases is entry `h·256 + d` of the key's bias. -/
theorem v16_at_k (h : Fin 8) (d : Fin 256) :
    V m c main_v16 (ix2 (0 : Fin 1) (⟨h.val * 768 + 256 + d.val, by have := h.isLt; have := d.isLt; omega⟩ : Fin 6144))
      = m ((c : Thread nD τ).loc main_arg4) (ix1 (Cert.Attention.col h d)) :=
  (congrFun (v16_term m c) _).trans (bcat_at (![(m ((c : Thread nD τ).loc main_arg2) : S2048.Idx → EReal), m ((c : Thread nD τ).loc main_arg4), m ((c : Thread nD τ).loc main_arg6)] : Fin 3 → S2048.Idx → EReal) h 1 d _ (by show h.val * 768 + 256 + d.val = h.val * 768 + 1 * 256 + d.val; omega))

/-- Entry `h·768 + 512 + d` of the stacked biases is entry `h·256 + d` of the value's bias. -/
theorem v16_at_v (h : Fin 8) (d : Fin 256) :
    V m c main_v16 (ix2 (0 : Fin 1) (⟨h.val * 768 + 512 + d.val, by have := h.isLt; have := d.isLt; omega⟩ : Fin 6144))
      = m ((c : Thread nD τ).loc main_arg6) (ix1 (Cert.Attention.col h d)) :=
  (congrFun (v16_term m c) _).trans (bcat_at (![(m ((c : Thread nD τ).loc main_arg2) : S2048.Idx → EReal), m ((c : Thread nD τ).loc main_arg4), m ((c : Thread nD τ).loc main_arg6)] : Fin 3 → S2048.Idx → EReal) h 2 d _ (by show h.val * 768 + 512 + d.val = h.val * 768 + 2 * 256 + d.val; omega))

/-! ## The blocks read off the arrays -/

/-- The grid has 64 points. -/
theorem t_lt (t : Fin cfg0.N) : t.val < 64 :=
  Nat.lt_of_lt_of_eq t.isLt (N_0 : cfg0.N = 64)

/-- The block index of the input window at a point: the batch entry `t / 8`, whole in the other two axes. -/
theorem idx0 : ∀ t : Fin cfg0.N, win0_0.index t (0 : Fin 3) = t.val / 8 ∧ win0_0.index t (1 : Fin 3) = 0
    ∧ win0_0.index t (2 : Fin 3) = 0 :=
  (by decide +kernel : ∀ t : Fin grid0.N, _)

/-- The block index of the weight window at a point: all rows, the head `t % 8`'s 768 columns. -/
theorem idx1 : ∀ t : Fin cfg0.N, win0_1.index t (0 : Fin 2) = 0 ∧ win0_1.index t (1 : Fin 2) = t.val % 8 :=
  (by decide +kernel : ∀ t : Fin grid0.N, _)

/-- The block index of the bias window at a point: the one row, the head `t % 8`'s 768 columns. -/
theorem idx2 : ∀ t : Fin cfg0.N, win0_2.index t (0 : Fin 2) = 0 ∧ win0_2.index t (1 : Fin 2) = t.val % 8 :=
  (by decide +kernel : ∀ t : Fin grid0.N, _)

/-- The input block at point `t` is batch entry `t / 8` of the flattened input. -/
theorem xblk_at (t : Fin cfg0.N) (ch : Fin 256) (l : Fin 1024) :
    iblk m c 0 t (ix3 (0 : Fin 1) ch l)
      = V m c main_v0 (ix3 (⟨t.val / 8, by have := t_lt t; omega⟩ : Fin 8) ch l) := by
  unfold iblk
  show V m c main_v0 (((cfg0.win 0).blk t).view.emb (ix3 (0 : Fin 1) ch l)) = _
  refine congrArg (V m c main_v0) (funext fun a => Fin.ext ?_)
  obtain ⟨e0, e1, e2⟩ := idx0 t
  match a with
  | ⟨0, _⟩ => show win0_0.index t (0 : Fin 3) * 1 + 1 * 0 = t.val / 8; omega
  | ⟨1, _⟩ => show win0_0.index t (1 : Fin 3) * 256 + 1 * ch.val = ch.val; omega
  | ⟨2, _⟩ => show win0_0.index t (2 : Fin 3) * 1024 + 1 * l.val = l.val; omega

/-- The weight block at point `t` is the 768 columns of head `t % 8` of the stacked weights. -/
theorem wblk_at (t : Fin cfg0.N) (ch : Fin 256) (n : Fin 768) :
    iblk m c 1 t (ix2 ch n)
      = V m c main_v8 (ix2 ch (⟨(t.val % 8) * 768 + n.val, by have := n.isLt; omega⟩ : Fin 6144)) := by
  unfold iblk
  show V m c main_v8 (((cfg0.win 1).blk t).view.emb (ix2 ch n)) = _
  refine congrArg (V m c main_v8) (funext fun a => Fin.ext ?_)
  obtain ⟨e0, e1⟩ := idx1 t
  match a with
  | ⟨0, _⟩ => show win0_1.index t (0 : Fin 2) * 256 + 1 * ch.val = ch.val; omega
  | ⟨1, _⟩ => show win0_1.index t (1 : Fin 2) * 768 + 1 * n.val = (t.val % 8) * 768 + n.val; omega

/-- The bias block at point `t` is the 768 entries of head `t % 8` of the stacked biases. -/
theorem bblk_at (t : Fin cfg0.N) (n : Fin 768) :
    iblk m c 2 t (ix2 (0 : Fin 1) n)
      = V m c main_v16 (ix2 (0 : Fin 1) (⟨(t.val % 8) * 768 + n.val, by have := n.isLt; omega⟩ : Fin 6144)) := by
  unfold iblk
  show V m c main_v16 (((cfg0.win 2).blk t).view.emb (ix2 (0 : Fin 1) n)) = _
  refine congrArg (V m c main_v16) (funext fun a => Fin.ext ?_)
  obtain ⟨e0, e1⟩ := idx2 t
  match a with
  | ⟨0, _⟩ => show win0_2.index t (0 : Fin 2) * 1 + 1 * 0 = 0; omega
  | ⟨1, _⟩ => show win0_2.index t (1 : Fin 2) * 768 + 1 * n.val = (t.val % 8) * 768 + n.val; omega

end Cert.KernelIdeal.Windows

end
-- ==== Proof.LibColumns.lean ====
/-
  Column forms of a keepdims reduction, read at coordinates: a vector of `a` entries cast to the column `[a, 1]` reads
  its entry `i` at `(i, 0)`, and a column `[a, 1]` broadcast along `b` columns reads, at `(p, c)`, the column at
  `(p, 0)` — so a per-row value (a row maximum, a row sum) laid against every entry of its row is that row's value.
-/
import Idealize.ShloMosaic.Lib.ValueIdx
import Idealize.ShloMosaic.Lib.Pipeline.Value

namespace Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A per-row value cast to a column and broadcast along the row reads, at `(p, c)`, the value of row `p`. -/
theorem broadcastTo_column_apply {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (c : Fin b) :
    broadcastTo ⟨2, ![a, b]⟩ (shapeCast ⟨2, ![a, 1]⟩ x h1) h2 (ix2 p c) = x (ix1 p) :=
  (broadcastTo_a1_ab_apply _ h2 p c).trans (shapeCast_a_a1_apply x h1 p 0)

end Idealize.ShloMosaic.ValueIdx
-- ==== Proof.BlockOps.lean ====
/-
  The body's vector operations at the ideal values, read at coordinates: the three matrix products as plain sums,
  a row's maximum and a row's sum kept as a column, a column laid along its row, the column slices of the projected
  tokens and the row slices of a key or value chunk, the transposed token block and the bias row.
-/
import proofs.«152565_j18279380811977_2_alg».proof.Proof.Gen.KernelIdeal
import proofs.«152565_j18279380811977_2_alg».proof.Proof.LibColumns
import proofs.«152565_j18279380811977_2_alg».proof.Proof.Attention
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Block

open Idealize.ShloMosaic Idealize.ShloMosaic.ValueIdx Cert.KernelIdeal Cert.KernelIdeal.Gen

/-! ## The matrix products -/

theorem mm_proj_lhs_free (i : S1024x768.Idx) (q : dot_S1024x256_S256x768_S1024x768_1_0_0_1_n_n.contr.Idx) : (dot_S1024x256_S256x768_S1024x768_1_0_0_1_n_n.lhsIdx i q 0).val = (i 0).val := by
  unfold DotDims.lhsIdx
  rw [dif_neg (show ¬(0 : Fin S1024x256.rank) ∈ dot_S1024x256_S256x768_S1024x768_1_0_0_1_n_n.lhsBatch by decide), dif_pos (show (0 : Fin S1024x256.rank) ∈ dot_S1024x256_S256x768_S1024x768_1_0_0_1_n_n.lhsNonContracting by decide)]
  rfl
theorem mm_proj_rhs_free (i : S1024x768.Idx) (q : dot_S1024x256_S256x768_S1024x768_1_0_0_1_n_n.contr.Idx) : (dot_S1024x256_S256x768_S1024x768_1_0_0_1_n_n.rhsIdx i q 1).val = (i 1).val := by
  unfold DotDims.rhsIdx
  rw [dif_neg (show ¬(1 : Fin S256x768.rank) ∈ dot_S1024x256_S256x768_S1024x768_1_0_0_1_n_n.rhsBatch by decide), dif_pos (show (1 : Fin S256x768.rank) ∈ dot_S1024x256_S256x768_S1024x768_1_0_0_1_n_n.rhsNonContracting by decide)]
  rfl
theorem mm_proj_lhs_contr (i : S1024x768.Idx) (q : dot_S1024x256_S256x768_S1024x768_1_0_0_1_n_n.contr.Idx) : (dot_S1024x256_S256x768_S1024x768_1_0_0_1_n_n.lhsIdx i q 1).val = (q ⟨0, by decide⟩).val :=
  dot_S1024x256_S256x768_S1024x768_1_0_0_1_n_n.lhsIdx_val_of_single rfl i q
theorem mm_proj_rhs_contr (i : S1024x768.Idx) (q : dot_S1024x256_S256x768_S1024x768_1_0_0_1_n_n.contr.Idx) : (dot_S1024x256_S256x768_S1024x768_1_0_0_1_n_n.rhsIdx i q 0).val = (q ⟨0, by decide⟩).val :=
  dot_S1024x256_S256x768_S1024x768_1_0_0_1_n_n.rhsIdx_val_of_single rfl i q

/-- Tokens [1024, 256] against the stacked weights [256, 768]: entry `(l, n)` is `Σ_k a_{l,k} · w_{k,n}`. -/
theorem mm_proj (a : FVec Ideal S1024x256 .bf16) (w : FVec Ideal S256x768 .bf16) (l : Fin 1024) (n : Fin 768) :
    matmul dot_S1024x256_S256x768_S1024x768_1_0_0_1_n_n none a w (constant S1024x768 .f32 0x00000000#32) (ix2 l n)
      = ∑ k : Fin 256, a (ix2 l k) * w (ix2 k n) := by
  refine (Ideal.matmul_constant_zero_apply dot_S1024x256_S256x768_S1024x768_1_0_0_1_n_n none a w _).trans ?_
  rw [← Equiv.sum_comp (contrEquiv1 dot_S1024x256_S256x768_S1024x768_1_0_0_1_n_n 256 rfl rfl).symm]
  refine Finset.sum_congr rfl fun k _ => ?_
  have hk := contrEquiv1_symm_val dot_S1024x256_S256x768_S1024x768_1_0_0_1_n_n 256 rfl rfl k
  have el : dot_S1024x256_S256x768_S1024x768_1_0_0_1_n_n.lhsIdx (ix2 l n) ((contrEquiv1 dot_S1024x256_S256x768_S1024x768_1_0_0_1_n_n 256 rfl rfl).symm k) = ix2 l k := funext fun c => Fin.ext (by
    match c with
    | ⟨0, _⟩ => exact mm_proj_lhs_free _ _
    | ⟨1, _⟩ => exact (mm_proj_lhs_contr _ _).trans hk)
  have er : dot_S1024x256_S256x768_S1024x768_1_0_0_1_n_n.rhsIdx (ix2 l n) ((contrEquiv1 dot_S1024x256_S256x768_S1024x768_1_0_0_1_n_n 256 rfl rfl).symm k) = ix2 k n := funext fun c => Fin.ext (by
    match c with
    | ⟨1, _⟩ => exact mm_proj_rhs_free _ _
    | ⟨0, _⟩ => exact (mm_proj_rhs_contr _ _).trans hk)
  rw [el, er]

theorem mm_score_lhs_free (i : S1024x256.Idx) (q : dot_S1024x256_S256x256_S1024x256_1_1_0_0_n_n.contr.Idx) : (dot_S1024x256_S256x256_S1024x256_1_1_0_0_n_n.lhsIdx i q 0).val = (i 0).val := by
  unfold DotDims.lhsIdx
  rw [dif_neg (show ¬(0 : Fin S1024x256.rank) ∈ dot_S1024x256_S256x256_S1024x256_1_1_0_0_n_n.lhsBatch by decide), dif_pos (show (0 : Fin S1024x256.rank) ∈ dot_S1024x256_S256x256_S1024x256_1_1_0_0_n_n.lhsNonContracting by decide)]
  rfl
theorem mm_score_rhs_free (i : S1024x256.Idx) (q : dot_S1024x256_S256x256_S1024x256_1_1_0_0_n_n.contr.Idx) : (dot_S1024x256_S256x256_S1024x256_1_1_0_0_n_n.rhsIdx i q 0).val = (i 1).val := by
  unfold DotDims.rhsIdx
  rw [dif_neg (show ¬(0 : Fin S256x256.rank) ∈ dot_S1024x256_S256x256_S1024x256_1_1_0_0_n_n.rhsBatch by decide), dif_pos (show (0 : Fin S256x256.rank) ∈ dot_S1024x256_S256x256_S1024x256_1_1_0_0_n_n.rhsNonContracting by decide)]
  rfl
theorem mm_score_lhs_contr (i : S1024x256.Idx) (q : dot_S1024x256_S256x256_S1024x256_1_1_0_0_n_n.contr.Idx) : (dot_S1024x256_S256x256_S1024x256_1_1_0_0_n_n.lhsIdx i q 1).val = (q ⟨0, by decide⟩).val :=
  dot_S1024x256_S256x256_S1024x256_1_1_0_0_n_n.lhsIdx_val_of_single rfl i q
theorem mm_score_rhs_contr (i : S1024x256.Idx) (q : dot_S1024x256_S256x256_S1024x256_1_1_0_0_n_n.contr.Idx) : (dot_S1024x256_S256x256_S1024x256_1_1_0_0_n_n.rhsIdx i q 1).val = (q ⟨0, by decide⟩).val :=
  dot_S1024x256_S256x256_S1024x256_1_1_0_0_n_n.rhsIdx_val_of_single rfl i q

/-- Queries [1024, 256] against a chunk of keys [256, 256], both contracted over the channel: entry `(l, j)` is `Σ_k a_{l,k} · w_{j,k}`. -/
theorem mm_score (a : FVec Ideal S1024x256 .bf16) (w : FVec Ideal S256x256 .bf16) (l : Fin 1024) (j : Fin 256) :
    matmul dot_S1024x256_S256x256_S1024x256_1_1_0_0_n_n none a w (constant S1024x256 .f32 0x00000000#32) (ix2 l j)
      = ∑ k : Fin 256, a (ix2 l k) * w (ix2 j k) := by
  refine (Ideal.matmul_constant_zero_apply dot_S1024x256_S256x256_S1024x256_1_1_0_0_n_n none a w _).trans ?_
  rw [← Equiv.sum_comp (contrEquiv1 dot_S1024x256_S256x256_S1024x256_1_1_0_0_n_n 256 rfl rfl).symm]
  refine Finset.sum_congr rfl fun k _ => ?_
  have hk := contrEquiv1_symm_val dot_S1024x256_S256x256_S1024x256_1_1_0_0_n_n 256 rfl rfl k
  have el : dot_S1024x256_S256x256_S1024x256_1_1_0_0_n_n.lhsIdx (ix2 l j) ((contrEquiv1 dot_S1024x256_S256x256_S1024x256_1_1_0_0_n_n 256 rfl rfl).symm k) = ix2 l k := funext fun c => Fin.ext (by
    match c with
    | ⟨0, _⟩ => exact mm_score_lhs_free _ _
    | ⟨1, _⟩ => exact (mm_score_lhs_contr _ _).trans hk)
  have er : dot_S1024x256_S256x256_S1024x256_1_1_0_0_n_n.rhsIdx (ix2 l j) ((contrEquiv1 dot_S1024x256_S256x256_S1024x256_1_1_0_0_n_n 256 rfl rfl).symm k) = ix2 j k := funext fun c => Fin.ext (by
    match c with
    | ⟨0, _⟩ => exact mm_score_rhs_free _ _
    | ⟨1, _⟩ => exact (mm_score_rhs_contr _ _).trans hk)
  rw [el, er]

theorem mm_ctx_lhs_free (i : S1024x256.Idx) (q : dot_S1024x256_S256x256_S1024x256_1_0_0_1_n_n.contr.Idx) : (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
theorem mm_ctx_rhs_free (i : S1024x256.Idx) (q : dot_S1024x256_S256x256_S1024x256_1_0_0_1_n_n.contr.Idx) : (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl
theorem mm_ctx_lhs_contr (i : S1024x256.Idx) (q : dot_S1024x256_S256x256_S1024x256_1_0_0_1_n_n.contr.Idx) : (dot_S1024x256_S256x256_S1024x256_1_0_0_1_n_n.lhsIdx i q 1).val = (q ⟨0, by decide⟩).val :=
  dot_S1024x256_S256x256_S1024x256_1_0_0_1_n_n.lhsIdx_val_of_single rfl i q
theorem mm_ctx_rhs_contr (i : S1024x256.Idx) (q : dot_S1024x256_S256x256_S1024x256_1_0_0_1_n_n.contr.Idx) : (dot_S1024x256_S256x256_S1024x256_1_0_0_1_n_n.rhsIdx i q 0).val = (q ⟨0, by decide⟩).val :=
  dot_S1024x256_S256x256_S1024x256_1_0_0_1_n_n.rhsIdx_val_of_single rfl i q

/-- Weights [1024, 256] against a chunk of values [256, 256]: entry `(l, d)` is `Σ_k a_{l,k} · w_{k,d}`. -/
theorem mm_ctx (a : FVec Ideal S1024x256 .bf16) (w : FVec Ideal S256x256 .bf16) (l : Fin 1024) (d : Fin 256) :
    matmul dot_S1024x256_S256x256_S1024x256_1_0_0_1_n_n none a w (constant S1024x256 .f32 0x00000000#32) (ix2 l d)
      = ∑ k : Fin 256, a (ix2 l k) * w (ix2 k d) := by
  refine (Ideal.matmul_constant_zero_apply dot_S1024x256_S256x256_S1024x256_1_0_0_1_n_n none a w _).trans ?_
  rw [← Equiv.sum_comp (contrEquiv1 dot_S1024x256_S256x256_S1024x256_1_0_0_1_n_n 256 rfl rfl).symm]
  refine Finset.sum_congr rfl fun k _ => ?_
  have hk := contrEquiv1_symm_val dot_S1024x256_S256x256_S1024x256_1_0_0_1_n_n 256 rfl rfl k
  have el : dot_S1024x256_S256x256_S1024x256_1_0_0_1_n_n.lhsIdx (ix2 l d) ((contrEquiv1 dot_S1024x256_S256x256_S1024x256_1_0_0_1_n_n 256 rfl rfl).symm k) = ix2 l k := funext fun c => Fin.ext (by
    match c with
    | ⟨0, _⟩ => exact mm_ctx_lhs_free _ _
    | ⟨1, _⟩ => exact (mm_ctx_lhs_contr _ _).trans hk)
  have er : dot_S1024x256_S256x256_S1024x256_1_0_0_1_n_n.rhsIdx (ix2 l d) ((contrEquiv1 dot_S1024x256_S256x256_S1024x256_1_0_0_1_n_n 256 rfl rfl).symm k) = ix2 k d := funext fun c => Fin.ext (by
    match c with
    | ⟨1, _⟩ => exact mm_ctx_rhs_free _ _
    | ⟨0, _⟩ => exact (mm_ctx_rhs_contr _ _).trans hk)
  rw [el, er]

/-! ## Row reductions kept as columns -/

/-- The reduced index `l` of a [1024, 256] array with column `k` put back is `(l, k)`. -/
theorem lift_row (h : S1024x256.Reduces [1] S1024) (l : Fin 1024) (k : Fin (S1024x256.size 1)) :
    h.lift (ix1 l) k = ix2 l (⟨k.val, k.isLt⟩ : Fin 256) := by
  funext c; apply Fin.ext
  fin_cases c <;> rfl

/-- A row's maximum from `-∞`, kept as a column: at `(l, 0)` the fold of `max` from `⊥` over row `l`. -/
theorem row_max_at (s : FVec Ideal S1024x256 .f32) (h : S1024x256.Reduces [1] S1024) (hφ : FKind.Formats .f32)
    (hacc : (0xFF800000#32 : BitVec 32) = FKind.maximumf.neutral .f32 hφ) (hc : S1024.ShapeCasts S1024x1)
    (hb : Ideal.ofBits .f32 0xFF800000#32 = (⊥ : EReal)) (l : Fin 1024) (u : Fin 1) :
    shapeCast S1024x1 (multiReduction .maximumf [1] S1024 s 0xFF800000#32 h hφ hacc) hc (ix2 l u)
      = Cert.Attention.rowMax fun j : Fin 256 => s (ix2 l j) := by
  refine (shapeCast_a_a1_apply _ hc l u).trans ?_
  refine (Ideal.multiReduction_maximumf_single s 0xFF800000#32 h hφ hacc (ix1 l)).trans ?_
  unfold Cert.Attention.rowMax
  show (Finset.univ : Finset (Fin 256)).fold max (Ideal.ofBits .f32 0xFF800000#32) (s ∘ h.lift (ix1 l)) = _
  rw [hb]
  congr 1
  funext k
  exact congrArg s (lift_row h l k)

/-- A row's sum from zero, kept as a column: at `(l, 0)` the sum over row `l`. -/
theorem row_sum_at (s : FVec Ideal S1024x256 .f32) (h : S1024x256.Reduces [1] S1024) (hφ : FKind.Formats .f32)
    (hacc : (0x00000000#32 : BitVec 32) = FKind.add.neutral .f32 hφ) (hc : S1024.ShapeCasts S1024x1) (l : Fin 1024) (u : Fin 1) :
    shapeCast S1024x1 (multiReduction .add [1] S1024 s 0x00000000#32 h hφ hacc) hc (ix2 l u)
      = ∑ j : Fin 256, s (ix2 l j) := by
  refine (shapeCast_a_a1_apply _ hc l u).trans ?_
  refine (Ideal.multiReduction_add_single s 0x00000000#32 h hφ hacc (ix1 l)).trans ?_
  show ∑ k : Fin 256, s (h.lift (ix1 l) k) = _
  exact Finset.sum_congr rfl fun k _ => congrArg s (lift_row h l k)

/-- A column laid along its row. -/
theorem col_along_row (m : FVec Ideal S1024x1 .f32) (hb : S1024x1.Broadcasts S1024x256) (l : Fin 1024) (j : Fin 256) :
    broadcastTo S1024x256 m hb (ix2 l j) = m (ix2 l (0 : Fin 1)) :=
  broadcastTo_a1_ab_apply m hb l j

/-! ## Slices -/

/-- Columns `off … off + 255` of the projected tokens [1024, 768]. -/
theorem col_slice_at {φ : FTy} (v : FVec Ideal S1024x768 φ) (off : Nat) (hoff : off + 256 ≤ 768) (h : S1024x768.Slices ![0, off] S1024x256)
    (l : Fin 1024) (d : Fin 256) :
    extractStridedSlice S1024x256 ![0, off] v h (ix2 l d) = v (ix2 l (⟨off + d.val, by omega⟩ : Fin 768)) :=
  extractStridedSlice_apply _ v h _ _ fun c => by
    match c with
    | ⟨0, _⟩ => show l.val = 0 + l.val; omega
    | ⟨1, _⟩ => rfl

/-- Rows `off … off + 255` of the keys or values [1024, 256]. -/
theorem row_slice_at {φ : FTy} (v : FVec Ideal S1024x256 φ) (off : Nat) (hoff : off + 256 ≤ 1024) (h : S1024x256.Slices ![off, 0] S256x256)
    (j : Fin 256) (d : Fin 256) :
    extractStridedSlice S256x256 ![off, 0] v h (ix2 j d) = v (ix2 (⟨off + j.val, by omega⟩ : Fin 1024) d) :=
  extractStridedSlice_apply _ v h _ _ fun c => by
    match c with
    | ⟨0, _⟩ => rfl
    | ⟨1, _⟩ => show d.val = 0 + d.val; omega

/-! ## The token block and the bias row -/

/-- The input block [1, 256, 1024] with its unit axis dropped and transposed: token `l`'s channel `c`. -/
theorem tokens_at (x : FVec Ideal S1x256x1024 .f32) (hc : S1x256x1024.ShapeCasts S256x1024) (ht : S256x1024.Transposes [1, 0] S1024x256)
    (l : Fin 1024) (c : Fin 256) :
    transpose S1024x256 [1, 0] (shapeCast S256x1024 x hc) ht (ix2 l c) = x (ix3 (0 : Fin 1) c l) := by
  refine (transpose_apply [1, 0] _ ht (ix2 l c) (ix2 c l) (fun b => by
    match b with
    | ⟨0, _⟩ => rfl
    | ⟨1, _⟩ => rfl)).trans ?_
  exact shapeCast_apply x hc (ix2 c l) (ix3 (0 : Fin 1) c l) (by
    rw [Shape.rowMajor_val_three, Shape.rowMajor_val_two]
    show (0 * 256 + c.val) * 1024 + l.val = c.val * 1024 + l.val
    omega)

/-- The bias row [1, 768] laid along the 1024 tokens. -/
theorem bias_at (b : FVec Ideal S1x768 .f32) (hb : S1x768.Broadcasts S1024x768) (l : Fin 1024) (n : Fin 768) :
    broadcastTo S1024x768 b hb (ix2 l n) = b (ix2 (0 : Fin 1) n) :=
  broadcastTo_apply b hb (ix2 l n) (ix2 (0 : Fin 1) n) fun c => by
    match c with
    | ⟨0, _⟩ => rfl
    | ⟨1, _⟩ => rfl

/-- The output block [1024, 256] given its leading unit axis. -/
theorem with_unit_at (v : FVec Ideal S1024x256 .f32) (hc : S1024x256.ShapeCasts S1x1024x256) (l : Fin 1024) (d : Fin 256) :
    shapeCast S1x1024x256 v hc (ix3 (0 : Fin 1) l d) = v (ix2 l d) :=
  shapeCast_apply v hc _ _ (by
    rw [Shape.rowMajor_val_three, Shape.rowMajor_val_two]
    show l.val * 256 + d.val = (0 * 1024 + l.val) * 256 + d.val
    omega)

end Cert.KernelIdeal.Block

end
-- ==== Proof.BlockValue.lean ====
/-
  The body's named values read at coordinates, over the extended reals. With `qkv` the projected and biased tokens
  of the block, each named value is an elementary expression of the values before it: a column slice, a chunk's
  scores, a running maximum, the rescaling factor exp(old maximum − new maximum), the chunk's weights
  exp(score − maximum), the running denominator and the running numerator, and at the end their quotient.
-/
import proofs.«152565_j18279380811977_2_alg».proof.Proof.BlockOps
import proofs.«152565_j18279380811977_2_alg».proof.Proof.Gen.KernelIdeal.Skeleton

noncomputable section

namespace Cert.KernelIdeal.Block

open Idealize.ShloMosaic Idealize.ShloMosaic.ValueIdx Cert.KernelIdeal Cert.KernelIdeal.Gen Cert.Attention

/-! ## The projections -/

section Projections

variable (x : Vec Ideal S1x256x1024 .f32) (w : Vec Ideal S256x768 .f32) (b : Vec Ideal S1x768 .f32)

/-- The projected and biased tokens of the block: token `l`, column `n` of the 768 stacked q | k | v columns. -/
def qkv (l : Fin 1024) (n : Fin 768) : EReal :=
  (∑ c : Fin 256, x (ix3 (0 : Fin 1) c l) * w (ix2 c n)) + b (ix2 (0 : Fin 1) n)

theorem pay2_at (l : Fin 1024) (n : Fin 768) : k0_pay2 x w b (ix2 l n) = qkv x w b l n := by
  unfold k0_pay2 qkv
  simp only [addf_apply]
  rw [mm_proj, bias_at]
  simp only [truncf_apply, shapeCast_self]
  refine congrArg (· + b (ix2 (0 : Fin 1) n)) (Finset.sum_congr rfl fun k _ => ?_)
  exact congrArg (· * w (ix2 k n)) (tokens_at x _ _ l k)

/-- The scaled query columns. -/
theorem pay3_at (l : Fin 1024) (d : Fin 256) :
    k0_pay3 x w b (ix2 l d) = qkv x w b l (⟨0 + d.val, by omega⟩ : Fin 768) * Ideal.ofBits .f32 0x3D800000#32 := by
  unfold k0_pay3
  show extractStridedSlice S1024x256 ![0, 0] (k0_pay2 x w b) _ (ix2 l d) * Ideal.ofBits .f32 0x3D800000#32 = _
  rw [col_slice_at _ 0 (by omega), pay2_at]

/-- The key columns. -/
theorem pay4_at (l : Fin 1024) (d : Fin 256) :
    k0_pay4 x w b (ix2 l d) = qkv x w b l (⟨256 + d.val, by omega⟩ : Fin 768) := by
  unfold k0_pay4
  refine (col_slice_at (k0_pay2 x w b) 256 (by omega) slices_S1024x768_o0_256_S1024x256 l d).trans ?_
  rw [pay2_at]

/-- The value columns. -/
theorem pay5_at (l : Fin 1024) (d : Fin 256) :
    k0_pay5 x w b (ix2 l d) = qkv x w b l (⟨512 + d.val, by omega⟩ : Fin 768) := by
  unfold k0_pay5
  refine (col_slice_at (k0_pay2 x w b) 512 (by omega) slices_S1024x768_o0_512_S1024x256 l d).trans ?_
  rw [pay2_at]

end Projections

/-! ## A chunk's scores and its weighted values -/

/-- Queries against the 256 keys from row `off` on. -/
theorem score_at (q kk : FVec Ideal S1024x256 .bf16) (off : Nat) (hoff : off + 256 ≤ 1024) (hs : S1024x256.Slices ![off, 0] S256x256)
    (l : Fin 1024) (j : Fin 256) :
    matmul dot_S1024x256_S256x256_S1024x256_1_1_0_0_n_n none q (extractStridedSlice S256x256 ![off, 0] kk hs)
        (constant S1024x256 .f32 0x00000000#32) (ix2 l j)
      = ∑ k : Fin 256, q (ix2 l k) * kk (ix2 (⟨off + j.val, by omega⟩ : Fin 1024) k) := by
  rw [mm_score]
  exact Finset.sum_congr rfl fun k _ => congrArg (q (ix2 l k) * ·) (row_slice_at kk off hoff hs j k)

/-- Weights against the 256 values from row `off` on. -/
theorem ctx_at (p vv : FVec Ideal S1024x256 .bf16) (off : Nat) (hoff : off + 256 ≤ 1024) (hs : S1024x256.Slices ![off, 0] S256x256)
    (l : Fin 1024) (d : Fin 256) :
    matmul dot_S1024x256_S256x256_S1024x256_1_0_0_1_n_n none p (extractStridedSlice S256x256 ![off, 0] vv hs)
        (constant S1024x256 .f32 0x00000000#32) (ix2 l d)
      = ∑ j : Fin 256, p (ix2 l j) * vv (ix2 (⟨off + j.val, by omega⟩ : Fin 1024) d) := by
  rw [mm_ctx]
  exact Finset.sum_congr rfl fun j _ => congrArg (p (ix2 l j) * ·) (row_slice_at vv off hoff hs j d)

/-! ## The first chunk -/

section First

variable (x : Vec Ideal S1x256x1024 .f32) (w : Vec Ideal S256x768 .f32) (b : Vec Ideal S1x768 .f32)

theorem pay7_at (l : Fin 1024) (j : Fin 256) :
    k0_pay7 x w b (ix2 l j) = ∑ k : Fin 256, k0_pay3 x w b (ix2 l k) * k0_pay4 x w b (ix2 (⟨0 + j.val, by omega⟩ : Fin 1024) k) := by
  unfold k0_pay7
  exact score_at _ _ 0 (by omega) _ l j

theorem pay8_at (hb : Ideal.ofBits .f32 0xFF800000#32 = (⊥ : EReal)) (l : Fin 1024) (u : Fin 1) :
    k0_pay8 x w b (ix2 l u) = max (Ideal.ofBits .f32 0xFF800000#32) (rowMax fun j : Fin 256 => k0_pay7 x w b (ix2 l j)) := by
  unfold k0_pay8 k0_pay6
  exact congrArg (max (Ideal.ofBits .f32 0xFF800000#32)) (row_max_at _ _ _ _ _ hb l u)

theorem pay9_at (l : Fin 1024) (u : Fin 1) :
    k0_pay9 x w b (ix2 l u) = Ideal.exp (Ideal.ofBits .f32 0xFF800000#32 - k0_pay8 x w b (ix2 l u)) := rfl

theorem pay10_at (l : Fin 1024) (j : Fin 256) :
    k0_pay10 x w b (ix2 l j) = Ideal.exp (k0_pay7 x w b (ix2 l j) - k0_pay8 x w b (ix2 l (0 : Fin 1))) := by
  unfold k0_pay10
  show Ideal.exp (k0_pay7 x w b (ix2 l j) - broadcastTo S1024x256 (k0_pay8 x w b) _ (ix2 l j)) = _
  rw [col_along_row]

theorem pay11_at (l : Fin 1024) (u : Fin 1) :
    k0_pay11 x w b (ix2 l u) = k0_pay9 x w b (ix2 l u) * Ideal.ofBits .f32 0x00000000#32 + ∑ j : Fin 256, k0_pay10 x w b (ix2 l j) := by
  unfold k0_pay11
  exact congrArg (k0_pay9 x w b (ix2 l u) * Ideal.ofBits .f32 0x00000000#32 + ·) (row_sum_at _ _ _ _ _ l u)

theorem pay12_at (l : Fin 1024) (d : Fin 256) :
    k0_pay12 x w b (ix2 l d) = k0_pay9 x w b (ix2 l (0 : Fin 1)) * Ideal.ofBits .f32 0x00000000#32 := by
  unfold k0_pay12
  show broadcastTo S1024x256 (k0_pay9 x w b) _ (ix2 l d) * Ideal.ofBits .f32 0x00000000#32 = _
  rw [col_along_row]

theorem pay13_at (l : Fin 1024) (d : Fin 256) :
    k0_pay13 x w b (ix2 l d) = ∑ j : Fin 256, k0_pay10 x w b (ix2 l j) * k0_pay5 x w b (ix2 (⟨0 + j.val, by omega⟩ : Fin 1024) d) := by
  unfold k0_pay13
  exact ctx_at _ _ 0 (by omega) _ l d

end First

/-! ## The second and third chunks -/

section Middle

variable (v17 v18 v19 : FVec Ideal S1024x256 .bf16) (v28 v37 : FVec Ideal S1024x1 .f32) (v39 v41 : FVec Ideal S1024x256 .f32)

theorem pay14_at (l : Fin 1024) (j : Fin 256) :
    k0_pay14 v17 v18 (ix2 l j) = ∑ k : Fin 256, v17 (ix2 l k) * v18 (ix2 (⟨256 + j.val, by omega⟩ : Fin 1024) k) := by
  unfold k0_pay14
  exact score_at _ _ 256 (by omega) _ l j

theorem pay15_at (hb : Ideal.ofBits .f32 0xFF800000#32 = (⊥ : EReal)) (l : Fin 1024) (u : Fin 1) :
    k0_pay15 v17 v18 v28 (ix2 l u) = max (v28 (ix2 l u)) (rowMax fun j : Fin 256 => k0_pay14 v17 v18 (ix2 l j)) := by
  unfold k0_pay15
  exact congrArg (max (v28 (ix2 l u))) (row_max_at _ _ _ _ _ hb l u)

theorem pay16_at (l : Fin 1024) (u : Fin 1) :
    k0_pay16 v17 v18 v28 (ix2 l u) = Ideal.exp (v28 (ix2 l u) - k0_pay15 v17 v18 v28 (ix2 l u)) := rfl

theorem pay17_at (l : Fin 1024) (j : Fin 256) :
    k0_pay17 v17 v18 v28 (ix2 l j) = Ideal.exp (k0_pay14 v17 v18 (ix2 l j) - k0_pay15 v17 v18 v28 (ix2 l (0 : Fin 1))) := by
  unfold k0_pay17
  show Ideal.exp (k0_pay14 v17 v18 (ix2 l j) - broadcastTo S1024x256 (k0_pay15 v17 v18 v28) _ (ix2 l j)) = _
  rw [col_along_row]

theorem pay18_at (l : Fin 1024) (j : Fin 256) :
    k0_pay18 v17 v18 (ix2 l j) = ∑ k : Fin 256, v17 (ix2 l k) * v18 (ix2 (⟨512 + j.val, by omega⟩ : Fin 1024) k) := by
  unfold k0_pay18
  exact score_at _ _ 512 (by omega) _ l j

theorem pay19_at (hb : Ideal.ofBits .f32 0xFF800000#32 = (⊥ : EReal)) (l : Fin 1024) (u : Fin 1) :
    k0_pay19 v17 v18 v28 (ix2 l u) = max (k0_pay15 v17 v18 v28 (ix2 l u)) (rowMax fun j : Fin 256 => k0_pay18 v17 v18 (ix2 l j)) := by
  unfold k0_pay19
  exact congrArg (max (k0_pay15 v17 v18 v28 (ix2 l u))) (row_max_at _ _ _ _ _ hb l u)

theorem pay20_at (l : Fin 1024) (u : Fin 1) :
    k0_pay20 v17 v18 v28 (ix2 l u) = Ideal.exp (k0_pay15 v17 v18 v28 (ix2 l u) - k0_pay19 v17 v18 v28 (ix2 l u)) := rfl

theorem pay21_at (l : Fin 1024) (j : Fin 256) :
    k0_pay21 v17 v18 v28 (ix2 l j) = Ideal.exp (k0_pay18 v17 v18 (ix2 l j) - k0_pay19 v17 v18 v28 (ix2 l (0 : Fin 1))) := by
  unfold k0_pay21
  show Ideal.exp (k0_pay18 v17 v18 (ix2 l j) - broadcastTo S1024x256 (k0_pay19 v17 v18 v28) _ (ix2 l j)) = _
  rw [col_along_row]

/-- The denominator after the third chunk. -/
theorem pay22_at (l : Fin 1024) (u : Fin 1) :
    k0_pay22 v17 v18 v28 v37 (ix2 l u)
      = k0_pay20 v17 v18 v28 (ix2 l u) * (k0_pay16 v17 v18 v28 (ix2 l u) * v37 (ix2 l u) + ∑ j : Fin 256, k0_pay17 v17 v18 v28 (ix2 l j))
        + ∑ j : Fin 256, k0_pay21 v17 v18 v28 (ix2 l j) := by
  unfold k0_pay22
  exact congrArg₂ (· + ·)
    (congrArg (k0_pay20 v17 v18 v28 (ix2 l u) * ·)
      (congrArg (k0_pay16 v17 v18 v28 (ix2 l u) * v37 (ix2 l u) + ·) (row_sum_at _ _ _ _ _ l u)))
    (row_sum_at _ _ _ _ _ l u)

/-- The numerator after the third chunk. -/
theorem pay23_at (l : Fin 1024) (d : Fin 256) :
    k0_pay23 v17 v18 v19 v28 v39 v41 (ix2 l d)
      = k0_pay20 v17 v18 v28 (ix2 l (0 : Fin 1))
          * (k0_pay16 v17 v18 v28 (ix2 l (0 : Fin 1)) * (v39 (ix2 l d) + v41 (ix2 l d))
              + ∑ j : Fin 256, k0_pay17 v17 v18 v28 (ix2 l j) * v19 (ix2 (⟨256 + j.val, by omega⟩ : Fin 1024) d))
        + ∑ j : Fin 256, k0_pay21 v17 v18 v28 (ix2 l j) * v19 (ix2 (⟨512 + j.val, by omega⟩ : Fin 1024) d) := by
  unfold k0_pay23
  show broadcastTo S1024x256 (k0_pay20 v17 v18 v28) _ (ix2 l d)
        * (broadcastTo S1024x256 (k0_pay16 v17 v18 v28) _ (ix2 l d) * (v39 (ix2 l d) + v41 (ix2 l d))
            + matmul dot_S1024x256_S256x256_S1024x256_1_0_0_1_n_n none _ (extractStridedSlice S256x256 ![256, 0] v19 _) _ (ix2 l d))
      + matmul dot_S1024x256_S256x256_S1024x256_1_0_0_1_n_n none _ (extractStridedSlice S256x256 ![512, 0] v19 _) _ (ix2 l d) = _
  rw [col_along_row, col_along_row, ctx_at _ _ 256 (by omega), ctx_at _ _ 512 (by omega)]
  rfl

theorem pay24_at (j d : Fin 256) : k0_pay24 v19 (ix2 j d) = v19 (ix2 (⟨768 + j.val, by omega⟩ : Fin 1024) d) := by
  unfold k0_pay24
  exact row_slice_at v19 768 (by omega) _ j d

/-! ## The fourth chunk -/

theorem pay25_at (l : Fin 1024) (j : Fin 256) :
    k0_pay25 v17 v18 (ix2 l j) = ∑ k : Fin 256, v17 (ix2 l k) * v18 (ix2 (⟨768 + j.val, by omega⟩ : Fin 1024) k) := by
  unfold k0_pay25
  exact score_at _ _ 768 (by omega) _ l j

theorem pay26_at (hb : Ideal.ofBits .f32 0xFF800000#32 = (⊥ : EReal)) (l : Fin 1024) (u : Fin 1) :
    k0_pay26 v17 v18 v28 (ix2 l u) = max (k0_pay19 v17 v18 v28 (ix2 l u)) (rowMax fun j : Fin 256 => k0_pay25 v17 v18 (ix2 l j)) := by
  unfold k0_pay26
  exact congrArg (max (k0_pay19 v17 v18 v28 (ix2 l u))) (row_max_at _ _ _ _ _ hb l u)

theorem pay27_at (l : Fin 1024) (u : Fin 1) :
    k0_pay27 v17 v18 v28 (ix2 l u) = Ideal.exp (k0_pay19 v17 v18 v28 (ix2 l u) - k0_pay26 v17 v18 v28 (ix2 l u)) := rfl

theorem pay28_at (l : Fin 1024) (j : Fin 256) :
    k0_pay28 v17 v18 v28 (ix2 l j) = k0_pay26 v17 v18 v28 (ix2 l (0 : Fin 1)) := by
  unfold k0_pay28
  exact col_along_row _ _ l j

end Middle

/-! ## The quotient -/

/-- The stored entry: the numerator after the fourth chunk over the denominator after it. -/
theorem pay1_at (v77 : FVec Ideal S1024x1 .f32) (v82 : FVec Ideal S1024x256 .f32) (v84 : FVec Ideal S256x256 .bf16)
    (v85 : FVec Ideal S1024x256 .f32) (v90 : FVec Ideal S1024x1 .f32) (v91 : FVec Ideal S1024x256 .f32) (l : Fin 1024) (d : Fin 256) :
    k0_pay1 v77 v82 v84 v85 v90 v91 (ix3 (0 : Fin 1) l d)
      = Ideal.div (v90 (ix2 l (0 : Fin 1)) * v82 (ix2 l d) + ∑ j : Fin 256, Ideal.exp (v85 (ix2 l j) - v91 (ix2 l j)) * v84 (ix2 j d))
          (v90 (ix2 l (0 : Fin 1)) * v77 (ix2 l (0 : Fin 1)) + ∑ j : Fin 256, Ideal.exp (v85 (ix2 l j) - v91 (ix2 l j))) := by
  unfold k0_pay1
  rw [with_unit_at]
  show Ideal.div (broadcastTo S1024x256 v90 _ (ix2 l d) * v82 (ix2 l d)
        + matmul dot_S1024x256_S256x256_S1024x256_1_0_0_1_n_n none _ v84 _ (ix2 l d))
      (broadcastTo S1024x256 _ _ (ix2 l d)) = _
  rw [col_along_row, col_along_row, mm_ctx]
  exact congrArg₂ Ideal.div rfl (congrArg (v90 (ix2 l (0 : Fin 1)) * v77 (ix2 l (0 : Fin 1)) + ·) (row_sum_at _ _ _ _ _ l 0))

end Cert.KernelIdeal.Block

end
-- ==== Proof.Consts.lean ====
/-
  The float constants that the two arrangements of the attention spell, as the extended reals their
  bit patterns denote: the scale 1/16, the additive identity of the running maximum (-∞), the numerator 1
  and the radicand 256 of the reference's scale 1/√256, and that scale itself.
-/
import Idealize.ShloMosaic.PureOps.Ideal
import Idealize.ShloMosaic.PureOps.Ideal.Laws

noncomputable section

namespace Cert.Consts

open Idealize.ShloMosaic

/-- `0.0625`, the scale the kernel applies to the query, denotes the real `1/16`. -/
theorem ofBits_sixteenth : Ideal.ofBits .f32 0x3D800000#32 = ((1 / 16 : ℝ) : EReal) := by
  simp [Ideal.ofBits, Ideal.ieee, -EReal.coe_mul]; norm_num

/-- The pattern of `-∞`, from which the running maximum starts, denotes `⊥`. -/
theorem ofBits_neg_inf : Ideal.ofBits .f32 0xFF800000#32 = (⊥ : EReal) := by
  simp [Ideal.ofBits, Ideal.ieee]

/-- `1.0` denotes `1`. -/
theorem ofBits_one : Ideal.ofBits .f32 0x3F800000#32 = (1 : EReal) := by
  simp [Ideal.ofBits, Ideal.ieee, -EReal.coe_mul]; norm_num

/-- `256.0`, the head dimension under the reference's square root, denotes the real `256`. -/
theorem ofBits_256 : Ideal.ofBits .f32 0x43800000#32 = ((256 : ℝ) : EReal) := by
  simp [Ideal.ofBits, Ideal.ieee, -EReal.coe_mul]; norm_num

/-- The reference's scale `1 / √256` is the real `1/16`. -/
theorem ref_scale :
    Ideal.div (Ideal.ofBits .f32 0x3F800000#32) (Ideal.sqrt (Ideal.ofBits .f32 0x43800000#32))
      = ((1 / 16 : ℝ) : EReal) := by
  rw [ofBits_one, ofBits_256]
  have h16 : Real.sqrt 256 = 16 := by
    rw [show (256 : ℝ) = 16 ^ 2 by norm_num]
    exact Real.sqrt_sq (by norm_num)
  have hs : Ideal.sqrt ((256 : ℝ) : EReal) = ((16 : ℝ) : EReal) := by
    show (if (256 : ℝ) < 0 then (⊥ : EReal) else (Real.sqrt 256 : EReal)) = _
    rw [if_neg (by norm_num), h16]
  rw [hs]
  unfold Ideal.div
  have hne : ((16 : ℝ) : EReal) ≠ 0 := by
    intro h
    have := EReal.coe_eq_zero.mp h
    norm_num at this
  rw [if_neg hne]
  rw [one_mul, ← EReal.coe_inv]
  congr 1
  norm_num

end Cert.Consts

end
-- ==== Proof.BlockAttend.lean ====
/-
  The stored block is the chunked attention of the block's projected tokens: reading the body's value at entry
  `(l, d)`, the running maximum, denominator and numerator after each of the four key chunks are the four steps
  of `Cert.Attention.fold4` on the chunks' scores (scaled query · key) and values, and the entry is their quotient.
-/
import proofs.«152565_j18279380811977_2_alg».proof.Proof.BlockValue
import proofs.«152565_j18279380811977_2_alg».proof.Proof.IdealFrame
import proofs.«152565_j18279380811977_2_alg».proof.Proof.Consts

noncomputable section

namespace Cert.KernelIdeal.Block

open Idealize.ShloMosaic Idealize.ShloMosaic.ValueIdx Cert.KernelIdeal Cert.KernelIdeal.Gen Cert.Attention

variable (x : Vec Ideal S1x256x1024 .f32) (w : Vec Ideal S256x768 .f32) (b : Vec Ideal S1x768 .f32)

/-- Query `l` (scaled by the stored factor 1/16) against key `j` of chunk `c`. -/
def sK (l : Fin 1024) (c : Fin 4) (j : Fin 256) : EReal :=
  ∑ k : Fin 256, (qkv x w b l (⟨0 + k.val, by omega⟩ : Fin 768) * Ideal.ofBits .f32 0x3D800000#32)
    * qkv x w b (key c j) (⟨256 + k.val, by omega⟩ : Fin 768)

/-- Channel `d` of value `j` of chunk `c`. -/
def vK (d : Fin 256) (c : Fin 4) (j : Fin 256) : EReal := qkv x w b (key c j) (⟨512 + d.val, by omega⟩ : Fin 768)

/-- The running state before any chunk, as the body spells it. -/
def st0 : EReal × EReal × EReal := (Ideal.ofBits .f32 0xFF800000#32, Ideal.ofBits .f32 0x00000000#32, Ideal.ofBits .f32 0x00000000#32)
def st1 (l : Fin 1024) (d : Fin 256) := step st0 (sK x w b l 0) (vK x w b d 0)
def st2 (l : Fin 1024) (d : Fin 256) := step (st1 x w b l d) (sK x w b l 1) (vK x w b d 1)
def st3 (l : Fin 1024) (d : Fin 256) := step (st2 x w b l d) (sK x w b l 2) (vK x w b d 2)
def st4 (l : Fin 1024) (d : Fin 256) := step (st3 x w b l d) (sK x w b l 3) (vK x w b d 3)

/-! ## Scores and values of the four chunks -/

theorem score0 (l : Fin 1024) (j : Fin 256) : k0_pay7 x w b (ix2 l j) = sK x w b l 0 j := by
  rw [pay7_at]; unfold sK
  exact Finset.sum_congr rfl fun k _ => by rw [pay3_at, pay4_at]; rfl

theorem score1 (l : Fin 1024) (j : Fin 256) : k0_pay14 (k0_pay3 x w b) (k0_pay4 x w b) (ix2 l j) = sK x w b l 1 j := by
  rw [pay14_at]; unfold sK
  exact Finset.sum_congr rfl fun k _ => by rw [pay3_at, pay4_at]; rfl

theorem score2 (l : Fin 1024) (j : Fin 256) : k0_pay18 (k0_pay3 x w b) (k0_pay4 x w b) (ix2 l j) = sK x w b l 2 j := by
  rw [pay18_at]; unfold sK
  exact Finset.sum_congr rfl fun k _ => by rw [pay3_at, pay4_at]; rfl

theorem score3 (l : Fin 1024) (j : Fin 256) : k0_pay25 (k0_pay3 x w b) (k0_pay4 x w b) (ix2 l j) = sK x w b l 3 j := by
  rw [pay25_at]; unfold sK
  exact Finset.sum_congr rfl fun k _ => by rw [pay3_at, pay4_at]; rfl

theorem value0 (d j : Fin 256) : k0_pay5 x w b (ix2 (⟨0 + j.val, by omega⟩ : Fin 1024) d) = vK x w b d 0 j := by
  rw [pay5_at]; rfl
theorem value1 (d j : Fin 256) : k0_pay5 x w b (ix2 (⟨256 + j.val, by omega⟩ : Fin 1024) d) = vK x w b d 1 j := by
  rw [pay5_at]; rfl
theorem value2 (d j : Fin 256) : k0_pay5 x w b (ix2 (⟨512 + j.val, by omega⟩ : Fin 1024) d) = vK x w b d 2 j := by
  rw [pay5_at]; rfl
theorem value3 (d j : Fin 256) : k0_pay5 x w b (ix2 (⟨768 + j.val, by omega⟩ : Fin 1024) d) = vK x w b d 3 j := by
  rw [pay5_at]; rfl

/-! ## The running state after each chunk -/

variable (hb : Ideal.ofBits .f32 0xFF800000#32 = (⊥ : EReal))
include hb

theorem max1 (l : Fin 1024) (d : Fin 256) (u : Fin 1) : k0_pay8 x w b (ix2 l u) = (st1 x w b l d).1 := by
  rw [pay8_at x w b hb]
  simp only [score0]
  rfl

theorem den1 (l : Fin 1024) (d : Fin 256) (u : Fin 1) : k0_pay11 x w b (ix2 l u) = (st1 x w b l d).2.1 := by
  rw [pay11_at, pay9_at]
  simp only [pay10_at, score0, max1 x w b hb l d]
  rfl

theorem num1 (l : Fin 1024) (d : Fin 256) : k0_pay12 x w b (ix2 l d) + k0_pay13 x w b (ix2 l d) = (st1 x w b l d).2.2 := by
  rw [pay12_at, pay13_at, pay9_at]
  simp only [pay10_at, score0, value0, max1 x w b hb l d]
  rfl

theorem max2 (l : Fin 1024) (d : Fin 256) (u : Fin 1) :
    k0_pay15 (k0_pay3 x w b) (k0_pay4 x w b) (k0_pay8 x w b) (ix2 l u) = (st2 x w b l d).1 := by
  rw [pay15_at _ _ _ hb]
  simp only [score1, max1 x w b hb l d]
  rfl

theorem max3 (l : Fin 1024) (d : Fin 256) (u : Fin 1) :
    k0_pay19 (k0_pay3 x w b) (k0_pay4 x w b) (k0_pay8 x w b) (ix2 l u) = (st3 x w b l d).1 := by
  rw [pay19_at _ _ _ hb]
  simp only [score2, max2 x w b hb l d]
  rfl

theorem max4 (l : Fin 1024) (d : Fin 256) (u : Fin 1) :
    k0_pay26 (k0_pay3 x w b) (k0_pay4 x w b) (k0_pay8 x w b) (ix2 l u) = (st4 x w b l d).1 := by
  rw [pay26_at _ _ _ hb]
  simp only [score3, max3 x w b hb l d]
  rfl

theorem den3 (l : Fin 1024) (d : Fin 256) (u : Fin 1) :
    k0_pay22 (k0_pay3 x w b) (k0_pay4 x w b) (k0_pay8 x w b) (k0_pay11 x w b) (ix2 l u) = (st3 x w b l d).2.1 := by
  rw [pay22_at, pay20_at, pay16_at]
  simp only [pay17_at, pay21_at, score1, score2, max1 x w b hb l d, max2 x w b hb l d, max3 x w b hb l d, den1 x w b hb l d]
  rfl

theorem num3 (l : Fin 1024) (d : Fin 256) :
    k0_pay23 (k0_pay3 x w b) (k0_pay4 x w b) (k0_pay5 x w b) (k0_pay8 x w b) (k0_pay12 x w b) (k0_pay13 x w b) (ix2 l d)
      = (st3 x w b l d).2.2 := by
  rw [pay23_at, pay20_at, pay16_at, num1 x w b hb l d]
  simp only [pay17_at, pay21_at, score1, score2, value1, value2, max1 x w b hb l d, max2 x w b hb l d, max3 x w b hb l d]
  rfl

/-- The stored entry is the quotient after the fourth step. -/
theorem attendValue_at (l : Fin 1024) (d : Fin 256) :
    Cert.KernelIdeal.Hand.attendValue x w b (ix3 (0 : Fin 1) l d) = Ideal.div (st4 x w b l d).2.2 (st4 x w b l d).2.1 := by
  unfold Cert.KernelIdeal.Hand.attendValue
  rw [pay1_at, pay27_at, den3 x w b hb l d, num3 x w b hb l d]
  simp only [pay28_at, pay24_at, score3, value3, max3 x w b hb l d, max4 x w b hb l d]
  rfl

omit hb in
/-- With the stored words read (`-∞` as `⊥`, the zero word as 0), the four steps are `fold4`. -/
theorem st4_eq_fold4 (hb : Ideal.ofBits .f32 0xFF800000#32 = (⊥ : EReal)) (l : Fin 1024) (d : Fin 256) :
    st4 x w b l d = fold4 (sK x w b l) (vK x w b d) := by
  unfold st4 st3 st2 st1 st0 fold4
  rw [hb, Ideal.ofBits_zero_f32]

/-- The stored entry `(l, d)` of the block: the chunked attention of its projected tokens. -/
theorem attendValue_eq_onlineDot (l : Fin 1024) (d : Fin 256) :
    Cert.KernelIdeal.Hand.attendValue x w b (ix3 (0 : Fin 1) l d) = onlineDot (sK x w b l) (vK x w b d) := by
  rw [attendValue_at x w b hb, st4_eq_fold4 x w b hb]
  rfl

end Cert.KernelIdeal.Block

end
-- ==== Proof.OutputCover.lean ====
/-
  The output window's blocks tile the output array.

  The output array has shape [8, 1024, 2048]: batch entry, query token, and the eight heads' 256 channels side by
  side. The grid is 8 × 8 and point `t` has coordinates (batch, head) = (t / 8, t % 8). Its block, of shape
  [1, 1024, 256], sits at block index (t / 8, 0, t % 8): batch entry `t / 8`, every token, the channels
  `(t % 8) · 256 ..< (t % 8) · 256 + 256`. Every index (b, l, n) of the array lies in exactly the block of the
  point (b, n / 256), and every point writes its block back; so the blocks cover the array.
-/
import proofs.«152565_j18279380811977_2_alg».proof.Proof.IdealFrame
import Idealize.ShloMosaic.Lib.Pipeline.Value
import Idealize.ShloMosaic.Lib.ValueIdx

noncomputable section

namespace Cert.KernelIdeal.Cover

open Cert.KernelIdeal Cert.KernelIdeal.Gen Cert.KernelIdeal.Hand Idealize.ShloMosaic ValueIdx

/-- The output's index map, decided over the 64 grid points: point `t` writes the block of batch entry `t / 8`
    and head `t % 8`. -/
theorem out_index : ∀ t : Fin cfg0.N, win0_3.index t (0 : Fin 3) = t.val / 8
    ∧ win0_3.index t (1 : Fin 3) = 0 ∧ win0_3.index t (2 : Fin 3) = t.val % 8 :=
  (by decide +kernel : ∀ t : Fin grid0.N, _)

/-- Where entry `(0, l, d)` of point `t`'s block sits in the array: batch entry `t / 8`, token `l`, channel `d` of
    head `t % 8`. -/
theorem out_emb (t : Fin cfg0.N) (l : Fin 1024) (d : Fin 256) :
    ((cfg0.win 3).blk t).view.emb (ix3 (0 : Fin 1) l d)
      = ix3 (⟨t.val / 8, by have ht : t.val < 64 := t.isLt; omega⟩ : Fin 8) l
          (⟨t.val % 8 * 256 + d.val, by have hd := d.isLt; omega⟩ : Fin 2048) := by
  obtain ⟨e0, e1, e2⟩ := out_index t
  funext a; apply Fin.ext
  match a with
  | ⟨0, _⟩ => show win0_3.index t (0 : Fin 3) * 1 + 1 * 0 = t.val / 8; omega
  | ⟨1, _⟩ => show win0_3.index t (1 : Fin 3) * 1024 + 1 * l.val = l.val; omega
  | ⟨2, _⟩ => show win0_3.index t (2 : Fin 3) * 256 + 1 * d.val = t.val % 8 * 256 + d.val; omega

/-- An index of the array is in point `t`'s block iff each coordinate is in the block's range on its axis. -/
theorem out_mem (t : Fin cfg0.N) (i : S8x1024x2048.Idx) :
    i ∈ ((cfg0.win 3).blk t).view.set ↔ ∀ a : Fin 3, win0_3.index t a * S1x1024x256.size a ≤ (i a).val
      ∧ (i a).val < win0_3.index t a * S1x1024x256.size a + S1x1024x256.size a := by
  show i ∈ ((View.whole main_v17).slice (win0_3.rect t)).set ↔ _
  rw [View.set_slice_whole, Rect.mem_set_unit]
  exact Iff.rfl

/-- Every index `(b, l, n)` of the array is in the block of a point that writes back: the point `(b, n / 256)`. -/
theorem out_cover : ∀ i : S8x1024x2048.Idx, ∃ t : Fin cfg0.N, (cfg0.win 3).flush t = true
    ∧ i ∈ ((cfg0.win 3).blk t).view.set := by
  intro i
  have hi0 : (i 0).val < 8 := (i 0).isLt
  have hi1 : (i 1).val < 1024 := (i 1).isLt
  have hi2 : (i 2).val < 2048 := (i 2).isLt
  have hlt : (i 0).val * 8 + (i 2).val / 256 < 64 := by omega
  obtain ⟨e0, e1, e2⟩ := out_index ⟨(i 0).val * 8 + (i 2).val / 256, hlt⟩
  refine ⟨⟨(i 0).val * 8 + (i 2).val / 256, hlt⟩, flush0_3 _, ?_⟩
  rw [out_mem]
  intro a
  match a with
  | ⟨0, _⟩ =>
    show win0_3.index ⟨(i 0).val * 8 + (i 2).val / 256, hlt⟩ (0 : Fin 3) * 1 ≤ (i 0).val
      ∧ (i 0).val < win0_3.index ⟨(i 0).val * 8 + (i 2).val / 256, hlt⟩ (0 : Fin 3) * 1 + 1
    rw [e0]; show ((i 0).val * 8 + (i 2).val / 256) / 8 * 1 ≤ (i 0).val ∧ (i 0).val < ((i 0).val * 8 + (i 2).val / 256) / 8 * 1 + 1
    omega
  | ⟨1, _⟩ =>
    show win0_3.index ⟨(i 0).val * 8 + (i 2).val / 256, hlt⟩ (1 : Fin 3) * 1024 ≤ (i 1).val
      ∧ (i 1).val < win0_3.index ⟨(i 0).val * 8 + (i 2).val / 256, hlt⟩ (1 : Fin 3) * 1024 + 1024
    rw [e1]; omega
  | ⟨2, _⟩ =>
    show win0_3.index ⟨(i 0).val * 8 + (i 2).val / 256, hlt⟩ (2 : Fin 3) * 256 ≤ (i 2).val
      ∧ (i 2).val < win0_3.index ⟨(i 0).val * 8 + (i 2).val / 256, hlt⟩ (2 : Fin 3) * 256 + 256
    rw [e2]; show ((i 0).val * 8 + (i 2).val / 256) % 8 * 256 ≤ (i 2).val ∧ (i 2).val < ((i 0).val * 8 + (i 2).val / 256) % 8 * 256 + 256
    omega

end Cert.KernelIdeal.Cover

end
-- ==== Proof.KernelArray.lean ====
/-
  The kernel's output array as one function of the seven argument arrays.

  The grid's point `t` is (batch entry, head) = (t / 8, t % 8).  Its three input blocks are that batch entry's
  tokens and that head's 768 stacked weight columns and bias entries, so the block's 768 projected columns are the
  head's query, key and value projections of the batch entry's tokens, and the block it stores is the chunked
  attention `kerOut` of that batch entry and head.  The block is written back to batch entry `t / 8`, every token,
  channels `(t % 8) · 256 ..< (t % 8) · 256 + 256` of the output array: so every entry of the stored block is the
  output array's function `kerOut` at the index (b, l, n) where the block puts it, head `n / 256`, channel `n % 256`.
-/
import proofs.«152565_j18279380811977_2_alg».proof.Proof.WindowArrays
import proofs.«152565_j18279380811977_2_alg».proof.Proof.BlockAttend
import proofs.«152565_j18279380811977_2_alg».proof.Proof.OutputCover

set_option maxRecDepth 16384

noncomputable section

namespace Cert.KernelIdeal.Whole

open Cert.KernelIdeal Cert.KernelIdeal.Gen Cert.KernelIdeal.Hand Cert.KernelIdeal.Block Cert.KernelIdeal.Windows
open Cert.KernelIdeal.Cover Cert.Attention
open Idealize.ShloMosaic Idealize.ShloMosaic.ValueIdx Idealize.ShloMosaic.TcCoe Idealize.SL.Sem

/-! ## The whole array -/

section Array

variable (X : SX.Idx → EReal) (Wq Wk Wv : SW.Idx → EReal) (bq bk bv : SB.Idx → EReal)

/-- The output at batch entry `b`, query token `l` and column `n` of the 2048: head `n / 256`, channel `n % 256`. -/
def outAt (b : Fin 8) (l : Fin 1024) (n : Fin 2048) : EReal :=
  kerOut X Wq Wk Wv bq bk bv b l (⟨n.val / 256, by omega⟩ : Fin 8) (⟨n.val % 256, by omega⟩ : Fin 256)

/-- The output array, index by index. -/
def outArray : SO.Idx → EReal := fun i => outAt X Wq Wk Wv bq bk bv (i 0) (i 1) (i 2)

/-- At column `h · 256 + d` the output is head `h`'s channel `d`. -/
theorem outAt_col (b : Fin 8) (l : Fin 1024) (h : Fin 8) (d : Fin 256) :
    outAt X Wq Wk Wv bq bk bv b l (col h d) = kerOut X Wq Wk Wv bq bk bv b l h d := by
  unfold outAt
  exact congrArg₂ (kerOut X Wq Wk Wv bq bk bv b l)
    (Fin.ext (by show (h.val * 256 + d.val) / 256 = h.val; omega))
    (Fin.ext (by show (h.val * 256 + d.val) % 256 = d.val; omega))

end Array

/-! ## One block: a batch entry's tokens against a head's stacked columns -/

section Block

variable {x : Vec Ideal S1x256x1024 .f32} {w : Vec Ideal S256x768 .f32} {b : Vec Ideal S1x768 .f32}
variable {X : SX.Idx → EReal} {Wq Wk Wv : SW.Idx → EReal} {bq bk bv : SB.Idx → EReal} {bb hh : Fin 8}

/-- The three blocks `x w b` are batch entry `bb`'s tokens and head `hh`'s query | key | value columns of the
    weights and of the biases. -/
structure IsBlockOf (x : Vec Ideal S1x256x1024 .f32) (w : Vec Ideal S256x768 .f32) (b : Vec Ideal S1x768 .f32)
    (X : SX.Idx → EReal) (Wq Wk Wv : SW.Idx → EReal) (bq bk bv : SB.Idx → EReal) (bb hh : Fin 8) : Prop where
  tokens : ∀ (ch : Fin 256) (l : Fin 1024), x (ix3 (0 : Fin 1) ch l) = tok X bb l ch
  wQ : ∀ (ch d : Fin 256), w (ix2 ch (⟨0 + d.val, by omega⟩ : Fin 768)) = Wq (ix2 ch (col hh d))
  wK : ∀ (ch d : Fin 256), w (ix2 ch (⟨256 + d.val, by omega⟩ : Fin 768)) = Wk (ix2 ch (col hh d))
  wV : ∀ (ch d : Fin 256), w (ix2 ch (⟨512 + d.val, by omega⟩ : Fin 768)) = Wv (ix2 ch (col hh d))
  bQ : ∀ (d : Fin 256), b (ix2 (0 : Fin 1) (⟨0 + d.val, by omega⟩ : Fin 768)) = bq (ix1 (col hh d))
  bK : ∀ (d : Fin 256), b (ix2 (0 : Fin 1) (⟨256 + d.val, by omega⟩ : Fin 768)) = bk (ix1 (col hh d))
  bV : ∀ (d : Fin 256), b (ix2 (0 : Fin 1) (⟨512 + d.val, by omega⟩ : Fin 768)) = bv (ix1 (col hh d))

variable (h : IsBlockOf x w b X Wq Wk Wv bq bk bv bb hh)
include h

/-- The first 256 projected columns are the head's query projection. -/
theorem qkv_query (l : Fin 1024) (k : Fin 256) :
    qkv x w b l (⟨0 + k.val, by omega⟩ : Fin 768) = proj X Wq bq bb hh l k := by
  unfold qkv proj
  exact congrArg₂ (· + ·) (Finset.sum_congr rfl fun ch _ => congrArg₂ (· * ·) (h.tokens ch l) (h.wQ ch k)) (h.bQ k)

/-- The next 256 are its key projection. -/
theorem qkv_key (l : Fin 1024) (k : Fin 256) :
    qkv x w b l (⟨256 + k.val, by omega⟩ : Fin 768) = proj X Wk bk bb hh l k := by
  unfold qkv proj
  exact congrArg₂ (· + ·) (Finset.sum_congr rfl fun ch _ => congrArg₂ (· * ·) (h.tokens ch l) (h.wK ch k)) (h.bK k)

/-- The last 256 are its value projection. -/
theorem qkv_value (l : Fin 1024) (k : Fin 256) :
    qkv x w b l (⟨512 + k.val, by omega⟩ : Fin 768) = proj X Wv bv bb hh l k := by
  unfold qkv proj
  exact congrArg₂ (· + ·) (Finset.sum_congr rfl fun ch _ => congrArg₂ (· * ·) (h.tokens ch l) (h.wV ch k)) (h.bV k)

/-- The block's scores are the head's: the query scaled by 1/16 against the key. -/
theorem score_eq (l : Fin 1024) (cc : Fin 4) (j : Fin 256) :
    sK x w b l cc j = scoreKer X Wq Wk bq bk bb hh l cc j := by
  unfold sK scoreKer
  exact Finset.sum_congr rfl fun k _ =>
    congrArg₂ (· * ·) (congrArg₂ (· * ·) (qkv_query h l k) Cert.Consts.ofBits_sixteenth) (qkv_key h (key cc j) k)

/-- The block's values are the head's. -/
theorem value_eq (d : Fin 256) (cc : Fin 4) (j : Fin 256) :
    vK x w b d cc j = proj X Wv bv bb hh (key cc j) d := by
  unfold vK
  exact qkv_value h (key cc j) d

/-- The stored entry `(l, d)` of the block is the chunked attention of batch entry `bb` and head `hh`. -/
theorem attendValue_eq_kerOut (l : Fin 1024) (d : Fin 256) :
    attendValue x w b (ix3 (0 : Fin 1) l d) = kerOut X Wq Wk Wv bq bk bv bb l hh d := by
  rw [attendValue_eq_onlineDot x w b Cert.Consts.ofBits_neg_inf l d]
  unfold kerOut
  exact congrArg₂ onlineDot (funext fun cc => funext fun j => score_eq h l cc j)
    (funext fun cc => funext fun j => value_eq h d cc j)

end Block

/-! ## The blocks of a grid point -/

variable (m : (ℓ : Loc nD τ sig) → Buf (Elt Ideal) ℓ) (c : Dev nD)

/-- The batch entry of a grid point. -/
def batchOf (t : Fin cfg0.N) : Fin 8 := ⟨t.val / 8, by have := t_lt t; omega⟩

/-- The head of a grid point. -/
def headOf (t : Fin cfg0.N) : Fin 8 := ⟨t.val % 8, by omega⟩

/-- The three input blocks at point `t` are batch entry `t / 8`'s tokens and head `t % 8`'s columns, of the argument arrays. -/
theorem blocks_at (t : Fin cfg0.N) :
    IsBlockOf (iblk m c 0 t) (iblk m c 1 t) (iblk m c 2 t)
      (m ((c : Thread nD τ).loc main_arg0))
      (m ((c : Thread nD τ).loc main_arg1)) (m ((c : Thread nD τ).loc main_arg3)) (m ((c : Thread nD τ).loc main_arg5))
      (m ((c : Thread nD τ).loc main_arg2)) (m ((c : Thread nD τ).loc main_arg4)) (m ((c : Thread nD τ).loc main_arg6))
      (batchOf t) (headOf t) where
  tokens ch l := (xblk_at m c t ch l).trans (v0_at m c (batchOf t) ch l)
  wQ ch d := (wblk_at m c t ch _).trans ((congrArg (fun n => V m c main_v8 (ix2 ch n))
      (Fin.ext (by show t.val % 8 * 768 + (0 + d.val) = t.val % 8 * 768 + d.val; omega))).trans (v8_at_q m c ch (headOf t) d))
  wK ch d := (wblk_at m c t ch _).trans ((congrArg (fun n => V m c main_v8 (ix2 ch n))
      (Fin.ext (by show t.val % 8 * 768 + (256 + d.val) = t.val % 8 * 768 + 256 + d.val; omega))).trans (v8_at_k m c ch (headOf t) d))
  wV ch d := (wblk_at m c t ch _).trans ((congrArg (fun n => V m c main_v8 (ix2 ch n))
      (Fin.ext (by show t.val % 8 * 768 + (512 + d.val) = t.val % 8 * 768 + 512 + d.val; omega))).trans (v8_at_v m c ch (headOf t) d))
  bQ d := (bblk_at m c t _).trans ((congrArg (fun n => V m c main_v16 (ix2 (0 : Fin 1) n))
      (Fin.ext (by show t.val % 8 * 768 + (0 + d.val) = t.val % 8 * 768 + d.val; omega))).trans (v16_at_q m c (headOf t) d))
  bK d := (bblk_at m c t _).trans ((congrArg (fun n => V m c main_v16 (ix2 (0 : Fin 1) n))
      (Fin.ext (by show t.val % 8 * 768 + (256 + d.val) = t.val % 8 * 768 + 256 + d.val; omega))).trans (v16_at_k m c (headOf t) d))
  bV d := (bblk_at m c t _).trans ((congrArg (fun n => V m c main_v16 (ix2 (0 : Fin 1) n))
      (Fin.ext (by show t.val % 8 * 768 + (512 + d.val) = t.val % 8 * 768 + 512 + d.val; omega))).trans (v16_at_v m c (headOf t) d))

/-! ## What a point writes back, and the array after the run -/

theorem zero3 : (![0, 0, 0] : Fin 3 → Nat) = fun _ => 0 := funext fun a => by fin_cases a <;> rfl
theorem zero2 : (![0, 0] : Fin 2 → Nat) = fun _ => 0 := funext fun a => by fin_cases a <;> rfl

/-- The argument arrays' function that the output array ends holding. -/
abbrev outOf : SO.Idx → EReal :=
  outArray (m ((c : Thread nD τ).loc main_arg0))
    (m ((c : Thread nD τ).loc main_arg1)) (m ((c : Thread nD τ).loc main_arg3)) (m ((c : Thread nD τ).loc main_arg5))
    (m ((c : Thread nD τ).loc main_arg2)) (m ((c : Thread nD τ).loc main_arg4)) (m ((c : Thread nD τ).loc main_arg6))

/-- Entry `y` of the block stored at point `t` is the output array's function where the block puts `y`. -/
theorem stored_at (t : Fin cfg0.N) (y : S1x1024x256.Idx) :
    attendValue (iblk m c 0 t) (iblk m c 1 t) (iblk m c 2 t) y = outOf m c (((cfg0.win 3).blk t).view.emb y) := by
  obtain ⟨u, l, d, rfl⟩ : ∃ (u : Fin 1) (l : Fin 1024) (d : Fin 256), y = ix3 u l d := ⟨y 0, y 1, y 2, eq_ix3 y⟩
  obtain rfl : u = 0 := Subsingleton.elim _ _
  rw [out_emb t l d]
  exact (attendValue_eq_kerOut (blocks_at m c t) l d).trans (outAt_col _ _ _ _ _ _ _ (batchOf t) l (headOf t) d).symm

/-- The body's one store covers the output block and each load reads its input block whole, so the block after the
    body is the value computed from the three input blocks. -/
theorem attendBlock_eq (x0 : Vec Ideal S1x256x1024 .f32) (x1 : Vec Ideal S256x768 .f32) (x2 : Vec Ideal S1x768 .f32) :
    (attendBlock x0 x1 x2 : S1x1024x256.Idx → EReal) = attendValue x0 x1 x2 := by
  unfold attendBlock
  rw [View.canon_unit_zero zero3, View.ld_unit_zero (S := S1x256x1024) zero3, View.ld_unit_zero (S := S256x768) zero2,
    View.ld_unit_zero (S := S1x768) zero2]

end Cert.KernelIdeal.Whole

end
-- ==== Proof.KernelRun.lean ====
/-
  The kernel's run, read: the 64 blocks tile the [8, 1024, 2048] output array and each point writes back the
  chunked attention of its batch entry and head, so after the run the array holds `kerOut` of the seven argument
  arrays at every index, and the argument arrays are as launched.
-/
import proofs.«152565_j18279380811977_2_alg».proof.Proof.KernelArray

set_option maxRecDepth 16384

noncomputable section

namespace Cert.KernelIdeal.Whole

open Cert.KernelIdeal Cert.KernelIdeal.Gen Cert.KernelIdeal.Hand Cert.KernelIdeal.Block Cert.KernelIdeal.Windows
open Cert.KernelIdeal.Cover Cert.Attention
open Idealize.ShloMosaic Idealize.ShloMosaic.ValueIdx Idealize.ShloMosaic.TcCoe Idealize.SL.Sem

variable (m : (ℓ : Loc nD τ sig) → Buf (Elt Ideal) ℓ) (c : Dev nD)

/-- What point `t` writes back is block `t` of the output array's function. -/
theorem flushed_eq (t : Fin cfg0.N) :
    (dats m 0 c).flushed 3 t = ((cfg0.win 3).blk t).view.read (Elt Ideal) (outOf m c) := by
  show (cfg0.win 3).cut (grid0.coords t) ((dats m 0 c).after 3 t) = _
  rw [after_o]
  funext y
  show attendBlock (iblk m c 0 t) (iblk m c 1 t) (iblk m c 2 t) y = outOf m c (((cfg0.win 3).blk t).view.emb y)
  exact (congrFun (attendBlock_eq (iblk m c 0 t) (iblk m c 1 t) (iblk m c 2 t)) y).trans (stored_at m c t y)

/-- The output array after the run. -/
theorem final : (dats m 0 c).arrAt 3 cfg0.N = outOf m c :=
  (dats m 0 c).arrAt_eq_of_cover 3 (outOf m c) (fun t _ => flushed_eq m c t) out_cover

/-- Every weakly fair execution terminates with the output array at `kerOut` of the argument arrays, index by
    index, and the argument arrays as launched. -/
theorem run (ρ : Dev nD → PrngReg) :
    θ_run defs (onTc (τ := τ) (main (F := Ideal))) ⟨m, fun _ => 0, ρ⟩ fun r => ∀ c : Dev nD,
      r.2.mem ((c.tc : Thread nD τ).loc main_v17) = outOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).1 3).trans (final m c),
     ((h c).2 main_arg0 (Pipeline.mem_restRefs_of main_arg0 (by decide) (by decide))).trans (V_main_arg0 m c),
     ((h c).2 main_arg1 (Pipeline.mem_restRefs_of main_arg1 (by decide) (by decide))).trans (V_main_arg1 m c),
     ((h c).2 main_arg2 (Pipeline.mem_restRefs_of main_arg2 (by decide) (by decide))).trans (V_main_arg2 m c),
     ((h c).2 main_arg3 (Pipeline.mem_restRefs_of main_arg3 (by decide) (by decide))).trans (V_main_arg3 m c),
     ((h c).2 main_arg4 (Pipeline.mem_restRefs_of main_arg4 (by decide) (by decide))).trans (V_main_arg4 m c),
     ((h c).2 main_arg5 (Pipeline.mem_restRefs_of main_arg5 (by decide) (by decide))).trans (V_main_arg5 m c),
     ((h c).2 main_arg6 (Pipeline.mem_restRefs_of main_arg6 (by decide) (by decide))).trans (V_main_arg6 m c)⟩) (run_main m ρ)

end Cert.KernelIdeal.Whole

end
-- ==== Proof.RefValue.lean ====
/-
  The reference program read index by index.

  The reference flattens the image into 1024 tokens of 256 channels, projects them by three linear maps into
  eight heads of 256 channels, takes all scores of a query against the 1024 keys of its head, scales them by
  1/√256, subtracts the row's maximum, exponentiates, divides by the row's sum and takes the weighted sum of the
  values.  Read at the output entry (b, l, (h, d)) its stages are, one after the other, the definitions of
  `Cert.Attention`: `tok`, `proj`, `scoreRef`, `rowMax`, and at the end `softmaxDot`, that is `refOut`.
-/
import proofs.«152565_j18279380811977_2_alg».proof.Proof.Attention
import proofs.«152565_j18279380811977_2_alg».proof.Proof.Consts
import proofs.«152565_j18279380811977_2_alg».proof.Proof.Gen.ReferenceIdeal.Read

noncomputable section

namespace Cert.ReferenceIdeal.RefValue

open Idealize.ShloMosaic Idealize.ShloMosaic.ValueIdx Cert.ReferenceIdeal Cert.ReferenceIdeal.Read Cert.Attention

/-! ## The tokens and the three projections -/

/-- Entry (b, l, c) of the token matrix is channel `c` of pixel (l / 32, l % 32): the image's last two axes
    flattened row by row, then the channel axis moved last. -/
theorem tok_eq (x0 : (⟨S8x256x32x32, .f32⟩ : BufTy).Contents (Elt Ideal)) (b : Fin 8) (l : Fin 1024) (c : Fin 256) :
    val_main_v3 (F := Ideal) x0 (ix3 b l c) = tok x0 b l c := by
  rw [val_main_v3_apply, val_main_v2_apply]
  unfold tok
  refine congrArg x0 (funext fun a => Fin.ext ?_)
  have hb := b.isLt
  have hl := l.isLt
  have hc := c.isLt
  match a with
  | ⟨0, _⟩ => show ((b.val * 256 + c.val) * 1024 + l.val) / 262144 = b.val; omega
  | ⟨1, _⟩ => show ((b.val * 256 + c.val) * 1024 + l.val) / 1024 % 256 = c.val; omega
  | ⟨2, _⟩ => show ((b.val * 256 + c.val) * 1024 + l.val) / 32 % 32 = l.val / 32; omega
  | ⟨3, _⟩ => show ((b.val * 256 + c.val) * 1024 + l.val) % 32 = l.val % 32; omega

/-- A linear map of the tokens plus its bias, at token `l` and output column `n`. -/
theorem lin_eq (x0 : (⟨S8x256x32x32, .f32⟩ : BufTy).Contents (Elt Ideal)) (W : (⟨S256x2048, .f32⟩ : BufTy).Contents (Elt Ideal))
    (bias : (⟨S2048, .f32⟩ : BufTy).Contents (Elt Ideal)) (b : Fin 8) (l : Fin 1024) (n : Fin 2048) :
    val_main_v7 (F := Ideal) x0 W bias (ix3 b l n) = (∑ c : Fin 256, tok x0 b l c * W (ix2 c n)) + bias (ix1 n) := by
  rw [val_main_v7_apply, val_main_v4_apply, val_main_v6_apply, val_main_v5_apply, Ideal.addf_def]
  have e3 : idx_main_v5 (idx_main_v6 (ix3 b l n)) = ix1 n :=
    funext fun a => Fin.ext (by match a with | ⟨0, _⟩ => rfl)
  rw [e3]
  refine congrArg (· + bias (ix1 n)) (Finset.sum_congr rfl fun k _ => ?_)
  have e1 : lidx_main_v4 (ix3 b l n) k = ix3 b l k :=
    funext fun a => Fin.ext (by match a with | ⟨0, _⟩ => rfl | ⟨1, _⟩ => rfl | ⟨2, _⟩ => rfl)
  have e2 : ridx_main_v4 (ix3 b l n) k = ix2 k n :=
    funext fun a => Fin.ext (by match a with | ⟨0, _⟩ => rfl | ⟨1, _⟩ => rfl)
  rw [e1, e2, tok_eq]

/-- The output column `n = h·256 + d` of a projection splits into head `h = n / 256` and channel `d = n % 256`;
    with the head axis moved before the token axis, entry (b, h, l, d) is the projection `proj`. -/
theorem proj_eq (x0 : (⟨S8x256x32x32, .f32⟩ : BufTy).Contents (Elt Ideal)) (W : (⟨S256x2048, .f32⟩ : BufTy).Contents (Elt Ideal))
    (bias : (⟨S2048, .f32⟩ : BufTy).Contents (Elt Ideal)) (b h : Fin 8) (l : Fin 1024) (d : Fin 256) :
    val_main_v9 (F := Ideal) x0 W bias (ix4 b h l d) = proj x0 W bias b h l d := by
  rw [val_main_v9_apply, val_main_v8_apply]
  have e : idx_main_v8 (idx_main_v9 (ix4 b h l d)) = ix3 b l (col h d) := funext fun a => Fin.ext (by
    have hb := b.isLt
    have hh := h.isLt
    have hl := l.isLt
    have hd := d.isLt
    match a with
    | ⟨0, _⟩ => show (((b.val * 1024 + l.val) * 8 + h.val) * 256 + d.val) / 2097152 = b.val; omega
    | ⟨1, _⟩ => show (((b.val * 1024 + l.val) * 8 + h.val) * 256 + d.val) / 2048 % 1024 = l.val; omega
    | ⟨2, _⟩ => show (((b.val * 1024 + l.val) * 8 + h.val) * 256 + d.val) % 2048 = h.val * 256 + d.val; omega)
  rw [e, lin_eq]
  rfl

/-- The key projection is the same stage with the key's weights. -/
theorem projK_eq (x0 : (⟨S8x256x32x32, .f32⟩ : BufTy).Contents (Elt Ideal)) (W : (⟨S256x2048, .f32⟩ : BufTy).Contents (Elt Ideal))
    (bias : (⟨S2048, .f32⟩ : BufTy).Contents (Elt Ideal)) (b h : Fin 8) (l : Fin 1024) (d : Fin 256) :
    val_main_v15 (F := Ideal) x0 W bias (ix4 b h l d) = proj x0 W bias b h l d :=
  proj_eq x0 W bias b h l d

/-- The value projection is the same stage with the value's weights. -/
theorem projV_eq (x0 : (⟨S8x256x32x32, .f32⟩ : BufTy).Contents (Elt Ideal)) (W : (⟨S256x2048, .f32⟩ : BufTy).Contents (Elt Ideal))
    (bias : (⟨S2048, .f32⟩ : BufTy).Contents (Elt Ideal)) (b h : Fin 8) (l : Fin 1024) (d : Fin 256) :
    val_main_v21 (F := Ideal) x0 W bias (ix4 b h l d) = proj x0 W bias b h l d :=
  proj_eq x0 W bias b h l d

/-! ## The scores and their row maximum -/

/-- The score of query `l` against key `j` in head `h`: the dot product of the two projections over the 256
    channels, times the scale `1 / √256 = 1/16`. -/
theorem score_eq (x0 : (⟨S8x256x32x32, .f32⟩ : BufTy).Contents (Elt Ideal)) (x1 x3 : (⟨S256x2048, .f32⟩ : BufTy).Contents (Elt Ideal))
    (x2 x4 : (⟨S2048, .f32⟩ : BufTy).Contents (Elt Ideal)) (b h : Fin 8) (l j : Fin 1024) :
    val_main_v24 (F := Ideal) x0 x1 x2 x3 x4 (ix4 b h l j) = scoreRef x0 x1 x3 x2 x4 b h l j := by
  rw [val_main_v24_apply, val_main_v22_apply, val_main_v23_apply, val_main_v1_apply, val_main_cst_0_apply,
    val_main_v0_apply, val_main_cst_apply, Ideal.mulf_def, Ideal.hostDivf_def, Ideal.hostUnary_sqrt_def,
    Ideal.ofBits_def, Ideal.ofBits_def, Cert.Consts.ref_scale]
  unfold scoreRef
  refine congrArg (· * ((1 / 16 : ℝ) : EReal)) (Finset.sum_congr rfl fun k _ => ?_)
  have e1 : lidx_main_v22 (ix4 b h l j) k = ix4 b h l k :=
    funext fun a => Fin.ext (by match a with | ⟨0, _⟩ => rfl | ⟨1, _⟩ => rfl | ⟨2, _⟩ => rfl | ⟨3, _⟩ => rfl)
  have e2 : ridx_main_v22 (ix4 b h l j) k = ix4 b h j k :=
    funext fun a => Fin.ext (by match a with | ⟨0, _⟩ => rfl | ⟨1, _⟩ => rfl | ⟨2, _⟩ => rfl | ⟨3, _⟩ => rfl)
  rw [e1, e2, proj_eq, projK_eq]

/-- The maximum of a row of scores: the reduction over the key axis starts from `-∞`, and the further maximum
    with `-∞` changes nothing. -/
theorem max_eq (x0 : (⟨S8x256x32x32, .f32⟩ : BufTy).Contents (Elt Ideal)) (x1 x3 : (⟨S256x2048, .f32⟩ : BufTy).Contents (Elt Ideal))
    (x2 x4 : (⟨S2048, .f32⟩ : BufTy).Contents (Elt Ideal)) (b h : Fin 8) (l : Fin 1024) :
    val_main_v27 (F := Ideal) x0 x1 x2 x3 x4 (ix3 b h l) = rowMax (scoreRef x0 x1 x3 x2 x4 b h l) := by
  rw [val_main_v27_apply, val_main_v26_apply, val_main_cst_2_apply, Ideal.maximumf_def, Ideal.ofBits_def,
    Cert.Consts.ofBits_neg_inf, max_eq_right bot_le]
  unfold val_main_v25
  have hr : S8x8x1024x1024.Reduces [3] S8x8x1024 := by decide
  rw [Host.reduce_eq_fold_single FloatOps.maximumf _ _ Gen.reducesTo_S8x8x1024x1024_S8x8x1024_d3 hr Gen.h_S_,
    val_main_cst_1_apply, Ideal.ofBits_def, Cert.Consts.ofBits_neg_inf]
  have hf : (val_main_v24 (F := Ideal) x0 x1 x2 x3 x4 ∘ hr.lift (ix3 b h l)) = scoreRef x0 x1 x3 x2 x4 b h l :=
    funext fun k => by
      refine Eq.trans (congrArg (val_main_v24 (F := Ideal) x0 x1 x2 x3 x4) ?_)
        (score_eq x0 x1 x3 x2 x4 b h l (⟨k.val, k.isLt⟩ : Fin 1024))
      refine funext fun c => Fin.ext ?_
      match c with
      | ⟨0, _⟩ => rfl
      | ⟨1, _⟩ => rfl
      | ⟨2, _⟩ => rfl
      | ⟨3, _⟩ => rfl
  rw [hf]
  rfl

/-! ## The softmax and the weighted sum of the values -/

/-- A score less its row's maximum, exponentiated. -/
theorem exp_eq (x0 : (⟨S8x256x32x32, .f32⟩ : BufTy).Contents (Elt Ideal)) (x1 x3 : (⟨S256x2048, .f32⟩ : BufTy).Contents (Elt Ideal))
    (x2 x4 : (⟨S2048, .f32⟩ : BufTy).Contents (Elt Ideal)) (b h : Fin 8) (l j : Fin 1024) :
    val_main_v31 (F := Ideal) x0 x1 x2 x3 x4 (ix4 b h l j)
      = Ideal.exp (scoreRef x0 x1 x3 x2 x4 b h l j - rowMax (scoreRef x0 x1 x3 x2 x4 b h l)) := by
  rw [val_main_v31_apply, val_main_v30_apply, val_main_v29_apply, val_main_v28_apply, Ideal.hostUnary_exp_def,
    Ideal.subf_def, score_eq]
  have e : idx_main_v28 (idx_main_v29 (ix4 b h l j)) = ix3 b h l :=
    funext fun a => Fin.ext (by match a with | ⟨0, _⟩ => rfl | ⟨1, _⟩ => rfl | ⟨2, _⟩ => rfl)
  rw [e, max_eq]

/-- The row's sum of exponentials: the reduction over the key axis starts from `0`. -/
theorem sum_eq (x0 : (⟨S8x256x32x32, .f32⟩ : BufTy).Contents (Elt Ideal)) (x1 x3 : (⟨S256x2048, .f32⟩ : BufTy).Contents (Elt Ideal))
    (x2 x4 : (⟨S2048, .f32⟩ : BufTy).Contents (Elt Ideal)) (b h : Fin 8) (l : Fin 1024) :
    val_main_v32 (F := Ideal) x0 x1 x2 x3 x4 (ix3 b h l)
      = ∑ j : Fin 1024, Ideal.exp (scoreRef x0 x1 x3 x2 x4 b h l j - rowMax (scoreRef x0 x1 x3 x2 x4 b h l)) := by
  rw [val_main_v32_apply, val_main_cst_3_apply, Ideal.ofBits_def, Ideal.ofBits_zero_f32, zero_add]
  refine Finset.sum_congr rfl fun k _ => ?_
  have e : idx_main_v32 (ix3 b h l) k = ix4 b h l k :=
    funext fun a => Fin.ext (by match a with | ⟨0, _⟩ => rfl | ⟨1, _⟩ => rfl | ⟨2, _⟩ => rfl | ⟨3, _⟩ => rfl)
  rw [e, exp_eq]

/-- The softmax weight of key `j` for query `l`: the exponential over the row's sum. -/
theorem weight_eq (x0 : (⟨S8x256x32x32, .f32⟩ : BufTy).Contents (Elt Ideal)) (x1 x3 : (⟨S256x2048, .f32⟩ : BufTy).Contents (Elt Ideal))
    (x2 x4 : (⟨S2048, .f32⟩ : BufTy).Contents (Elt Ideal)) (b h : Fin 8) (l j : Fin 1024) :
    val_main_v35 (F := Ideal) x0 x1 x2 x3 x4 (ix4 b h l j)
      = Ideal.div (Ideal.exp (scoreRef x0 x1 x3 x2 x4 b h l j - rowMax (scoreRef x0 x1 x3 x2 x4 b h l)))
          (∑ j' : Fin 1024, Ideal.exp (scoreRef x0 x1 x3 x2 x4 b h l j' - rowMax (scoreRef x0 x1 x3 x2 x4 b h l))) := by
  rw [val_main_v35_apply, val_main_v34_apply, val_main_v33_apply, Ideal.hostDivf_def, exp_eq]
  have e : idx_main_v33 (idx_main_v34 (ix4 b h l j)) = ix3 b h l :=
    funext fun a => Fin.ext (by match a with | ⟨0, _⟩ => rfl | ⟨1, _⟩ => rfl | ⟨2, _⟩ => rfl)
  rw [e, sum_eq]

/-- The weighted sum of the values over the 1024 keys, at (b, h, l, d), is the reference arrangement. -/
theorem ctx_eq (x0 : (⟨S8x256x32x32, .f32⟩ : BufTy).Contents (Elt Ideal)) (x1 x3 x5 : (⟨S256x2048, .f32⟩ : BufTy).Contents (Elt Ideal))
    (x2 x4 x6 : (⟨S2048, .f32⟩ : BufTy).Contents (Elt Ideal)) (b h : Fin 8) (l : Fin 1024) (d : Fin 256) :
    val_main_v36 (F := Ideal) x0 x1 x2 x3 x4 x5 x6 (ix4 b h l d) = refOut x0 x1 x3 x5 x2 x4 x6 b l h d := by
  rw [val_main_v36_apply]
  unfold refOut softmaxDot
  refine Finset.sum_congr rfl fun k _ => ?_
  have e1 : lidx_main_v36 (ix4 b h l d) k = ix4 b h l k :=
    funext fun a => Fin.ext (by match a with | ⟨0, _⟩ => rfl | ⟨1, _⟩ => rfl | ⟨2, _⟩ => rfl | ⟨3, _⟩ => rfl)
  have e2 : ridx_main_v36 (ix4 b h l d) k = ix4 b h k d :=
    funext fun a => Fin.ext (by match a with | ⟨0, _⟩ => rfl | ⟨1, _⟩ => rfl | ⟨2, _⟩ => rfl | ⟨3, _⟩ => rfl)
  rw [e1, e2, weight_eq, projV_eq]

/-! ## The result -/

/-- The heads are moved back behind the tokens and (h, d) flattened into the column `h·256 + d`: the reference's
    result at (b, l, h·256 + d) is the reference arrangement at (b, l, h, d). -/
theorem ref_is_refOut (x0 : (⟨S8x256x32x32, .f32⟩ : BufTy).Contents (Elt Ideal)) (x1 x3 x5 : (⟨S256x2048, .f32⟩ : BufTy).Contents (Elt Ideal))
    (x2 x4 x6 : (⟨S2048, .f32⟩ : BufTy).Contents (Elt Ideal)) (b : Fin 8) (l : Fin 1024) (h : Fin 8) (d : Fin 256) :
    Cert.ReferenceIdeal.Read.val_main_v38 (F := Ideal) x0 x1 x2 x3 x4 x5 x6 (ValueIdx.ix3 b l (Cert.Attention.col h d))
      = Cert.Attention.refOut x0 x1 x3 x5 x2 x4 x6 b l h d := by
  rw [val_main_v38_apply, val_main_v37_apply]
  have e : idx_main_v37 (idx_main_v38 (ix3 b l (col h d))) = ix4 b h l d := funext fun a => Fin.ext (by
    have hb := b.isLt
    have hh := h.isLt
    have hl := l.isLt
    have hd := d.isLt
    match a with
    | ⟨0, _⟩ => show ((b.val * 1024 + l.val) * 2048 + (h.val * 256 + d.val)) / 2097152 = b.val; omega
    | ⟨1, _⟩ => show ((b.val * 1024 + l.val) * 2048 + (h.val * 256 + d.val)) / 256 % 8 = h.val; omega
    | ⟨2, _⟩ => show ((b.val * 1024 + l.val) * 2048 + (h.val * 256 + d.val)) / 2048 % 1024 = l.val; omega
    | ⟨3, _⟩ => show ((b.val * 1024 + l.val) * 2048 + (h.val * 256 + d.val)) % 256 = d.val; omega)
  rw [e, ctx_eq]

end Cert.ReferenceIdeal.RefValue

end
-- ==== Proof.AttentionReal.lean ====
/-
  The algebra of the chunked running softmax, over the reals and pushed through the coercion into the
  extended reals.

  For real scores `s` and values `v`, and ANY real reference point `m`, the quotient
      (Σ_j exp (s_j - m) · v_j) / (Σ_j exp (s_j - m))
  does not depend on `m`: moving the reference point from `m` to `m'` multiplies numerator and denominator
  by the same positive factor `exp (m - m')`. The softmax takes `m` to be the row's maximum; the chunked
  arrangement ends at some running maximum and has rescaled its partial sums by exactly these factors on
  the way. So the proof never needs to know WHICH real the maxima are, only that they are real (finite),
  which holds for a nonempty family of reals.
-/
import proofs.«152565_j18279380811977_2_alg».proof.Proof.Attention

noncomputable section

namespace Cert.Attention

open Idealize.ShloMosaic

/-! ## Coercion of sums, exponentials and quotients -/

/-- The coercion of a finite real sum is the sum of the coercions. -/
theorem coe_sum {ι : Type} (t : Finset ι) (f : ι → ℝ) :
    ((∑ i ∈ t, f i : ℝ) : EReal) = ∑ i ∈ t, ((f i : ℝ) : EReal) := by
  classical
  refine Finset.induction_on t (by simp) ?_
  intro a t ha ih
  rw [Finset.sum_insert ha, Finset.sum_insert ha, EReal.coe_add, ih]

theorem exp_coe (r : ℝ) : Ideal.exp ((r : ℝ) : EReal) = ((Real.exp r : ℝ) : EReal) := rfl

theorem exp_bot : Ideal.exp (⊥ : EReal) = 0 := rfl

/-- The quotient of two reals with a nonzero divisor is the real quotient. -/
theorem div_coe (N D : ℝ) (hD : D ≠ 0) :
    Ideal.div ((N : ℝ) : EReal) ((D : ℝ) : EReal) = ((N / D : ℝ) : EReal) := by
  unfold Ideal.div
  rw [if_neg (fun h => hD (EReal.coe_eq_zero.mp h)), ← EReal.coe_inv, ← EReal.coe_mul, div_eq_mul_inv]

/-! ## The maximum of a nonempty real row is real -/

theorem rowMax_coe {n : Nat} (s : Fin n → ℝ) (j0 : Fin n) :
    ∃ m : ℝ, rowMax (fun j => ((s j : ℝ) : EReal)) = ((m : ℝ) : EReal) := by
  have h1 : rowMax (fun j => ((s j : ℝ) : EReal)) ≠ ⊤ := by
    have hlt : rowMax (fun j => ((s j : ℝ) : EReal)) < ⊤ := by
      unfold rowMax
      rw [Finset.fold_max_lt]
      exact ⟨bot_lt_top, fun j _ => EReal.coe_lt_top _⟩
    exact ne_of_lt hlt
  have h2 : rowMax (fun j => ((s j : ℝ) : EReal)) ≠ ⊥ := by
    have hle : ((s j0 : ℝ) : EReal) ≤ rowMax (fun j => ((s j : ℝ) : EReal)) := by
      unfold rowMax
      rw [Finset.le_fold_max]
      exact Or.inr ⟨j0, Finset.mem_univ _, le_refl _⟩
    intro hb
    rw [hb] at hle
    exact absurd (le_bot_iff.mp hle) (EReal.coe_ne_bot _)
  exact ⟨(rowMax (fun j => ((s j : ℝ) : EReal))).toReal, (EReal.coe_toReal h1 h2).symm⟩

/-! ## Partial sums about a reference point -/

/-- `Σ_j exp (s_j - m)`. -/
def den {n : Nat} (m : ℝ) (s : Fin n → ℝ) : ℝ := ∑ j, Real.exp (s j - m)

/-- `Σ_j exp (s_j - m) · v_j`. -/
def num {n : Nat} (m : ℝ) (s v : Fin n → ℝ) : ℝ := ∑ j, Real.exp (s j - m) * v j

/-- Moving the reference point from `m` to `m'` multiplies the sum by `exp (m - m')`. -/
theorem den_rescale {n : Nat} (m m' : ℝ) (s : Fin n → ℝ) : Real.exp (m - m') * den m s = den m' s := by
  unfold den
  rw [Finset.mul_sum]
  refine Finset.sum_congr rfl fun j _ => ?_
  rw [← Real.exp_add]; congr 1; ring

theorem num_rescale {n : Nat} (m m' : ℝ) (s v : Fin n → ℝ) :
    Real.exp (m - m') * num m s v = num m' s v := by
  unfold num
  rw [Finset.mul_sum]
  refine Finset.sum_congr rfl fun j _ => ?_
  rw [← mul_assoc, ← Real.exp_add]; congr 2; ring

theorem den_pos {n : Nat} (m : ℝ) (s : Fin n → ℝ) (j0 : Fin n) : 0 < den m s :=
  Finset.sum_pos (fun j _ => Real.exp_pos _) ⟨j0, Finset.mem_univ _⟩

theorem sum_exp_coe {n : Nat} (m : ℝ) (s : Fin n → ℝ) :
    (∑ j, Ideal.exp (((s j : ℝ) : EReal) - ((m : ℝ) : EReal))) = ((den m s : ℝ) : EReal) := by
  unfold den
  rw [coe_sum]
  refine Finset.sum_congr rfl fun j _ => ?_
  rw [← EReal.coe_sub, exp_coe]

theorem sum_exp_mul_coe {n : Nat} (m : ℝ) (s v : Fin n → ℝ) :
    (∑ j, Ideal.exp (((s j : ℝ) : EReal) - ((m : ℝ) : EReal)) * ((v j : ℝ) : EReal))
      = ((num m s v : ℝ) : EReal) := by
  unfold num
  rw [coe_sum]
  refine Finset.sum_congr rfl fun j _ => ?_
  rw [← EReal.coe_sub, exp_coe, ← EReal.coe_mul]

/-! ## One chunk folded into the running state -/

/-- The first chunk: from the state (`⊥`, 0, 0) the rescaling factor is `exp ⊥ = 0` and the state becomes
    the chunk's own sums about the chunk's maximum. -/
theorem step_first (s v : Fin 256 → ℝ) :
    ∃ m : ℝ, step (⊥, 0, 0) (fun j => ((s j : ℝ) : EReal)) (fun j => ((v j : ℝ) : EReal))
      = (((m : ℝ) : EReal), ((den m s : ℝ) : EReal), ((num m s v : ℝ) : EReal)) := by
  obtain ⟨m, hm⟩ := rowMax_coe s 0
  refine ⟨m, ?_⟩
  unfold step
  dsimp only
  rw [hm, max_eq_right (bot_le : (⊥ : EReal) ≤ ((m : ℝ) : EReal))]
  simp only [mul_zero, zero_add]
  rw [sum_exp_coe, sum_exp_mul_coe]

/-- A later chunk: the new maximum is some real `m'`, the old sums are rescaled by `exp (m - m')` and the
    chunk's sums about `m'` are added. -/
theorem step_next (m D N : ℝ) (s v : Fin 256 → ℝ) :
    ∃ m' : ℝ, step (((m : ℝ) : EReal), ((D : ℝ) : EReal), ((N : ℝ) : EReal))
        (fun j => ((s j : ℝ) : EReal)) (fun j => ((v j : ℝ) : EReal))
      = (((m' : ℝ) : EReal), ((Real.exp (m - m') * D + den m' s : ℝ) : EReal),
          ((Real.exp (m - m') * N + num m' s v : ℝ) : EReal)) := by
  obtain ⟨r, hr⟩ := rowMax_coe s 0
  have hmax : ∃ m' : ℝ, max ((m : ℝ) : EReal) ((r : ℝ) : EReal) = ((m' : ℝ) : EReal) := by
    rcases max_choice ((m : ℝ) : EReal) ((r : ℝ) : EReal) with h | h
    · exact ⟨m, h⟩
    · exact ⟨r, h⟩
  obtain ⟨m', hm'⟩ := hmax
  refine ⟨m', ?_⟩
  unfold step
  dsimp only
  rw [hr, hm', sum_exp_coe, sum_exp_mul_coe, ← EReal.coe_sub, exp_coe, ← EReal.coe_mul, ← EReal.coe_mul,
    ← EReal.coe_add, ← EReal.coe_add]

/-- The invariant: if the state holds the sums of the chunks in `T` about `m`, then after one more chunk
    `c ∉ T` it holds the sums of the chunks in `insert c T` about the new maximum. -/
theorem step_acc (s v : Fin 4 → Fin 256 → ℝ) (T : Finset (Fin 4)) (c : Fin 4) (hc : c ∉ T) (m : ℝ) :
    ∃ m' : ℝ, step (((m : ℝ) : EReal), ((∑ a ∈ T, den m (s a) : ℝ) : EReal),
          ((∑ a ∈ T, num m (s a) (v a) : ℝ) : EReal))
        (fun j => ((s c j : ℝ) : EReal)) (fun j => ((v c j : ℝ) : EReal))
      = (((m' : ℝ) : EReal), ((∑ a ∈ insert c T, den m' (s a) : ℝ) : EReal),
          ((∑ a ∈ insert c T, num m' (s a) (v a) : ℝ) : EReal)) := by
  obtain ⟨m', hm'⟩ := step_next m (∑ a ∈ T, den m (s a)) (∑ a ∈ T, num m (s a) (v a)) (s c) (v c)
  refine ⟨m', ?_⟩
  rw [hm', Finset.sum_insert hc, Finset.sum_insert hc, Finset.mul_sum, Finset.mul_sum]
  simp only [den_rescale, num_rescale]
  rw [add_comm (den m' (s c)), add_comm (num m' (s c) (v c))]

/-- After the four chunks the state holds the sums of all four about one real reference point. -/
theorem fold4_coe (s v : Fin 4 → Fin 256 → ℝ) :
    ∃ m : ℝ, fold4 (fun c j => ((s c j : ℝ) : EReal)) (fun c j => ((v c j : ℝ) : EReal))
      = (((m : ℝ) : EReal), ((∑ c, den m (s c) : ℝ) : EReal), ((∑ c, num m (s c) (v c) : ℝ) : EReal)) := by
  obtain ⟨m0, h0⟩ := step_first (s 0) (v 0)
  have e0d : den m0 (s 0) = ∑ a ∈ ({0} : Finset (Fin 4)), den m0 (s a) := by rw [Finset.sum_singleton]
  have e0n : num m0 (s 0) (v 0) = ∑ a ∈ ({0} : Finset (Fin 4)), num m0 (s a) (v a) := by
    rw [Finset.sum_singleton]
  rw [e0d, e0n] at h0
  obtain ⟨m1, h1⟩ := step_acc s v {0} 1 (by decide) m0
  obtain ⟨m2, h2⟩ := step_acc s v (insert 1 {0}) 2 (by decide) m1
  obtain ⟨m3, h3⟩ := step_acc s v (insert 2 (insert 1 {0})) 3 (by decide) m2
  refine ⟨m3, ?_⟩
  have huniv : insert 3 (insert 2 (insert 1 ({0} : Finset (Fin 4)))) = Finset.univ := by decide
  rw [huniv] at h3
  simp only [fold4]
  rw [h0, h1, h2, h3]

/-! ## The 1024 keys as four chunks of 256 -/

/-- `key` as a bijection of (chunk, position) pairs with key tokens. -/
def keyEquiv : Fin 4 × Fin 256 ≃ Fin 1024 where
  toFun p := key p.1 p.2
  invFun j := (⟨j.val / 256, by omega⟩, ⟨j.val % 256, by omega⟩)
  left_inv p := by
    rcases p with ⟨c, j⟩
    have hj := j.isLt
    refine Prod.ext (Fin.ext ?_) (Fin.ext ?_)
    · show (c.val * 256 + j.val) / 256 = c.val
      omega
    · show (c.val * 256 + j.val) % 256 = j.val
      omega
  right_inv j := by
    refine Fin.ext ?_
    show j.val / 256 * 256 + j.val % 256 = j.val
    omega

/-- A sum over the 1024 keys is the sum over the four chunks of the sums over each chunk's 256 keys. -/
theorem sum_key (f : Fin 1024 → ℝ) : ∑ j, f j = ∑ c : Fin 4, ∑ jj : Fin 256, f (key c jj) := by
  rw [← Equiv.sum_comp keyEquiv f, Fintype.sum_prod_type]
  rfl

/-! ## The two arrangements on real rows -/

/-- The softmax against the values, for real scores and values: a real quotient about some real `M`. -/
theorem softmaxDot_coe (S V : Fin 1024 → ℝ) :
    ∃ M : ℝ, softmaxDot (fun j => ((S j : ℝ) : EReal)) (fun j => ((V j : ℝ) : EReal))
      = ((num M S V / den M S : ℝ) : EReal) := by
  obtain ⟨M, hM⟩ := rowMax_coe S 0
  refine ⟨M, ?_⟩
  unfold softmaxDot
  rw [hM, sum_exp_coe]
  have hpos : den M S ≠ 0 := (den_pos M S 0).ne'
  unfold num
  rw [Finset.sum_div, coe_sum]
  refine Finset.sum_congr rfl fun j _ => ?_
  rw [← EReal.coe_sub, exp_coe, div_coe _ _ hpos, ← EReal.coe_mul]
  congr 1
  ring

/-- The whole row's weighted sum about `M` is the four chunks' weighted sums about `m`, rescaled. -/
theorem num_key (m M : ℝ) (S V : Fin 1024 → ℝ) :
    num M S V
      = Real.exp (m - M) * ∑ c : Fin 4, num m (fun j => S (key c j)) (fun j => V (key c j)) := by
  have h1 : num M S V = ∑ c : Fin 4, num M (fun j => S (key c j)) (fun j => V (key c j)) :=
    sum_key (fun j => Real.exp (S j - M) * V j)
  rw [h1, Finset.mul_sum]
  refine Finset.sum_congr rfl fun c _ => ?_
  exact (num_rescale m M (fun j => S (key c j)) (fun j => V (key c j))).symm

/-- The whole row's sum about `M` is the four chunks' sums about `m`, rescaled. -/
theorem den_key (m M : ℝ) (S : Fin 1024 → ℝ) :
    den M S = Real.exp (m - M) * ∑ c : Fin 4, den m (fun j => S (key c j)) := by
  have h1 : den M S = ∑ c : Fin 4, den M (fun j => S (key c j)) :=
    sum_key (fun j => Real.exp (S j - M))
  rw [h1, Finset.mul_sum]
  refine Finset.sum_congr rfl fun c _ => ?_
  exact (den_rescale m M (fun j => S (key c j))).symm

/-- The chunked arrangement on a real row: a real quotient about some real `m`. -/
theorem onlineDot_coe (s v : Fin 4 → Fin 256 → ℝ) :
    ∃ m : ℝ, onlineDot (fun c j => ((s c j : ℝ) : EReal)) (fun c j => ((v c j : ℝ) : EReal))
      = (((∑ c, num m (s c) (v c)) / (∑ c, den m (s c)) : ℝ) : EReal) := by
  obtain ⟨m, hm⟩ := fold4_coe s v
  refine ⟨m, ?_⟩
  have hDpos : (∑ c : Fin 4, den m (s c)) ≠ 0 :=
    (Finset.sum_pos (fun c _ => den_pos m (s c) 0) ⟨0, Finset.mem_univ _⟩).ne'
  unfold onlineDot
  rw [hm]
  exact div_coe _ _ hDpos

/-- The chunked running softmax of a real row equals its softmax. -/
theorem onlineDot_eq_softmaxDot (S V : Fin 1024 → ℝ) :
    onlineDot (fun c j => ((S (key c j) : ℝ) : EReal)) (fun c j => ((V (key c j) : ℝ) : EReal))
      = softmaxDot (fun j => ((S j : ℝ) : EReal)) (fun j => ((V j : ℝ) : EReal)) := by
  obtain ⟨M, hM⟩ := softmaxDot_coe S V
  obtain ⟨m, hm⟩ := onlineDot_coe (fun c j => S (key c j)) (fun c j => V (key c j))
  rw [hM, hm, num_key m M S V, den_key m M S, mul_div_mul_left _ _ (Real.exp_pos _).ne']

end Cert.Attention

end
-- ==== Proof.AttentionLaw.lean ====
/-
  The chunked arrangement of the attention equals the reference arrangement on finite inputs.

  With every input entry a real, the projected queries, keys and values are reals (finite sums of products
  of reals plus a real). The kernel's score, with the query scaled before the dot product, is the
  reference's score, with the dot product scaled after: `Σ_d (q_d · (1/16)) · k_d = (Σ_d q_d · k_d) · (1/16)`.
  On real scores and values the chunked running softmax equals the softmax (the algebra module).
-/
import proofs.«152565_j18279380811977_2_alg».proof.Proof.AttentionReal

noncomputable section

namespace Cert.Attention

open Idealize.ShloMosaic Idealize.ShloMosaic.ValueIdx

/-! ## The projections of real inputs are real -/

/-- Channel `c` of token `l` of batch entry `b`, over the reals. -/
def tokR (x : SX.Idx → ℝ) (b : Fin 8) (l : Fin 1024) (c : Fin 256) : ℝ :=
  x (ix4 b c (⟨l.val / 32, by omega⟩ : Fin 32) (⟨l.val % 32, by omega⟩ : Fin 32))

/-- The linear projection of a token for one head, over the reals. -/
def projR (x : SX.Idx → ℝ) (W : SW.Idx → ℝ) (bias : SB.Idx → ℝ) (b h : Fin 8) (l : Fin 1024)
    (d : Fin 256) : ℝ :=
  (∑ c : Fin 256, tokR x b l c * W (ix2 c (col h d))) + bias (ix1 (col h d))

theorem proj_coe (x : SX.Idx → ℝ) (W : SW.Idx → ℝ) (bias : SB.Idx → ℝ) (b h : Fin 8) (l : Fin 1024)
    (d : Fin 256) :
    proj (fun i => ((x i : ℝ) : EReal)) (fun i => ((W i : ℝ) : EReal)) (fun i => ((bias i : ℝ) : EReal)) b h l d
      = ((projR x W bias b h l d : ℝ) : EReal) := by
  unfold proj projR tok tokR
  rw [EReal.coe_add, coe_sum]
  simp only [EReal.coe_mul]

/-- The real score of query `l` against key `j`. -/
def scoreR (x : SX.Idx → ℝ) (Wq Wk : SW.Idx → ℝ) (bq bk : SB.Idx → ℝ) (b h : Fin 8) (l j : Fin 1024) : ℝ :=
  (∑ d : Fin 256, projR x Wq bq b h l d * projR x Wk bk b h j d) * (1 / 16 : ℝ)

theorem scoreRef_coe (x : SX.Idx → ℝ) (Wq Wk : SW.Idx → ℝ) (bq bk : SB.Idx → ℝ) (b h : Fin 8)
    (l j : Fin 1024) :
    scoreRef (fun i => ((x i : ℝ) : EReal)) (fun i => ((Wq i : ℝ) : EReal)) (fun i => ((Wk i : ℝ) : EReal))
        (fun i => ((bq i : ℝ) : EReal)) (fun i => ((bk i : ℝ) : EReal)) b h l j
      = ((scoreR x Wq Wk bq bk b h l j : ℝ) : EReal) := by
  unfold scoreRef scoreR
  rw [EReal.coe_mul, coe_sum]
  simp only [proj_coe, EReal.coe_mul]

/-- Scaling the query before the dot product gives the same score as scaling the dot product. -/
theorem scoreKer_coe (x : SX.Idx → ℝ) (Wq Wk : SW.Idx → ℝ) (bq bk : SB.Idx → ℝ) (b h : Fin 8)
    (l : Fin 1024) (c : Fin 4) (j : Fin 256) :
    scoreKer (fun i => ((x i : ℝ) : EReal)) (fun i => ((Wq i : ℝ) : EReal)) (fun i => ((Wk i : ℝ) : EReal))
        (fun i => ((bq i : ℝ) : EReal)) (fun i => ((bk i : ℝ) : EReal)) b h l c j
      = ((scoreR x Wq Wk bq bk b h l (key c j) : ℝ) : EReal) := by
  have hre : scoreR x Wq Wk bq bk b h l (key c j)
      = ∑ d : Fin 256, (projR x Wq bq b h l d * (1 / 16 : ℝ)) * projR x Wk bk b h (key c j) d := by
    unfold scoreR
    rw [Finset.sum_mul]
    refine Finset.sum_congr rfl fun d _ => ?_
    ring
  rw [hre]
  unfold scoreKer
  rw [coe_sum]
  simp only [proj_coe, EReal.coe_mul]

/-! ## The certificate's law -/

theorem kerOut_eq_refOut (x : SX.Idx → EReal) (Wq Wk Wv : SW.Idx → EReal) (bq bk bv : SB.Idx → EReal)
    (hx : ∀ i, ∃ r : ℝ, x i = (r : EReal)) (hWq : ∀ i, ∃ r : ℝ, Wq i = (r : EReal))
    (hWk : ∀ i, ∃ r : ℝ, Wk i = (r : EReal)) (hWv : ∀ i, ∃ r : ℝ, Wv i = (r : EReal))
    (hbq : ∀ i, ∃ r : ℝ, bq i = (r : EReal)) (hbk : ∀ i, ∃ r : ℝ, bk i = (r : EReal))
    (hbv : ∀ i, ∃ r : ℝ, bv i = (r : EReal))
    (b : Fin 8) (l : Fin 1024) (h : Fin 8) (d : Fin 256) :
    kerOut x Wq Wk Wv bq bk bv b l h d = refOut x Wq Wk Wv bq bk bv b l h d := by
  choose xr hxr using hx
  choose Wqr hWqr using hWq
  choose Wkr hWkr using hWk
  choose Wvr hWvr using hWv
  choose bqr hbqr using hbq
  choose bkr hbkr using hbk
  choose bvr hbvr using hbv
  obtain rfl : x = fun i => ((xr i : ℝ) : EReal) := funext hxr
  obtain rfl : Wq = fun i => ((Wqr i : ℝ) : EReal) := funext hWqr
  obtain rfl : Wk = fun i => ((Wkr i : ℝ) : EReal) := funext hWkr
  obtain rfl : Wv = fun i => ((Wvr i : ℝ) : EReal) := funext hWvr
  obtain rfl : bq = fun i => ((bqr i : ℝ) : EReal) := funext hbqr
  obtain rfl : bk = fun i => ((bkr i : ℝ) : EReal) := funext hbkr
  obtain rfl : bv = fun i => ((bvr i : ℝ) : EReal) := funext hbvr
  have hK : scoreKer (fun i => ((xr i : ℝ) : EReal)) (fun i => ((Wqr i : ℝ) : EReal))
      (fun i => ((Wkr i : ℝ) : EReal)) (fun i => ((bqr i : ℝ) : EReal)) (fun i => ((bkr i : ℝ) : EReal)) b h l
      = fun c j => ((scoreR xr Wqr Wkr bqr bkr b h l (key c j) : ℝ) : EReal) := by
    funext c j
    exact scoreKer_coe xr Wqr Wkr bqr bkr b h l c j
  have hR : scoreRef (fun i => ((xr i : ℝ) : EReal)) (fun i => ((Wqr i : ℝ) : EReal))
      (fun i => ((Wkr i : ℝ) : EReal)) (fun i => ((bqr i : ℝ) : EReal)) (fun i => ((bkr i : ℝ) : EReal)) b h l
      = fun j => ((scoreR xr Wqr Wkr bqr bkr b h l j : ℝ) : EReal) := by
    funext j
    exact scoreRef_coe xr Wqr Wkr bqr bkr b h l j
  unfold kerOut refOut
  rw [hK, hR]
  simp only [proj_coe]
  exact onlineDot_eq_softmaxDot (scoreR xr Wqr Wkr bqr bkr b h l) (fun j => projR xr Wvr bvr b h j d)

end Cert.Attention

end
-- ==== Proof.Finite.lean ====
/-
  From the finite-inputs precondition to finiteness of every input entry.

  The predicate is the conjunction, over the seven arrays, of "every entry `x` has `|x| < +∞`", each conjunct a
  reduction by `and` over all axes of the elementwise comparison of `|x| = max x (-x)` against `+∞`. If the
  predicate is 1, each conjunct is 1, so each reduced comparison is 1 at every entry; and `max x (-x) < ⊤` in the
  extended reals says `x ≠ ⊤` and `-x ≠ ⊤`, that is `x ≠ ⊥`: `x` is a real.
-/
import proofs.«152565_j18279380811977_2_alg».proof.Pre_finite_inputs
import proofs.«152565_j18279380811977_2_alg».proof.Proof.Gen.Pre_finite_inputs
import Idealize.ShloMosaic.PureOps.Ideal
import Idealize.ShloMosaic.Lib.ReduceAll
import Idealize.ShloMosaic.Lib.ValueIdx

noncomputable section

namespace Cert.Finite

open Idealize.ShloMosaic Cert.Pre_finite_inputs

/-- The scalar shape has one index. -/
instance subsingleton_scalar_idx : Subsingleton S_.Idx := ⟨fun a b => funext fun d => d.elim0⟩

/-- The pattern `0x7F800000` denotes `+∞`. -/
theorem ofBits_inf : Ideal.ofBits .f32 0x7F800000#32 = (⊤ : EReal) := by
  simp [Ideal.ofBits, Ideal.ieee]

/-- An extended real whose absolute value is below `+∞` is a real. -/
theorem real_of_abs_lt_inf (x : EReal)
    (h : Ideal.cmp .olt (max x (-x)) (Ideal.ofBits .f32 0x7F800000#32) = 1#1) :
    ∃ r : ℝ, x = (r : EReal) := by
  rw [ofBits_inf] at h
  have hlt : max x (-x) < ⊤ := by
    by_contra hn
    simp [Ideal.cmp, hn] at h
  rw [max_lt_iff] at hlt
  have h1 : x ≠ ⊤ := ne_of_lt hlt.1
  have h2 : x ≠ ⊥ := by
    intro hb
    rw [hb] at hlt
    simp at hlt
  exact ⟨x.toReal, (EReal.coe_toReal h1 h2).symm⟩

/-- One conjunct of the predicate: if the reduction by `and`, over all axes, of `|a| < +∞` is 1, then every
    entry of `a` is a real. -/
theorem finite_of_all {s : Shape} {axes : List (Fin s.rank)} (a : FVec Ideal s .f32)
    (hb : S_.BroadcastsInDim s (![] : Fin 0 → Fin s.rank)) (hr : s.ReducesTo axes S_) (hu : 0 < S_.numel)
    (j : S_.Idx)
    (e : Host.reduce IntOp.andi
        (cmpf .olt (Host.absf a) (broadcastInDim s ![] hb (constant (F := Ideal) S_ .f32 0x7F800000#32)))
        (constantI S_ 1 1#1) hr hu j = 1#1)
    (i : s.Idx) : ∃ r : ℝ, a i = (r : EReal) :=
  real_of_abs_lt_inf (a i) (Host.reduce_andi_all _ _ hr hu j e i)

/-- If the finite-inputs predicate of the seven arrays is all ones, every entry of every array is a real. -/
theorem finite_of_pre [Cert.Pre_finite_inputs.Facts]
    (a0 : FVec Ideal S8x256x32x32 .f32) (a1 : FVec Ideal S256x2048 .f32) (a2 : FVec Ideal S2048 .f32)
    (a3 : FVec Ideal S256x2048 .f32) (a4 : FVec Ideal S2048 .f32) (a5 : FVec Ideal S256x2048 .f32)
    (a6 : FVec Ideal S2048 .f32)
    (h : Cert.Pre_finite_inputs.fn (F := Ideal) a0 a1 a2 a3 a4 a5 a6 = fun _ => 1#1) :
    (∀ i, ∃ r : ℝ, a0 i = (r : EReal)) ∧ (∀ i, ∃ r : ℝ, a1 i = (r : EReal)) ∧
    (∀ i, ∃ r : ℝ, a2 i = (r : EReal)) ∧ (∀ i, ∃ r : ℝ, a3 i = (r : EReal)) ∧
    (∀ i, ∃ r : ℝ, a4 i = (r : EReal)) ∧ (∀ i, ∃ r : ℝ, a5 i = (r : EReal)) ∧
    (∀ i, ∃ r : ℝ, a6 i = (r : EReal)) := by
  have h0 := congrFun h ValueIdx.ix0
  dsimp only [Cert.Pre_finite_inputs.fn, Cert.Pre_finite_inputs.fn_part1] at h0
  obtain ⟨h05, e6⟩ := IntOp.andi_eq_one.1 h0
  obtain ⟨h04, e5⟩ := IntOp.andi_eq_one.1 h05
  obtain ⟨h03, e4⟩ := IntOp.andi_eq_one.1 h04
  obtain ⟨h02, e3⟩ := IntOp.andi_eq_one.1 h03
  obtain ⟨h01, e2⟩ := IntOp.andi_eq_one.1 h02
  obtain ⟨e0, e1⟩ := IntOp.andi_eq_one.1 h01
  exact ⟨fun i => finite_of_all a0 _ _ _ _ e0 i, fun i => finite_of_all a1 _ _ _ _ e1 i,
    fun i => finite_of_all a2 _ _ _ _ e2 i, fun i => finite_of_all a3 _ _ _ _ e3 i,
    fun i => finite_of_all a4 _ _ _ _ e4 i, fun i => finite_of_all a5 _ _ _ _ e5 i,
    fun i => finite_of_all a6 _ _ _ _ e6 i⟩

end Cert.Finite

end
-- ==== Proof.lean ====
/-
  Multi-head attention of an image's tokens: the fused kernel against the plain reference, over the extended reals.

  An input of 8 images, 256 channels, 32 × 32 pixels is read as 8 × 1024 tokens of 256 channels.  Three linear maps
  (weights [256, 2048] and biases [2048]: eight heads of 256 columns each) project every token to a query, a key and a
  value per head.  For batch entry `b`, head `h`, query token `l` and channel `d` the result is
      Σ_j softmax_j (q_l · k_j / 16) · v_j,d        (j over the 1024 key tokens),
  stored at index (b, l, h · 256 + d) of an [8, 1024, 2048] array.

  The reference forms the whole [1024, 1024] score matrix of a head, scales it by 1 / √256, subtracts each row's
  maximum, exponentiates, normalises by the row's sum and multiplies by the values.  The kernel works on an 8 × 8
  grid of (batch entry, head) points: it projects the batch entry's tokens through the head's 768 stacked
  query | key | value columns in one product, scales the query by the stored 1/16, and visits the keys in four
  chunks of 256 with a running maximum, denominator and numerator, dividing once at the end.

  The two agree for finite arguments: 1 / √256 is exactly 1/16; a common scalar factor moves between the query
  and the score; and rescaling the running sums by exp (old maximum − new maximum) at each chunk leaves numerator
  over denominator equal to the softmax-weighted sum (`Cert.Attention.kerOut_eq_refOut`).  That law is proved
  where every projection and score is a real number, which the precondition (all arguments finite) supplies.

  The three programs' frames: the kernel's and its idealization's are the pipeline's frame over the body run once at
  a symbolic grid point; the reference has no kernel, and its frame is its run with the result dropped.  The
  idealization rewrote no operation, so `preserves` is trivial.
-/
import proofs.«152565_j18279380811977_2_alg».proof.Defs
import proofs.«152565_j18279380811977_2_alg».proof.Proof.Gen.Kernel
import proofs.«152565_j18279380811977_2_alg».proof.Proof.Gen.Kernel.Skeleton
import proofs.«152565_j18279380811977_2_alg».proof.Proof.Gen.Kernel.Launch
import proofs.«152565_j18279380811977_2_alg».proof.Proof.Gen.Kernel.Points
import proofs.«152565_j18279380811977_2_alg».proof.Proof.Gen.KernelIdeal
import proofs.«152565_j18279380811977_2_alg».proof.Proof.Gen.KernelIdeal.Skeleton
import proofs.«152565_j18279380811977_2_alg».proof.Proof.Gen.KernelIdeal.Launch
import proofs.«152565_j18279380811977_2_alg».proof.Proof.Gen.KernelIdeal.Points
import proofs.«152565_j18279380811977_2_alg».proof.Proof.Gen.ReferenceIdeal
import proofs.«152565_j18279380811977_2_alg».proof.Proof.Gen.ReferenceIdeal.Run
import proofs.«152565_j18279380811977_2_alg».proof.Proof.Gen.ReferenceIdeal.Read
import proofs.«152565_j18279380811977_2_alg».proof.Proof.Gen.Pre_finite_inputs
import proofs.«152565_j18279380811977_2_alg».proof.Proof.KernelFrame
import proofs.«152565_j18279380811977_2_alg».proof.Proof.KernelRun
import proofs.«152565_j18279380811977_2_alg».proof.Proof.RefValue
import proofs.«152565_j18279380811977_2_alg».proof.Proof.AttentionLaw
import proofs.«152565_j18279380811977_2_alg».proof.Proof.Finite
import Idealize.ShloMosaic.Adequacy
import Idealize.ShloMosaic.Init

set_option maxRecDepth 16384

noncomputable section

namespace Cert.Proof

open Idealize.ShloMosaic Idealize.ShloMosaic.ValueIdx Idealize.SL.Sem Cert.Attention

/-- For finite arguments the reference's result array is the kernel's, index by index: at (b, l, n) both are the
    attention of batch entry `b`, head `n / 256`, query `l`, channel `n % 256`, the reference's by its softmax of
    the whole score row, the kernel's by its four chunks. -/
theorem reference_eq_kernel
    (x0 : (⟨Cert.ReferenceIdeal.S8x256x32x32, .f32⟩ : BufTy).Contents (Elt Ideal))
    (x1 : (⟨Cert.ReferenceIdeal.S256x2048, .f32⟩ : BufTy).Contents (Elt Ideal))
    (x2 : (⟨Cert.ReferenceIdeal.S2048, .f32⟩ : BufTy).Contents (Elt Ideal))
    (x3 : (⟨Cert.ReferenceIdeal.S256x2048, .f32⟩ : BufTy).Contents (Elt Ideal))
    (x4 : (⟨Cert.ReferenceIdeal.S2048, .f32⟩ : BufTy).Contents (Elt Ideal))
    (x5 : (⟨Cert.ReferenceIdeal.S256x2048, .f32⟩ : BufTy).Contents (Elt Ideal))
    (x6 : (⟨Cert.ReferenceIdeal.S2048, .f32⟩ : BufTy).Contents (Elt Ideal))
    (hfin : (∀ i, ∃ r : ℝ, x0 i = (r : EReal)) ∧ (∀ i, ∃ r : ℝ, x1 i = (r : EReal)) ∧
      (∀ i, ∃ r : ℝ, x2 i = (r : EReal)) ∧ (∀ i, ∃ r : ℝ, x3 i = (r : EReal)) ∧
      (∀ i, ∃ r : ℝ, x4 i = (r : EReal)) ∧ (∀ i, ∃ r : ℝ, x5 i = (r : EReal)) ∧
      (∀ i, ∃ r : ℝ, x6 i = (r : EReal))) :
    Cert.ReferenceIdeal.Read.val_main_v38 (F := Ideal) x0 x1 x2 x3 x4 x5 x6
      = Cert.KernelIdeal.Whole.outArray x0 x1 x3 x5 x2 x4 x6 := by
  obtain ⟨h0, h1, h2, h3, h4, h5, h6⟩ := hfin
  funext i
  have hi2 : (i 2).val < 2048 := (i 2).isLt
  have e : i = ix3 (i 0) (i 1) (col (⟨(i 2).val / 256, by omega⟩ : Fin 8) (⟨(i 2).val % 256, by omega⟩ : Fin 256)) :=
    (eq_ix3 i).trans (congrArg (ix3 (i 0) (i 1))
      (Fin.ext (by show (i 2).val = (i 2).val / 256 * 256 + (i 2).val % 256; omega)))
  refine (congrArg (Cert.ReferenceIdeal.Read.val_main_v38 (F := Ideal) x0 x1 x2 x3 x4 x5 x6) e).trans ?_
  refine (Cert.ReferenceIdeal.RefValue.ref_is_refOut x0 x1 x3 x5 x2 x4 x6 (i 0) (i 1) _ _).trans ?_
  exact (kerOut_eq_refOut x0 x1 x3 x5 x2 x4 x6 h0 h1 h3 h5 h2 h4 h6 (i 0) (i 1) _ _).symm

/-- From memories agreeing on the seven arguments, all finite, the two idealized programs both run to the end and
    leave the same [8, 1024, 2048] array: the kernel's blocks assembled, and the reference's composed term. -/
theorem algebraic : Cert.algebraic_KernelIdeal_ReferenceIdeal := by
  intro m ρ m' ρ' hpre hagree
  refine ⟨fun c => Cert.KernelIdeal.Whole.outOf m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v38_eq, a0, a1, a2, a3, a4, a5, a6]
  exact reference_eq_kernel _ _ _ _ _ _ _ (Cert.Finite.finite_of_pre _ _ _ _ _ _ _ (hpre c))

theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ,
  fun m ρ _ => Cert.KernelIdeal.Hand.frame m ρ,
  fun m ρ _ => (θ_run Cert.ReferenceIdeal.defs _ _).mono (fun _ h c => (h c).2) (Cert.ReferenceIdeal.Value.run (F := Ideal) m ρ),
  trivial,
  algebraic⟩

end Cert.Proof

end
